-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S1024x1024 .f32) (main_arg2 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 9
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | .hbm, ⟨4, _⟩ => ⟨S1024x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1, .f32⟩
  | .local _ .vmem, ⟨19, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  broadcasts_S1024x1_S1024x1024 : S1024x1.Broadcasts S1024x1024
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .bf16 = 32 ∨ (Rect.block (s := S8192x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S_ : Shape := ⟨0, ![]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S8192x1024_S8192x8192_1_1_0_0_n_n_wf : DotDims.WF S8192x1024 S8192x1024 S8192x8192 [1] [1] [0] [0] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KFrame0.lean ====
/-
  The projection kernel's grid of eight row blocks, at any float instance: what each of its three output blocks
  holds after the body at a point (the two products' block and the converted input block, as the canon of the
  body's one store into each), the body's triple, and the proof data of its pipeline over the buffer contents the
  region is entered with.
-/
import proofs.«107257_j65481071400351_2_alg».proof.Proof.Gen.Kernel.Launch
import proofs.«107257_j65481071400351_2_alg».proof.Proof.Gen.Kernel.Skeleton
import proofs.«107257_j65481071400351_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window's buffer -/

/-- The whole block: the one rectangle every load and store of the body goes through. -/
abbrev rB : Rect S1024x1024 := Rect.unit (s := S1024x1024) ![0, 0] S1024x1024.size inb_S1024x1024_S1024x1024_0_0

/-- The first product's block, from the input block and the first weight matrix. -/
def out0_3 (x0 : Vec F S1024x1024 .f32) (x1 : Vec F S1024x1024 .bf16) : Vec F S1024x1024 .bf16 :=
  View.canon [⟨rB, k0_pay2 (View.ld x0 rB) (View.ld x1 rB)⟩]
/-- The second product's block. -/
def out0_4 (x0 : Vec F S1024x1024 .f32) (x2 : Vec F S1024x1024 .bf16) : Vec F S1024x1024 .bf16 :=
  View.canon [⟨rB, k0_pay3 (View.ld x0 rB) (View.ld x2 rB)⟩]
/-- The converted input block. -/
def out0_5 (x0 : Vec F S1024x1024 .f32) : Vec F S1024x1024 .bf16 :=
  View.canon [⟨rB, k0_pay1 (View.ld x0 rB)⟩]

/-- One store of the whole block covers it. -/
theorem cover0 (p0 : Vec F S1024x1024 .bf16) (y : S1024x1024.Idx) :
    ∃ pc ∈ ([⟨rB, p0⟩] : List (View.Piece (Elt F) S1024x1024 .bf16)), y ∈ pc.1.set :=
  View.cover_of_tiled [⟨rB, p0⟩] S1024x1024.size (by rfl) y

/-! ## The body's triple -/

set_option maxHeartbeats 4000000 in
/-- On whole staging memrefs, the inputs' at read contents and the outputs' at anything, the body runs to the
    continuation holding the inputs' as they were and each output's at its block. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (x0 : Vec F S1024x1024 .f32) (x1 x2 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2) ∗ owns (c : Thread nD τ) arg6 fullShare (out0_5 x0)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- The proof data of the projection pipeline on core c: the arrays as the region finds them; after the body at a
    point each input's buffer at its block and each output's at its block of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
    | ⟨5, _⟩ => out0_5 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KFrame1S.lean ====
/-
  The attention kernel's grid of 8 x 8 points (query block, key block), at any float instance: what is shared by
  the three control cases of its body — the blocks of its windows, the two branch conditions in closed form over
  the grid, the staging and scratch memrefs, and the region invariant with the two scratch columns named.
-/
import proofs.«107257_j65481071400351_2_alg».proof.Proof.Gen.Kernel.Launch
import proofs.«107257_j65481071400351_2_alg».proof.Proof.Gen.Kernel.Skeleton
import proofs.«107257_j65481071400351_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first branch is taken where the key-block coordinate is 0: the running arrays are reset there. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch is taken where the key-block coordinate is 7: the numerator is divided by the denominator there. -/
abbrev cond1_1 (i : grid1.Coords) : Prop := (Scalar.cmpi .ne (Scalar.extui (Scalar.cmpi .eq (BitVec.ofNat 32 (i 1).val) 7#32)) 0#32) = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## The memrefs -/

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The two scratch columns: the running maximum and the running denominator. -/
abbrev scM1_0 : Memref sig .tc .vmem S1024x1 .f32 := Memref.whole cc1_scratch0
abbrev scM1_1 : Memref sig .tc .vmem S1024x1 .f32 := Memref.whole cc1_scratch1
abbrev VS1_0 : View sig .tc .vmem S1024x1 .f32 := scM1_0.view
abbrev VS1_1 : View sig .tc .vmem S1024x1 .f32 := scM1_1.view

/-- The scoped buffers of the core that are not this pipeline's staging buffers, in the order the layout lists them: the
    other pipeline's ten staging buffers, each whole at some contents, then the two scratch columns at what is said of them. -/
def scopedChain (c : Dev nD) (S0 S1 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S0 ∗ S1)

/-- The class invariant with the scratch columns as memrefs owned at some contents. -/
theorem PhiA1_eq (c : Dev nD) :
    (Pipeline.ΦA spec1 c : sProp 𝕄)
      = iprop(scopedChain c iprop(∃ d, owns (c : Thread nD τ) scM1_0 fullShare d) iprop(∃ d, owns (c : Thread nD τ) scM1_1 fullShare d) ∗ (∃ r, prngReg c r)) := by
  unfold Pipeline.ΦA; rw [scopedRest1_eq]; unfold scopedChain; simp only [scM1_0, scM1_1, owns_whole]; rfl

end Cert.Kernel.Hand

end
-- ==== Proof.KFrame1A.lean ====
/-
  The attention kernel's body run whole in ONE of its three control cases, at any float instance: on whole
  memrefs holding the three input blocks (and, after the first key block, the running numerator, maximum and
  denominator), the body runs to the end leaving the inputs as they were and the three running arrays with the
  pieces its stores wrote.
-/
import proofs.«107257_j65481071400351_2_alg».proof.Proof.KFrame1S

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and the two scratch columns, with the proof that the
    body runs to the continuation holding them. -/
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (hc0 : cond1_0 i) (hc1 : ¬cond1_1 i)
    (x0 x1 x2 : Vec F S1024x1024 .bf16) :
    Σ' (L5 : List (View.Piece (Elt F) S1024x1024 .f32)) (LS6 : List (View.Piece (Elt F) S1024x1 .f32)), { LS7 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc1_flash_kernel i arg2 harg2 arg3 harg3 arg4 harg4 arg5 harg5 arg6 harg6 arg7 harg7) K } := by
  refine ⟨?_, ?_, ?_, fun E K => ?run⟩
  case run =>
    simp only [cc1_flash_kernel_eq_skeleton]; unfold cc1_flash_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexact H6
    iexists _; iexact H7

end Cert.Kernel.Hand

end
-- ==== Proof.KFrame1B.lean ====
/-
  The attention kernel's body run whole in ONE of its three control cases, at any float instance: on whole
  memrefs holding the three input blocks (and, after the first key block, the running numerator, maximum and
  denominator), the body runs to the end leaving the inputs as they were and the three running arrays with the
  pieces its stores wrote.
-/
import proofs.«107257_j65481071400351_2_alg».proof.Proof.KFrame1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and the two scratch columns, with the proof that the
    body runs to the continuation holding them. -/
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : ¬cond1_1 i)
    (x0 x1 x2 : Vec F S1024x1024 .bf16) (xo5 : Vec F S1024x1024 .f32) (xs6 xs7 : Vec F S1024x1 .f32) :
    Σ' (L5 : List (View.Piece (Elt F) S1024x1024 .f32)) (LS6 : List (View.Piece (Elt F) S1024x1 .f32)), { LS7 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo5 ∗ owns (c : Thread nD τ) arg6 fullShare xs6 ∗ owns (c : Thread nD τ) arg7 fullShare xs7
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc1_flash_kernel i arg2 harg2 arg3 harg3 arg4 harg4 arg5 harg5 arg6 harg6 arg7 harg7) K } := by
  refine ⟨?_, ?_, ?_, fun E K => ?run⟩
  case run =>
    simp only [cc1_flash_kernel_eq_skeleton]; unfold cc1_flash_kernel_skel
    unfold owns
    iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexact H6
    iexists _; iexact H7

end Cert.Kernel.Hand

end
-- ==== Proof.KFrame1C.lean ====
/-
  The attention kernel's body run whole in ONE of its three control cases, at any float instance: on whole
  memrefs holding the three input blocks (and, after the first key block, the running numerator, maximum and
  denominator), the body runs to the end leaving the inputs as they were and the three running arrays with the
  pieces its stores wrote.
-/
import proofs.«107257_j65481071400351_2_alg».proof.Proof.KFrame1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and the two scratch columns, with the proof that the
    body runs to the continuation holding them. -/
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 x1 x2 : Vec F S1024x1024 .bf16) (xo5 : Vec F S1024x1024 .f32) (xs6 xs7 : Vec F S1024x1 .f32) :
    Σ' (L5 : List (View.Piece (Elt F) S1024x1024 .f32)) (LS6 : List (View.Piece (Elt F) S1024x1 .f32)), { LS7 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo5 ∗ owns (c : Thread nD τ) arg6 fullShare xs6 ∗ owns (c : Thread nD τ) arg7 fullShare xs7
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc1_flash_kernel i arg2 harg2 arg3 harg3 arg4 harg4 arg5 harg5 arg6 harg6 arg7 harg7) K } := by
  refine ⟨?_, ?_, ?_, fun E K => ?run⟩
  case run =>
    simp only [cc1_flash_kernel_eq_skeleton]; unfold cc1_flash_kernel_skel
    unfold owns
    iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexact H6
    iexists _; iexact H7

end Cert.Kernel.Hand

end
-- ==== Proof.KFrame1.lean ====
/-
  The attention kernel's 64 grid points put together, at any float instance: what the output block and the two
  scratch columns hold after each point (by recursion on the point: the case its coordinates select, run on what the
  point before left), the region invariant that carries the scratch columns from point to point, the proof data of
  the pipeline, and the body obligation at every point.
-/
import proofs.«107257_j65481071400351_2_alg».proof.Proof.KFrame1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three running arrays: the numerator block, the maximum column, the denominator column. -/
abbrev Trip (F : FTy → Type) : Type := Vec F S1024x1024 .f32 × Vec F S1024x1 .f32 × Vec F S1024x1 .f32

/-- Three lists of pieces read back over junk. -/
def tripleOf (L5 : List (View.Piece (Elt F) S1024x1024 .f32)) (LS6 LS7 : List (View.Piece (Elt F) S1024x1 .f32)) : Trip F :=
  (VO1_3.read (Elt F) (VO1_3.writes (Elt F) VO1_3.junk L5), VS1_0.read (Elt F) (VS1_0.writes (Elt F) VS1_0.junk LS6), VS1_1.read (Elt F) (VS1_1.writes (Elt F) VS1_1.junk LS7))

/-- The body's run at point t in each case, on the point's memrefs and input blocks. -/
abbrev runA (c : Dev nD) (t : Fin cfg1.N) (h0 : t.val % 8 = 0) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => by have := (hcond1_1 t).mp h; omega) (iblk1 V c 0 t) (iblk1 V c 1 t) (iblk1 V c 2 t)
abbrev runB (c : Dev nD) (t : Fin cfg1.N) (h0 : ¬t.val % 8 = 0) (h1 : ¬t.val % 8 = 7) (p : Trip F) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) p.1 p.2.1 p.2.2
abbrev runC (c : Dev nD) (t : Fin cfg1.N) (h0 : ¬t.val % 8 = 0) (h1 : t.val % 8 = 7) (p : Trip F) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) p.1 p.2.1 p.2.2

/-- Each case's pieces tile the buffer they are stored into, so they cover it. -/
theorem coverA_3 (c : Dev nD) (t : Fin cfg1.N) (h0 : t.val % 8 = 0) (y : S1024x1024.Idx) : ∃ pc ∈ (runA V c t h0).1, y ∈ pc.1.set :=
  View.cover_of_tiledL (runA V c t h0).1 S1024x1024.size (by sl_kernel_rfl) y
theorem coverA_6 (c : Dev nD) (t : Fin cfg1.N) (h0 : t.val % 8 = 0) (y : S1024x1.Idx) : ∃ pc ∈ (runA V c t h0).2.1, y ∈ pc.1.set :=
  View.cover_of_tiledL (runA V c t h0).2.1 S1024x1.size (by sl_kernel_rfl) y
theorem coverA_7 (c : Dev nD) (t : Fin cfg1.N) (h0 : t.val % 8 = 0) (y : S1024x1.Idx) : ∃ pc ∈ (runA V c t h0).2.2.1, y ∈ pc.1.set :=
  View.cover_of_tiledL (runA V c t h0).2.2.1 S1024x1.size (by sl_kernel_rfl) y
theorem coverB_3 (c : Dev nD) (t : Fin cfg1.N) (h0 : ¬t.val % 8 = 0) (h1 : ¬t.val % 8 = 7) (p : Trip F) (y : S1024x1024.Idx) : ∃ pc ∈ (runB V c t h0 h1 p).1, y ∈ pc.1.set :=
  View.cover_of_tiledL (runB V c t h0 h1 p).1 S1024x1024.size (by sl_kernel_rfl) y
theorem coverB_6 (c : Dev nD) (t : Fin cfg1.N) (h0 : ¬t.val % 8 = 0) (h1 : ¬t.val % 8 = 7) (p : Trip F) (y : S1024x1.Idx) : ∃ pc ∈ (runB V c t h0 h1 p).2.1, y ∈ pc.1.set :=
  View.cover_of_tiledL (runB V c t h0 h1 p).2.1 S1024x1.size (by sl_kernel_rfl) y
theorem coverB_7 (c : Dev nD) (t : Fin cfg1.N) (h0 : ¬t.val % 8 = 0) (h1 : ¬t.val % 8 = 7) (p : Trip F) (y : S1024x1.Idx) : ∃ pc ∈ (runB V c t h0 h1 p).2.2.1, y ∈ pc.1.set :=
  View.cover_of_tiledL (runB V c t h0 h1 p).2.2.1 S1024x1.size (by sl_kernel_rfl) y
theorem coverC_3 (c : Dev nD) (t : Fin cfg1.N) (h0 : ¬t.val % 8 = 0) (h1 : t.val % 8 = 7) (p : Trip F) (y : S1024x1024.Idx) : ∃ pc ∈ (runC V c t h0 h1 p).1, y ∈ pc.1.set :=
  View.cover_of_tiledL (runC V c t h0 h1 p).1 S1024x1024.size (by sl_kernel_rfl) y
theorem coverC_6 (c : Dev nD) (t : Fin cfg1.N) (h0 : ¬t.val % 8 = 0) (h1 : t.val % 8 = 7) (p : Trip F) (y : S1024x1.Idx) : ∃ pc ∈ (runC V c t h0 h1 p).2.1, y ∈ pc.1.set :=
  View.cover_of_tiledL (runC V c t h0 h1 p).2.1 S1024x1.size (by sl_kernel_rfl) y
theorem coverC_7 (c : Dev nD) (t : Fin cfg1.N) (h0 : ¬t.val % 8 = 0) (h1 : t.val % 8 = 7) (p : Trip F) (y : S1024x1.Idx) : ∃ pc ∈ (runC V c t h0 h1 p).2.2.1, y ∈ pc.1.set :=
  View.cover_of_tiledL (runC V c t h0 h1 p).2.2.1 S1024x1.size (by sl_kernel_rfl) y

/-! ## What the running arrays hold after each point -/

/-- After the body at position n: the case the key-block coordinate selects, run on what position n - 1 left
    (the first key block of a query block starts afresh). -/
def outsAt1 (c : Dev nD) : (n : ℕ) → n < cfg1.N → Trip F
  | 0, hn => tripleOf (runA V c ⟨0, hn⟩ (Nat.zero_mod _)).1 (runA V c ⟨0, hn⟩ (Nat.zero_mod _)).2.1 (runA V c ⟨0, hn⟩ (Nat.zero_mod _)).2.2.1
  | n + 1, hn =>
    if h0 : (n + 1) % 8 = 0 then
      tripleOf (runA V c ⟨n + 1, hn⟩ h0).1 (runA V c ⟨n + 1, hn⟩ h0).2.1 (runA V c ⟨n + 1, hn⟩ h0).2.2.1
    else if h1 : (n + 1) % 8 = 7 then
      tripleOf (runC V c ⟨n + 1, hn⟩ h0 h1 (outsAt1 c n (Nat.lt_of_succ_lt hn))).1 (runC V c ⟨n + 1, hn⟩ h0 h1 (outsAt1 c n (Nat.lt_of_succ_lt hn))).2.1 (runC V c ⟨n + 1, hn⟩ h0 h1 (outsAt1 c n (Nat.lt_of_succ_lt hn))).2.2.1
    else
      tripleOf (runB V c ⟨n + 1, hn⟩ h0 h1 (outsAt1 c n (Nat.lt_of_succ_lt hn))).1 (runB V c ⟨n + 1, hn⟩ h0 h1 (outsAt1 c n (Nat.lt_of_succ_lt hn))).2.1 (runB V c ⟨n + 1, hn⟩ h0 h1 (outsAt1 c n (Nat.lt_of_succ_lt hn))).2.2.1

/-- What the point before left (any value at the first point, where it is not used). -/
abbrev prevAt1 (c : Dev nD) (t : Fin cfg1.N) : Trip F := outsAt1 V c (t.val - 1) (Nat.lt_of_le_of_lt (Nat.sub_le _ _) t.isLt)

theorem outsAt1_A (c : Dev nD) (t : Fin cfg1.N) (h0 : t.val % 8 = 0) :
    outsAt1 V c t.val t.isLt = tripleOf (runA V c t h0).1 (runA V c t h0).2.1 (runA V c t h0).2.2.1 := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = tripleOf (runB V c t h0 h1 (prevAt1 V c t)).1 (runB V c t h0 h1 (prevAt1 V c t)).2.1 (runB V c t h0 h1 (prevAt1 V c t)).2.2.1 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = tripleOf (runC V c t h0 h1 (prevAt1 V c t)).1 (runC V c t h0 h1 (prevAt1 V c t)).2.1 (runC V c t h0 h1 (prevAt1 V c t)).2.2.1 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: at the first point the class invariant (every scratch at anything); afterwards the scoped rest
    with the two scratch columns at what the point before left in them, and the generator register at some state. -/
def PhiS (c : Dev nD) : (n : ℕ) → n ≤ cfg1.N → sProp 𝕄
  | 0, _ => Pipeline.ΦA spec1 c
  | n + 1, hn => iprop(scopedChain c (owns (c : Thread nD τ) scM1_0 fullShare (outsAt1 V c n hn).2.1) (owns (c : Thread nD τ) scM1_1 fullShare (outsAt1 V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedChain c (owns (c : Thread nD τ) scM1_0 fullShare (outsAt1 V c n hn).2.1) (owns (c : Thread nD τ) scM1_1 fullShare (outsAt1 V c n hn).2.2) ∗ (∃ r, prngReg c r)) := rfl

theorem PhiS_pos (c : Dev nD) (n : ℕ) (h : n ≤ cfg1.N) (hz : n ≠ 0) :
    PhiS V c n h = iprop(scopedChain c (owns (c : Thread nD τ) scM1_0 fullShare (outsAt1 V c (n - 1) (by omega)).2.1) (owns (c : Thread nD τ) scM1_1 fullShare (outsAt1 V c (n - 1) (by omega)).2.2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Away from a query block's first key block the output window's buffer holds what the body left at the point
    before: it is written back only after the last key block. -/
theorem before1_3_pos (c : Dev nD) (t : Fin cfg1.N) (h0 : ¬t.val % 8 = 0) (d) :
    (dat1 V c).before 3 t d = (prevAt1 V c t).1 := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- Pieces that cover a whole memref, written over anything, are owned at their read-back. -/
theorem owns_of_writes {s : Shape} {φ : EltTy} (c : Dev nD) (M : Memref sig .tc .vmem s φ) (hM : M.IsWhole) (Vw : View sig .tc .vmem s φ)
    (L : List (View.Piece (Elt F) s φ)) (hcov : ∀ y : s.Idx, ∃ pc ∈ L, y ∈ pc.1.set) :
    iprop(∃ f, M.view.loc (c : Thread nD τ) ↦[M.view.set]{fullShare} M.view.writes (Elt F) f L)
      ⊢ (owns (c : Thread nD τ) M fullShare (Vw.read (Elt F) (Vw.writes (Elt F) Vw.junk L)) : sProp 𝕄) := by
  iintro ⟨%e, H⟩
  unfold owns; iexists _; isplitr
  swap; · iexact H
  ipureintro; exact View.read_writes_of_cover _ _ _ _ _ hcov

set_option maxHeartbeats 8000000 in
/-- The body at any point: the inputs' memrefs hold their blocks; the closed forms of the two conditions say which case
    the point is in; away from a query block's first key block the output buffer and the two scratch columns hold what
    the point before left; so that case's run applies, and the invariant takes the scratch columns back at this point's
    contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3]
  have hN : t.val < 64 := lt_of_lt_of_eq t.isLt (show cfg1.N = 64 from N_1)
  by_cases h0 : t.val % 8 = 0
  · rw [outsAt1_A V c t h0]
    unfold tripleOf; (try dsimp only)
    by_cases hz : t.val = 0
    · rw [PhiS_castSucc V c t, PhiS_zero V c _ _ hz, PhiA1_eq]
      unfold scopedChain
      iintro ⟨⟨⟨B1, B2, B3, B4, B5, B6, B7, B8, B9, B10, HS0, HS1⟩, Hg⟩, Ho, ⟨%d0, H0⟩, ⟨%d1, H1⟩, ⟨%d2, H2⟩, ⟨%d3, H3⟩⟩
      iapply ((runA V c t h0).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H5, H6, H7⟩
      isplitl [B1 B2 B3 B4 B5 B6 B7 B8 B9 B10 H6 H7 Hg]
      · isplitl [B1 B2 B3 B4 B5 B6 B7 B8 B9 B10 H6 H7]
        ·
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [H6]
          · iapply (owns_of_writes c scM1_0 (Memref.isWhole_whole _) VS1_0 _ (coverA_6 V c t h0))
            iexact H6
          iapply (owns_of_writes c scM1_1 (Memref.isWhole_whole _) VS1_1 _ (coverA_7 V c t h0))
          iexact H7
        iexact Hg
      isplitl [Ho]; · iexact Ho
      isplitl [H0]; · iexact H0
      isplitl [H1]; · iexact H1
      isplitl [H2]; · iexact H2
      iapply (owns_of_writes c (ms1_3 t) (hs1_3 t) VO1_3 _ (coverA_3 V c t h0))
      iexact H5
    · rw [PhiS_castSucc V c t, PhiS_pos V c _ _ hz]
      unfold scopedChain
      iintro ⟨⟨⟨B1, B2, B3, B4, B5, B6, B7, B8, B9, B10, HS0, HS1⟩, Hg⟩, Ho, ⟨%d0, H0⟩, ⟨%d1, H1⟩, ⟨%d2, H2⟩, ⟨%d3, H3⟩⟩
      iapply ((runA V c t h0).2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      iintro ⟨H0, H1, H2, H5, H6, H7⟩
      isplitl [B1 B2 B3 B4 B5 B6 B7 B8 B9 B10 H6 H7 Hg]
      · isplitl [B1 B2 B3 B4 B5 B6 B7 B8 B9 B10 H6 H7]
        ·
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [H6]
          · iapply (owns_of_writes c scM1_0 (Memref.isWhole_whole _) VS1_0 _ (coverA_6 V c t h0))
            iexact H6
          iapply (owns_of_writes c scM1_1 (Memref.isWhole_whole _) VS1_1 _ (coverA_7 V c t h0))
          iexact H7
        iexact Hg
      isplitl [Ho]; · iexact Ho
      isplitl [H0]; · iexact H0
      isplitl [H1]; · iexact H1
      isplitl [H2]; · iexact H2
      iapply (owns_of_writes c (ms1_3 t) (hs1_3 t) VO1_3 _ (coverA_3 V c t h0))
      iexact H5
  · have hz : t.val ≠ 0 := fun e => h0 (by rw [e])
    simp only [before1_3_pos V c t h0]
    by_cases h1 : t.val % 8 = 7
    · rw [outsAt1_C V c t h0 h1]
      unfold tripleOf; (try dsimp only)
      rw [PhiS_castSucc V c t, PhiS_pos V c _ _ hz]
      unfold scopedChain
      iintro ⟨⟨⟨B1, B2, B3, B4, B5, B6, B7, B8, B9, B10, HS0, HS1⟩, Hg⟩, Ho, ⟨%d0, H0⟩, ⟨%d1, H1⟩, ⟨%d2, H2⟩, ⟨%d3, H3⟩⟩
      iapply ((runC V c t h0 h1 (prevAt1 V c t)).2.2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H5, H6, H7⟩
      isplitl [B1 B2 B3 B4 B5 B6 B7 B8 B9 B10 H6 H7 Hg]
      · isplitl [B1 B2 B3 B4 B5 B6 B7 B8 B9 B10 H6 H7]
        ·
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [H6]
          · iapply (owns_of_writes c scM1_0 (Memref.isWhole_whole _) VS1_0 _ (coverC_6 V c t h0 h1 (prevAt1 V c t)))
            iexact H6
          iapply (owns_of_writes c scM1_1 (Memref.isWhole_whole _) VS1_1 _ (coverC_7 V c t h0 h1 (prevAt1 V c t)))
          iexact H7
        iexact Hg
      isplitl [Ho]; · iexact Ho
      isplitl [H0]; · iexact H0
      isplitl [H1]; · iexact H1
      isplitl [H2]; · iexact H2
      iapply (owns_of_writes c (ms1_3 t) (hs1_3 t) VO1_3 _ (coverC_3 V c t h0 h1 (prevAt1 V c t)))
      iexact H5
    · rw [outsAt1_B V c t h0 h1]
      unfold tripleOf; (try dsimp only)
      rw [PhiS_castSucc V c t, PhiS_pos V c _ _ hz]
      unfold scopedChain
      iintro ⟨⟨⟨B1, B2, B3, B4, B5, B6, B7, B8, B9, B10, HS0, HS1⟩, Hg⟩, Ho, ⟨%d0, H0⟩, ⟨%d1, H1⟩, ⟨%d2, H2⟩, ⟨%d3, H3⟩⟩
      iapply ((runB V c t h0 h1 (prevAt1 V c t)).2.2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H5, H6, H7⟩
      isplitl [B1 B2 B3 B4 B5 B6 B7 B8 B9 B10 H6 H7 Hg]
      · isplitl [B1 B2 B3 B4 B5 B6 B7 B8 B9 B10 H6 H7]
        ·
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [H6]
          · iapply (owns_of_writes c scM1_0 (Memref.isWhole_whole _) VS1_0 _ (coverB_6 V c t h0 h1 (prevAt1 V c t)))
            iexact H6
          iapply (owns_of_writes c scM1_1 (Memref.isWhole_whole _) VS1_1 _ (coverB_7 V c t h0 h1 (prevAt1 V c t)))
          iexact H7
        iexact Hg
      isplitl [Ho]; · iexact Ho
      isplitl [H0]; · iexact H0
      isplitl [H1]; · iexact H1
      isplitl [H2]; · iexact H2
      iapply (owns_of_writes c (ms1_3 t) (hs1_3 t) VO1_3 _ (coverB_3 V c t h0 h1 (prevAt1 V c t)))
      iexact H5

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch columns' contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ hne, PhiA1_eq]
  unfold scopedChain
  iintro ⟨⟨B1, B2, B3, B4, B5, B6, B7, B8, B9, B10, HS0, HS1⟩, Hg⟩
  isplitl [B1 B2 B3 B4 B5 B6 B7 B8 B9 B10 HS0 HS1]
  ·
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [HS0]; · iexists _; iexact HS0
    iexists _; iexact HS1
  iexact Hg

end Cert.Kernel.Hand

end
-- ==== Proof.KRun.lean ====
/-
  The whole program, at any float instance: two conversions of the weight matrices on the host, the projection
  kernel, the attention kernel. The buffer contents at each boundary are a fold from the launch memory (the host
  operations applied; each kernel's arrays at what its write-backs leave); every weakly fair execution terminates
  with every unscoped buffer at the last boundary's contents.
-/
import proofs.«107257_j65481071400351_2_alg».proof.Proof.KFrame0
import proofs.«107257_j65481071400351_2_alg».proof.Proof.KFrame1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the two conversions (the projection kernel's entry). -/
abbrev W1 : Dev nD → Valuation τ sig (Elt F) := fun c => StableHlo.after hostOps0 (W0 m ρ c)
abbrev Ve1 : (c : Dev nD) → (b : Ref sig .tc) → Buf (Elt F) ((c : Thread nD τ).loc b) := fun c b => W1 m ρ c b
/-- At the projection kernel's exit: its arrays at what the pipeline leaves, every other buffer as entered. -/
def W2 (c : Dev nD) : Valuation τ sig (Elt F) :=
  Pipeline.withArrays spec0 c (W1 m ρ c) fun w => (dat0 (Ve1 m ρ) c).arrAt w cfg0.N
theorem W2_arr (c : Dev nD) (w : Fin cfg0.W) :
    W2 m ρ c (Proc.devRef .tc (Pipeline.arrRef spec0 w)) = (dat0 (Ve1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ve2 : (c : Dev nD) → (b : Ref sig .tc) → Buf (Elt F) ((c : Thread nD τ).loc b) := fun c b => W2 m ρ c b
theorem hF0 (c : Dev nD) (w : Fin cfg0.W) : (dat0 (Ve1 m ρ) c).arrAt w cfg0.N = Ve2 m ρ c (Pipeline.arrRef spec0 w) :=
  (W2_arr m ρ c w).symm
theorem hrest0 (c : Dev nD) : ∀ b, b ∉ Finset.univ.image (Pipeline.arrRef spec0) → Ve2 m ρ c b = Ve1 m ρ c b :=
  fun b hb => W2_of_ne m ρ c b fun w e => hb (Finset.mem_image.mpr ⟨w, Finset.mem_univ _, e⟩)

/-- At the attention kernel's exit. -/
def W3 (c : Dev nD) : Valuation τ sig (Elt F) :=
  Pipeline.withArrays spec1 c (W2 m ρ c) fun w => (dat1 (Ve2 m ρ) c).arrAt w cfg1.N
theorem W3_arr (c : Dev nD) (w : Fin cfg1.W) :
    W3 m ρ c (Proc.devRef .tc (Pipeline.arrRef spec1 w)) = (dat1 (Ve2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Ve3 : (c : Dev nD) → (b : Ref sig .tc) → Buf (Elt F) ((c : Thread nD τ).loc b) := fun c b => W3 m ρ c b
theorem hF1 (c : Dev nD) (w : Fin cfg1.W) : (dat1 (Ve2 m ρ) c).arrAt w cfg1.N = Ve3 m ρ c (Pipeline.arrRef spec1 w) :=
  (W3_arr m ρ c w).symm
theorem hrest1 (c : Dev nD) : ∀ b, b ∉ Finset.univ.image (Pipeline.arrRef spec1) → Ve3 m ρ c b = Ve2 m ρ c b :=
  fun b hb => W3_of_ne m ρ c b fun w e => hb (Finset.mem_image.mpr ⟨w, Finset.mem_univ _, e⟩)

/-- The conversions allocate nothing and write only their own results. -/
theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset := by
  simp only [List.Forall]; exact ⟨by simp only [StableHlo.unary_writes, Finset.singleton_subset_iff, List.mem_toFinset]; exact List.mem_map_of_mem (by decide), by simp only [StableHlo.unary_writes, Finset.singleton_subset_iff, List.mem_toFinset]; exact List.mem_map_of_mem (by decide)⟩

/-- No host operation and no kernel writes an argument array. -/
theorem W1_of_arg (c : Dev nD) (b : Ref sig .tc) (h : b ∉ hostOps0_W) : W1 m ρ c (Proc.devRef .tc b) = m ((c : Thread nD τ).loc b) :=
  StableHlo.after_of_writes_sub hostOps0 _ hostOps0_writes h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (Ve1 m ρ) c).arrAt_in 0 rfl _).trans (A_eq0 (Ve1 m ρ) c 0))
    _ = m ((c : Thread nD τ).loc main_arg0) := W1_of_arg m ρ c main_arg0 (by decide)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := W1_of_arg m ρ c main_arg1 (by decide)
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := W1_of_arg m ρ c main_arg2 (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Ve1 m ρ) c
  | ⟨1, _⟩ => fun c => dat1 (Ve2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- After the attention kernel's last point its invariant gives back the generator register and the scoped rest, the
    scratch columns' contents forgotten. -/
theorem hout_reg1 (c : Dev nD) :
    (dat1 (Ve2 m ρ) c).Φ (Fin.last cfg1.N) ⊢ (iprop((∃ r, prngReg c r) ∗ emp ∗ Pipeline.scopedRest (Ix := Unit) (Name := ℕ) (U := UR sig nD τ) (Lvl := ℕ) (Val := Elt F) spec1 c) : sProp 𝕄) := by
  have hne : (Fin.last cfg1.N).val ≠ 0 := by rw [Fin.val_last]; have : cfg1.N = 64 := N_1; omega
  rw [show (dat1 (Ve2 m ρ) c).Φ (Fin.last cfg1.N) = PhiS (Ve2 m ρ) c (Fin.last cfg1.N).val (Nat.le_of_lt_succ (Fin.last cfg1.N).isLt) from rfl, PhiS_pos (Ve2 m ρ) c _ _ hne, scopedRest1_eq]
  unfold scopedChain
  simp only [scM1_0, scM1_1, owns_whole]
  iintro ⟨⟨B1, B2, B3, B4, B5, B6, B7, B8, B9, B10, HS0, HS1⟩, Hg⟩
  isplitl [Hg]; · iexact Hg
  isplitr; · iempintro
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [HS0]
  · iexists _; iexact HS0
  iexists _; iexact HS1

/-! ## The kernels as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve1 m ρ c) (Ve2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (Ve2 m ρ) c).Φ (Fin.last cfg1.N) from rfl]
    exact hout_reg1 m ρ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ve2 m ρ c) (Ve3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution from any memory with zero counters terminates, nothing faulting, with every unscoped
    buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The same read at the result array and the three argument arrays. -/
theorem run_main : θ_run defs (onTc (τ := τ) (main (F := F))) ⟨m, fun _ => 0, ρ⟩ (fun r => ∀ c : Dev nD,
      r.2.mem ((c.tc : Thread nD τ).loc main_v3) = (dat1 (Ve2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun s h c =>
    ⟨(h c _ (mem_uc main_v3 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun s h c => (h c).2) (run_main m ρ)

end Cert.Kernel.Hand

end
-- ==== Proof.KIFrame0.lean ====
/-
  The projection kernel's grid of eight row blocks, at any float instance: what each of its three output blocks
  holds after the body at a point (the two products' block and the converted input block, as the canon of the
  body's one store into each), the body's triple, and the proof data of its pipeline over the buffer contents the
  region is entered with.
-/
import proofs.«107257_j65481071400351_2_alg».proof.Proof.Gen.KernelIdeal.Launch
import proofs.«107257_j65481071400351_2_alg».proof.Proof.Gen.KernelIdeal.Skeleton
import proofs.«107257_j65481071400351_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window's buffer -/

/-- The whole block: the one rectangle every load and store of the body goes through. -/
abbrev rB : Rect S1024x1024 := Rect.unit (s := S1024x1024) ![0, 0] S1024x1024.size inb_S1024x1024_S1024x1024_0_0

/-- The first product's block, from the input block and the first weight matrix. -/
def out0_3 (x0 : Vec F S1024x1024 .f32) (x1 : Vec F S1024x1024 .bf16) : Vec F S1024x1024 .bf16 :=
  View.canon [⟨rB, k0_pay2 (View.ld x0 rB) (View.ld x1 rB)⟩]
/-- The second product's block. -/
def out0_4 (x0 : Vec F S1024x1024 .f32) (x2 : Vec F S1024x1024 .bf16) : Vec F S1024x1024 .bf16 :=
  View.canon [⟨rB, k0_pay3 (View.ld x0 rB) (View.ld x2 rB)⟩]
/-- The converted input block. -/
def out0_5 (x0 : Vec F S1024x1024 .f32) : Vec F S1024x1024 .bf16 :=
  View.canon [⟨rB, k0_pay1 (View.ld x0 rB)⟩]

/-- One store of the whole block covers it. -/
theorem cover0 (p0 : Vec F S1024x1024 .bf16) (y : S1024x1024.Idx) :
    ∃ pc ∈ ([⟨rB, p0⟩] : List (View.Piece (Elt F) S1024x1024 .bf16)), y ∈ pc.1.set :=
  View.cover_of_tiled [⟨rB, p0⟩] S1024x1024.size (by rfl) y

/-! ## The body's triple -/

set_option maxHeartbeats 4000000 in
/-- On whole staging memrefs, the inputs' at read contents and the outputs' at anything, the body runs to the
    continuation holding the inputs' as they were and each output's at its block. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (x0 : Vec F S1024x1024 .f32) (x1 x2 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2) ∗ owns (c : Thread nD τ) arg6 fullShare (out0_5 x0)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- The proof data of the projection pipeline on core c: the arrays as the region finds them; after the body at a
    point each input's buffer at its block and each output's at its block of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
    | ⟨5, _⟩ => out0_5 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIFrame1S.lean ====
/-
  The attention kernel's grid of 8 x 8 points (query block, key block), at any float instance: what is shared by
  the three control cases of its body — the blocks of its windows, the two branch conditions in closed form over
  the grid, the staging and scratch memrefs, and the region invariant with the two scratch columns named.
-/
import proofs.«107257_j65481071400351_2_alg».proof.Proof.Gen.KernelIdeal.Launch
import proofs.«107257_j65481071400351_2_alg».proof.Proof.Gen.KernelIdeal.Skeleton
import proofs.«107257_j65481071400351_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first branch is taken where the key-block coordinate is 0: the running arrays are reset there. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch is taken where the key-block coordinate is 7: the numerator is divided by the denominator there. -/
abbrev cond1_1 (i : grid1.Coords) : Prop := (Scalar.cmpi .ne (Scalar.extui (Scalar.cmpi .eq (BitVec.ofNat 32 (i 1).val) 7#32)) 0#32) = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## The memrefs -/

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The two scratch columns: the running maximum and the running denominator. -/
abbrev scM1_0 : Memref sig .tc .vmem S1024x1 .f32 := Memref.whole cc1_scratch0
abbrev scM1_1 : Memref sig .tc .vmem S1024x1 .f32 := Memref.whole cc1_scratch1
abbrev VS1_0 : View sig .tc .vmem S1024x1 .f32 := scM1_0.view
abbrev VS1_1 : View sig .tc .vmem S1024x1 .f32 := scM1_1.view

/-- The scoped buffers of the core that are not this pipeline's staging buffers, in the order the layout lists them: the
    other pipeline's ten staging buffers, each whole at some contents, then the two scratch columns at what is said of them. -/
def scopedChain (c : Dev nD) (S0 S1 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S0 ∗ S1)

/-- The class invariant with the scratch columns as memrefs owned at some contents. -/
theorem PhiA1_eq (c : Dev nD) :
    (Pipeline.ΦA spec1 c : sProp 𝕄)
      = iprop(scopedChain c iprop(∃ d, owns (c : Thread nD τ) scM1_0 fullShare d) iprop(∃ d, owns (c : Thread nD τ) scM1_1 fullShare d) ∗ (∃ r, prngReg c r)) := by
  unfold Pipeline.ΦA; rw [scopedRest1_eq]; unfold scopedChain; simp only [scM1_0, scM1_1, owns_whole]; rfl

end Cert.KernelIdeal.Hand

end
-- ==== Proof.KIFrame1A.lean ====
/-
  The attention kernel's body run whole in ONE of its three control cases, at any float instance: on whole
  memrefs holding the three input blocks (and, after the first key block, the running numerator, maximum and
  denominator), the body runs to the end leaving the inputs as they were and the three running arrays with the
  pieces its stores wrote.
-/
import proofs.«107257_j65481071400351_2_alg».proof.Proof.KIFrame1S

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and the two scratch columns, with the proof that the
    body runs to the continuation holding them. -/
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (hc0 : cond1_0 i) (hc1 : ¬cond1_1 i)
    (x0 x1 x2 : Vec F S1024x1024 .bf16) :
    Σ' (L5 : List (View.Piece (Elt F) S1024x1024 .f32)) (LS6 : List (View.Piece (Elt F) S1024x1 .f32)), { LS7 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc1_flash_kernel i arg2 harg2 arg3 harg3 arg4 harg4 arg5 harg5 arg6 harg6 arg7 harg7) K } := by
  refine ⟨?_, ?_, ?_, fun E K => ?run⟩
  case run =>
    simp only [cc1_flash_kernel_eq_skeleton]; unfold cc1_flash_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexact H6
    iexists _; iexact H7

end Cert.KernelIdeal.Hand

end
-- ==== Proof.KIFrame1B.lean ====
/-
  The attention kernel's body run whole in ONE of its three control cases, at any float instance: on whole
  memrefs holding the three input blocks (and, after the first key block, the running numerator, maximum and
  denominator), the body runs to the end leaving the inputs as they were and the three running arrays with the
  pieces its stores wrote.
-/
import proofs.«107257_j65481071400351_2_alg».proof.Proof.KIFrame1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and the two scratch columns, with the proof that the
    body runs to the continuation holding them. -/
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : ¬cond1_1 i)
    (x0 x1 x2 : Vec F S1024x1024 .bf16) (xo5 : Vec F S1024x1024 .f32) (xs6 xs7 : Vec F S1024x1 .f32) :
    Σ' (L5 : List (View.Piece (Elt F) S1024x1024 .f32)) (LS6 : List (View.Piece (Elt F) S1024x1 .f32)), { LS7 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo5 ∗ owns (c : Thread nD τ) arg6 fullShare xs6 ∗ owns (c : Thread nD τ) arg7 fullShare xs7
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc1_flash_kernel i arg2 harg2 arg3 harg3 arg4 harg4 arg5 harg5 arg6 harg6 arg7 harg7) K } := by
  refine ⟨?_, ?_, ?_, fun E K => ?run⟩
  case run =>
    simp only [cc1_flash_kernel_eq_skeleton]; unfold cc1_flash_kernel_skel
    unfold owns
    iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexact H6
    iexists _; iexact H7

end Cert.KernelIdeal.Hand

end
-- ==== Proof.KIFrame1C.lean ====
/-
  The attention kernel's body run whole in ONE of its three control cases, at any float instance: on whole
  memrefs holding the three input blocks (and, after the first key block, the running numerator, maximum and
  denominator), the body runs to the end leaving the inputs as they were and the three running arrays with the
  pieces its stores wrote.
-/
import proofs.«107257_j65481071400351_2_alg».proof.Proof.KIFrame1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and the two scratch columns, with the proof that the
    body runs to the continuation holding them. -/
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 x1 x2 : Vec F S1024x1024 .bf16) (xo5 : Vec F S1024x1024 .f32) (xs6 xs7 : Vec F S1024x1 .f32) :
    Σ' (L5 : List (View.Piece (Elt F) S1024x1024 .f32)) (LS6 : List (View.Piece (Elt F) S1024x1 .f32)), { LS7 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo5 ∗ owns (c : Thread nD τ) arg6 fullShare xs6 ∗ owns (c : Thread nD τ) arg7 fullShare xs7
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc1_flash_kernel i arg2 harg2 arg3 harg3 arg4 harg4 arg5 harg5 arg6 harg6 arg7 harg7) K } := by
  refine ⟨?_, ?_, ?_, fun E K => ?run⟩
  case run =>
    simp only [cc1_flash_kernel_eq_skeleton]; unfold cc1_flash_kernel_skel
    unfold owns
    iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf5; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexact H6
    iexists _; iexact H7

end Cert.KernelIdeal.Hand

end
-- ==== Proof.KIFrame1.lean ====
/-
  The attention kernel's 64 grid points put together, at any float instance: what the output block and the two
  scratch columns hold after each point (by recursion on the point: the case its coordinates select, run on what the
  point before left), the region invariant that carries the scratch columns from point to point, the proof data of
  the pipeline, and the body obligation at every point.
-/
import proofs.«107257_j65481071400351_2_alg».proof.Proof.KIFrame1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three running arrays: the numerator block, the maximum column, the denominator column. -/
abbrev Trip (F : FTy → Type) : Type := Vec F S1024x1024 .f32 × Vec F S1024x1 .f32 × Vec F S1024x1 .f32

/-- Three lists of pieces read back over junk. -/
def tripleOf (L5 : List (View.Piece (Elt F) S1024x1024 .f32)) (LS6 LS7 : List (View.Piece (Elt F) S1024x1 .f32)) : Trip F :=
  (VO1_3.read (Elt F) (VO1_3.writes (Elt F) VO1_3.junk L5), VS1_0.read (Elt F) (VS1_0.writes (Elt F) VS1_0.junk LS6), VS1_1.read (Elt F) (VS1_1.writes (Elt F) VS1_1.junk LS7))

/-- The body's run at point t in each case, on the point's memrefs and input blocks. -/
abbrev runA (c : Dev nD) (t : Fin cfg1.N) (h0 : t.val % 8 = 0) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => by have := (hcond1_1 t).mp h; omega) (iblk1 V c 0 t) (iblk1 V c 1 t) (iblk1 V c 2 t)
abbrev runB (c : Dev nD) (t : Fin cfg1.N) (h0 : ¬t.val % 8 = 0) (h1 : ¬t.val % 8 = 7) (p : Trip F) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) p.1 p.2.1 p.2.2
abbrev runC (c : Dev nD) (t : Fin cfg1.N) (h0 : ¬t.val % 8 = 0) (h1 : t.val % 8 = 7) (p : Trip F) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) p.1 p.2.1 p.2.2

/-- Each case's pieces tile the buffer they are stored into, so they cover it. -/
theorem coverA_3 (c : Dev nD) (t : Fin cfg1.N) (h0 : t.val % 8 = 0) (y : S1024x1024.Idx) : ∃ pc ∈ (runA V c t h0).1, y ∈ pc.1.set :=
  View.cover_of_tiledL (runA V c t h0).1 S1024x1024.size (by sl_kernel_rfl) y
theorem coverA_6 (c : Dev nD) (t : Fin cfg1.N) (h0 : t.val % 8 = 0) (y : S1024x1.Idx) : ∃ pc ∈ (runA V c t h0).2.1, y ∈ pc.1.set :=
  View.cover_of_tiledL (runA V c t h0).2.1 S1024x1.size (by sl_kernel_rfl) y
theorem coverA_7 (c : Dev nD) (t : Fin cfg1.N) (h0 : t.val % 8 = 0) (y : S1024x1.Idx) : ∃ pc ∈ (runA V c t h0).2.2.1, y ∈ pc.1.set :=
  View.cover_of_tiledL (runA V c t h0).2.2.1 S1024x1.size (by sl_kernel_rfl) y
theorem coverB_3 (c : Dev nD) (t : Fin cfg1.N) (h0 : ¬t.val % 8 = 0) (h1 : ¬t.val % 8 = 7) (p : Trip F) (y : S1024x1024.Idx) : ∃ pc ∈ (runB V c t h0 h1 p).1, y ∈ pc.1.set :=
  View.cover_of_tiledL (runB V c t h0 h1 p).1 S1024x1024.size (by sl_kernel_rfl) y
theorem coverB_6 (c : Dev nD) (t : Fin cfg1.N) (h0 : ¬t.val % 8 = 0) (h1 : ¬t.val % 8 = 7) (p : Trip F) (y : S1024x1.Idx) : ∃ pc ∈ (runB V c t h0 h1 p).2.1, y ∈ pc.1.set :=
  View.cover_of_tiledL (runB V c t h0 h1 p).2.1 S1024x1.size (by sl_kernel_rfl) y
theorem coverB_7 (c : Dev nD) (t : Fin cfg1.N) (h0 : ¬t.val % 8 = 0) (h1 : ¬t.val % 8 = 7) (p : Trip F) (y : S1024x1.Idx) : ∃ pc ∈ (runB V c t h0 h1 p).2.2.1, y ∈ pc.1.set :=
  View.cover_of_tiledL (runB V c t h0 h1 p).2.2.1 S1024x1.size (by sl_kernel_rfl) y
theorem coverC_3 (c : Dev nD) (t : Fin cfg1.N) (h0 : ¬t.val % 8 = 0) (h1 : t.val % 8 = 7) (p : Trip F) (y : S1024x1024.Idx) : ∃ pc ∈ (runC V c t h0 h1 p).1, y ∈ pc.1.set :=
  View.cover_of_tiledL (runC V c t h0 h1 p).1 S1024x1024.size (by sl_kernel_rfl) y
theorem coverC_6 (c : Dev nD) (t : Fin cfg1.N) (h0 : ¬t.val % 8 = 0) (h1 : t.val % 8 = 7) (p : Trip F) (y : S1024x1.Idx) : ∃ pc ∈ (runC V c t h0 h1 p).2.1, y ∈ pc.1.set :=
  View.cover_of_tiledL (runC V c t h0 h1 p).2.1 S1024x1.size (by sl_kernel_rfl) y
theorem coverC_7 (c : Dev nD) (t : Fin cfg1.N) (h0 : ¬t.val % 8 = 0) (h1 : t.val % 8 = 7) (p : Trip F) (y : S1024x1.Idx) : ∃ pc ∈ (runC V c t h0 h1 p).2.2.1, y ∈ pc.1.set :=
  View.cover_of_tiledL (runC V c t h0 h1 p).2.2.1 S1024x1.size (by sl_kernel_rfl) y

/-! ## What the running arrays hold after each point -/

/-- After the body at position n: the case the key-block coordinate selects, run on what position n - 1 left
    (the first key block of a query block starts afresh). -/
def outsAt1 (c : Dev nD) : (n : ℕ) → n < cfg1.N → Trip F
  | 0, hn => tripleOf (runA V c ⟨0, hn⟩ (Nat.zero_mod _)).1 (runA V c ⟨0, hn⟩ (Nat.zero_mod _)).2.1 (runA V c ⟨0, hn⟩ (Nat.zero_mod _)).2.2.1
  | n + 1, hn =>
    if h0 : (n + 1) % 8 = 0 then
      tripleOf (runA V c ⟨n + 1, hn⟩ h0).1 (runA V c ⟨n + 1, hn⟩ h0).2.1 (runA V c ⟨n + 1, hn⟩ h0).2.2.1
    else if h1 : (n + 1) % 8 = 7 then
      tripleOf (runC V c ⟨n + 1, hn⟩ h0 h1 (outsAt1 c n (Nat.lt_of_succ_lt hn))).1 (runC V c ⟨n + 1, hn⟩ h0 h1 (outsAt1 c n (Nat.lt_of_succ_lt hn))).2.1 (runC V c ⟨n + 1, hn⟩ h0 h1 (outsAt1 c n (Nat.lt_of_succ_lt hn))).2.2.1
    else
      tripleOf (runB V c ⟨n + 1, hn⟩ h0 h1 (outsAt1 c n (Nat.lt_of_succ_lt hn))).1 (runB V c ⟨n + 1, hn⟩ h0 h1 (outsAt1 c n (Nat.lt_of_succ_lt hn))).2.1 (runB V c ⟨n + 1, hn⟩ h0 h1 (outsAt1 c n (Nat.lt_of_succ_lt hn))).2.2.1

/-- What the point before left (any value at the first point, where it is not used). -/
abbrev prevAt1 (c : Dev nD) (t : Fin cfg1.N) : Trip F := outsAt1 V c (t.val - 1) (Nat.lt_of_le_of_lt (Nat.sub_le _ _) t.isLt)

theorem outsAt1_A (c : Dev nD) (t : Fin cfg1.N) (h0 : t.val % 8 = 0) :
    outsAt1 V c t.val t.isLt = tripleOf (runA V c t h0).1 (runA V c t h0).2.1 (runA V c t h0).2.2.1 := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = tripleOf (runB V c t h0 h1 (prevAt1 V c t)).1 (runB V c t h0 h1 (prevAt1 V c t)).2.1 (runB V c t h0 h1 (prevAt1 V c t)).2.2.1 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = tripleOf (runC V c t h0 h1 (prevAt1 V c t)).1 (runC V c t h0 h1 (prevAt1 V c t)).2.1 (runC V c t h0 h1 (prevAt1 V c t)).2.2.1 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: at the first point the class invariant (every scratch at anything); afterwards the scoped rest
    with the two scratch columns at what the point before left in them, and the generator register at some state. -/
def PhiS (c : Dev nD) : (n : ℕ) → n ≤ cfg1.N → sProp 𝕄
  | 0, _ => Pipeline.ΦA spec1 c
  | n + 1, hn => iprop(scopedChain c (owns (c : Thread nD τ) scM1_0 fullShare (outsAt1 V c n hn).2.1) (owns (c : Thread nD τ) scM1_1 fullShare (outsAt1 V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedChain c (owns (c : Thread nD τ) scM1_0 fullShare (outsAt1 V c n hn).2.1) (owns (c : Thread nD τ) scM1_1 fullShare (outsAt1 V c n hn).2.2) ∗ (∃ r, prngReg c r)) := rfl

theorem PhiS_pos (c : Dev nD) (n : ℕ) (h : n ≤ cfg1.N) (hz : n ≠ 0) :
    PhiS V c n h = iprop(scopedChain c (owns (c : Thread nD τ) scM1_0 fullShare (outsAt1 V c (n - 1) (by omega)).2.1) (owns (c : Thread nD τ) scM1_1 fullShare (outsAt1 V c (n - 1) (by omega)).2.2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Away from a query block's first key block the output window's buffer holds what the body left at the point
    before: it is written back only after the last key block. -/
theorem before1_3_pos (c : Dev nD) (t : Fin cfg1.N) (h0 : ¬t.val % 8 = 0) (d) :
    (dat1 V c).before 3 t d = (prevAt1 V c t).1 := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- Pieces that cover a whole memref, written over anything, are owned at their read-back. -/
theorem owns_of_writes {s : Shape} {φ : EltTy} (c : Dev nD) (M : Memref sig .tc .vmem s φ) (hM : M.IsWhole) (Vw : View sig .tc .vmem s φ)
    (L : List (View.Piece (Elt F) s φ)) (hcov : ∀ y : s.Idx, ∃ pc ∈ L, y ∈ pc.1.set) :
    iprop(∃ f, M.view.loc (c : Thread nD τ) ↦[M.view.set]{fullShare} M.view.writes (Elt F) f L)
      ⊢ (owns (c : Thread nD τ) M fullShare (Vw.read (Elt F) (Vw.writes (Elt F) Vw.junk L)) : sProp 𝕄) := by
  iintro ⟨%e, H⟩
  unfold owns; iexists _; isplitr
  swap; · iexact H
  ipureintro; exact View.read_writes_of_cover _ _ _ _ _ hcov

set_option maxHeartbeats 8000000 in
/-- The body at any point: the inputs' memrefs hold their blocks; the closed forms of the two conditions say which case
    the point is in; away from a query block's first key block the output buffer and the two scratch columns hold what
    the point before left; so that case's run applies, and the invariant takes the scratch columns back at this point's
    contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3]
  have hN : t.val < 64 := lt_of_lt_of_eq t.isLt (show cfg1.N = 64 from N_1)
  by_cases h0 : t.val % 8 = 0
  · rw [outsAt1_A V c t h0]
    unfold tripleOf; (try dsimp only)
    by_cases hz : t.val = 0
    · rw [PhiS_castSucc V c t, PhiS_zero V c _ _ hz, PhiA1_eq]
      unfold scopedChain
      iintro ⟨⟨⟨B1, B2, B3, B4, B5, B6, B7, B8, B9, B10, HS0, HS1⟩, Hg⟩, Ho, ⟨%d0, H0⟩, ⟨%d1, H1⟩, ⟨%d2, H2⟩, ⟨%d3, H3⟩⟩
      iapply ((runA V c t h0).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H5, H6, H7⟩
      isplitl [B1 B2 B3 B4 B5 B6 B7 B8 B9 B10 H6 H7 Hg]
      · isplitl [B1 B2 B3 B4 B5 B6 B7 B8 B9 B10 H6 H7]
        ·
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [H6]
          · iapply (owns_of_writes c scM1_0 (Memref.isWhole_whole _) VS1_0 _ (coverA_6 V c t h0))
            iexact H6
          iapply (owns_of_writes c scM1_1 (Memref.isWhole_whole _) VS1_1 _ (coverA_7 V c t h0))
          iexact H7
        iexact Hg
      isplitl [Ho]; · iexact Ho
      isplitl [H0]; · iexact H0
      isplitl [H1]; · iexact H1
      isplitl [H2]; · iexact H2
      iapply (owns_of_writes c (ms1_3 t) (hs1_3 t) VO1_3 _ (coverA_3 V c t h0))
      iexact H5
    · rw [PhiS_castSucc V c t, PhiS_pos V c _ _ hz]
      unfold scopedChain
      iintro ⟨⟨⟨B1, B2, B3, B4, B5, B6, B7, B8, B9, B10, HS0, HS1⟩, Hg⟩, Ho, ⟨%d0, H0⟩, ⟨%d1, H1⟩, ⟨%d2, H2⟩, ⟨%d3, H3⟩⟩
      iapply ((runA V c t h0).2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      iintro ⟨H0, H1, H2, H5, H6, H7⟩
      isplitl [B1 B2 B3 B4 B5 B6 B7 B8 B9 B10 H6 H7 Hg]
      · isplitl [B1 B2 B3 B4 B5 B6 B7 B8 B9 B10 H6 H7]
        ·
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [H6]
          · iapply (owns_of_writes c scM1_0 (Memref.isWhole_whole _) VS1_0 _ (coverA_6 V c t h0))
            iexact H6
          iapply (owns_of_writes c scM1_1 (Memref.isWhole_whole _) VS1_1 _ (coverA_7 V c t h0))
          iexact H7
        iexact Hg
      isplitl [Ho]; · iexact Ho
      isplitl [H0]; · iexact H0
      isplitl [H1]; · iexact H1
      isplitl [H2]; · iexact H2
      iapply (owns_of_writes c (ms1_3 t) (hs1_3 t) VO1_3 _ (coverA_3 V c t h0))
      iexact H5
  · have hz : t.val ≠ 0 := fun e => h0 (by rw [e])
    simp only [before1_3_pos V c t h0]
    by_cases h1 : t.val % 8 = 7
    · rw [outsAt1_C V c t h0 h1]
      unfold tripleOf; (try dsimp only)
      rw [PhiS_castSucc V c t, PhiS_pos V c _ _ hz]
      unfold scopedChain
      iintro ⟨⟨⟨B1, B2, B3, B4, B5, B6, B7, B8, B9, B10, HS0, HS1⟩, Hg⟩, Ho, ⟨%d0, H0⟩, ⟨%d1, H1⟩, ⟨%d2, H2⟩, ⟨%d3, H3⟩⟩
      iapply ((runC V c t h0 h1 (prevAt1 V c t)).2.2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H5, H6, H7⟩
      isplitl [B1 B2 B3 B4 B5 B6 B7 B8 B9 B10 H6 H7 Hg]
      · isplitl [B1 B2 B3 B4 B5 B6 B7 B8 B9 B10 H6 H7]
        ·
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [H6]
          · iapply (owns_of_writes c scM1_0 (Memref.isWhole_whole _) VS1_0 _ (coverC_6 V c t h0 h1 (prevAt1 V c t)))
            iexact H6
          iapply (owns_of_writes c scM1_1 (Memref.isWhole_whole _) VS1_1 _ (coverC_7 V c t h0 h1 (prevAt1 V c t)))
          iexact H7
        iexact Hg
      isplitl [Ho]; · iexact Ho
      isplitl [H0]; · iexact H0
      isplitl [H1]; · iexact H1
      isplitl [H2]; · iexact H2
      iapply (owns_of_writes c (ms1_3 t) (hs1_3 t) VO1_3 _ (coverC_3 V c t h0 h1 (prevAt1 V c t)))
      iexact H5
    · rw [outsAt1_B V c t h0 h1]
      unfold tripleOf; (try dsimp only)
      rw [PhiS_castSucc V c t, PhiS_pos V c _ _ hz]
      unfold scopedChain
      iintro ⟨⟨⟨B1, B2, B3, B4, B5, B6, B7, B8, B9, B10, HS0, HS1⟩, Hg⟩, Ho, ⟨%d0, H0⟩, ⟨%d1, H1⟩, ⟨%d2, H2⟩, ⟨%d3, H3⟩⟩
      iapply ((runB V c t h0 h1 (prevAt1 V c t)).2.2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H5, H6, H7⟩
      isplitl [B1 B2 B3 B4 B5 B6 B7 B8 B9 B10 H6 H7 Hg]
      · isplitl [B1 B2 B3 B4 B5 B6 B7 B8 B9 B10 H6 H7]
        ·
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [H6]
          · iapply (owns_of_writes c scM1_0 (Memref.isWhole_whole _) VS1_0 _ (coverB_6 V c t h0 h1 (prevAt1 V c t)))
            iexact H6
          iapply (owns_of_writes c scM1_1 (Memref.isWhole_whole _) VS1_1 _ (coverB_7 V c t h0 h1 (prevAt1 V c t)))
          iexact H7
        iexact Hg
      isplitl [Ho]; · iexact Ho
      isplitl [H0]; · iexact H0
      isplitl [H1]; · iexact H1
      isplitl [H2]; · iexact H2
      iapply (owns_of_writes c (ms1_3 t) (hs1_3 t) VO1_3 _ (coverB_3 V c t h0 h1 (prevAt1 V c t)))
      iexact H5

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch columns' contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ hne, PhiA1_eq]
  unfold scopedChain
  iintro ⟨⟨B1, B2, B3, B4, B5, B6, B7, B8, B9, B10, HS0, HS1⟩, Hg⟩
  isplitl [B1 B2 B3 B4 B5 B6 B7 B8 B9 B10 HS0 HS1]
  ·
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [HS0]; · iexists _; iexact HS0
    iexists _; iexact HS1
  iexact Hg

end Cert.KernelIdeal.Hand

end
-- ==== Proof.KIRun.lean ====
/-
  The whole program, at any float instance: two conversions of the weight matrices on the host, the projection
  kernel, the attention kernel. The buffer contents at each boundary are a fold from the launch memory (the host
  operations applied; each kernel's arrays at what its write-backs leave); every weakly fair execution terminates
  with every unscoped buffer at the last boundary's contents.
-/
import proofs.«107257_j65481071400351_2_alg».proof.Proof.KIFrame0
import proofs.«107257_j65481071400351_2_alg».proof.Proof.KIFrame1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the two conversions (the projection kernel's entry). -/
abbrev W1 : Dev nD → Valuation τ sig (Elt F) := fun c => StableHlo.after hostOps0 (W0 m ρ c)
abbrev Ve1 : (c : Dev nD) → (b : Ref sig .tc) → Buf (Elt F) ((c : Thread nD τ).loc b) := fun c b => W1 m ρ c b
/-- At the projection kernel's exit: its arrays at what the pipeline leaves, every other buffer as entered. -/
def W2 (c : Dev nD) : Valuation τ sig (Elt F) :=
  Pipeline.withArrays spec0 c (W1 m ρ c) fun w => (dat0 (Ve1 m ρ) c).arrAt w cfg0.N
theorem W2_arr (c : Dev nD) (w : Fin cfg0.W) :
    W2 m ρ c (Proc.devRef .tc (Pipeline.arrRef spec0 w)) = (dat0 (Ve1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ve2 : (c : Dev nD) → (b : Ref sig .tc) → Buf (Elt F) ((c : Thread nD τ).loc b) := fun c b => W2 m ρ c b
theorem hF0 (c : Dev nD) (w : Fin cfg0.W) : (dat0 (Ve1 m ρ) c).arrAt w cfg0.N = Ve2 m ρ c (Pipeline.arrRef spec0 w) :=
  (W2_arr m ρ c w).symm
theorem hrest0 (c : Dev nD) : ∀ b, b ∉ Finset.univ.image (Pipeline.arrRef spec0) → Ve2 m ρ c b = Ve1 m ρ c b :=
  fun b hb => W2_of_ne m ρ c b fun w e => hb (Finset.mem_image.mpr ⟨w, Finset.mem_univ _, e⟩)

/-- At the attention kernel's exit. -/
def W3 (c : Dev nD) : Valuation τ sig (Elt F) :=
  Pipeline.withArrays spec1 c (W2 m ρ c) fun w => (dat1 (Ve2 m ρ) c).arrAt w cfg1.N
theorem W3_arr (c : Dev nD) (w : Fin cfg1.W) :
    W3 m ρ c (Proc.devRef .tc (Pipeline.arrRef spec1 w)) = (dat1 (Ve2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Ve3 : (c : Dev nD) → (b : Ref sig .tc) → Buf (Elt F) ((c : Thread nD τ).loc b) := fun c b => W3 m ρ c b
theorem hF1 (c : Dev nD) (w : Fin cfg1.W) : (dat1 (Ve2 m ρ) c).arrAt w cfg1.N = Ve3 m ρ c (Pipeline.arrRef spec1 w) :=
  (W3_arr m ρ c w).symm
theorem hrest1 (c : Dev nD) : ∀ b, b ∉ Finset.univ.image (Pipeline.arrRef spec1) → Ve3 m ρ c b = Ve2 m ρ c b :=
  fun b hb => W3_of_ne m ρ c b fun w e => hb (Finset.mem_image.mpr ⟨w, Finset.mem_univ _, e⟩)

/-- The conversions allocate nothing and write only their own results. -/
theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset := by
  simp only [List.Forall]; exact ⟨by simp only [StableHlo.unary_writes, Finset.singleton_subset_iff, List.mem_toFinset]; exact List.mem_map_of_mem (by decide), by simp only [StableHlo.unary_writes, Finset.singleton_subset_iff, List.mem_toFinset]; exact List.mem_map_of_mem (by decide)⟩

/-- No host operation and no kernel writes an argument array. -/
theorem W1_of_arg (c : Dev nD) (b : Ref sig .tc) (h : b ∉ hostOps0_W) : W1 m ρ c (Proc.devRef .tc b) = m ((c : Thread nD τ).loc b) :=
  StableHlo.after_of_writes_sub hostOps0 _ hostOps0_writes h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (Ve1 m ρ) c).arrAt_in 0 rfl _).trans (A_eq0 (Ve1 m ρ) c 0))
    _ = m ((c : Thread nD τ).loc main_arg0) := W1_of_arg m ρ c main_arg0 (by decide)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := W1_of_arg m ρ c main_arg1 (by decide)
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := W1_of_arg m ρ c main_arg2 (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Ve1 m ρ) c
  | ⟨1, _⟩ => fun c => dat1 (Ve2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- After the attention kernel's last point its invariant gives back the generator register and the scoped rest, the
    scratch columns' contents forgotten. -/
theorem hout_reg1 (c : Dev nD) :
    (dat1 (Ve2 m ρ) c).Φ (Fin.last cfg1.N) ⊢ (iprop((∃ r, prngReg c r) ∗ emp ∗ Pipeline.scopedRest (Ix := Unit) (Name := ℕ) (U := UR sig nD τ) (Lvl := ℕ) (Val := Elt F) spec1 c) : sProp 𝕄) := by
  have hne : (Fin.last cfg1.N).val ≠ 0 := by rw [Fin.val_last]; have : cfg1.N = 64 := N_1; omega
  rw [show (dat1 (Ve2 m ρ) c).Φ (Fin.last cfg1.N) = PhiS (Ve2 m ρ) c (Fin.last cfg1.N).val (Nat.le_of_lt_succ (Fin.last cfg1.N).isLt) from rfl, PhiS_pos (Ve2 m ρ) c _ _ hne, scopedRest1_eq]
  unfold scopedChain
  simp only [scM1_0, scM1_1, owns_whole]
  iintro ⟨⟨B1, B2, B3, B4, B5, B6, B7, B8, B9, B10, HS0, HS1⟩, Hg⟩
  isplitl [Hg]; · iexact Hg
  isplitr; · iempintro
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [HS0]
  · iexists _; iexact HS0
  iexists _; iexact HS1

/-! ## The kernels as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve1 m ρ c) (Ve2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (Ve2 m ρ) c).Φ (Fin.last cfg1.N) from rfl]
    exact hout_reg1 m ρ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ve2 m ρ c) (Ve3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution from any memory with zero counters terminates, nothing faulting, with every unscoped
    buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The same read at the result array and the three argument arrays. -/
theorem run_main : θ_run defs (onTc (τ := τ) (main (F := F))) ⟨m, fun _ => 0, ρ⟩ (fun r => ∀ c : Dev nD,
      r.2.mem ((c.tc : Thread nD τ).loc main_v3) = (dat1 (Ve2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun s h c =>
    ⟨(h c _ (mem_uc main_v3 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun s h c => (h c).2) (run_main m ρ)

end Cert.KernelIdeal.Hand

end
-- ==== Proof.Spec.lean ====
/-
  Single-head attention over 8192 positions of width 1024, stated on the extended reals, in the two arrangements
  that are compared: the row-wise softmax of the scaled scores applied to the values, and the blocked recurrence
  (running maximum, running denominator, running numerator over eight blocks of 1024 keys) that never forms the
  score matrix. No program is imported here: these are functions of arrays only.
-/
import Idealize.ShloMosaic.PureOps.Ideal
import Idealize.ShloMosaic.Lib.ValueIdx
import Mathlib.Algebra.BigOperators.Fin

noncomputable section

namespace Cert.Attn

open Idealize.ShloMosaic Idealize.ShloMosaic.ValueIdx

/-- A 1024 x 1024 block, a 1024 x 1 column, the 8192 x 1024 arrays. -/
abbrev SB : Shape := ⟨2, ![1024, 1024]⟩
abbrev SC : Shape := ⟨2, ![1024, 1]⟩
abbrev SX : Shape := ⟨2, ![8192, 1024]⟩

/-- The score scale 1/32 (the f32 word of 0.03125) and the finite starting value of the running maximum. -/
def scale : EReal := Ideal.ofBits .f32 0x3D000000#32
def negBig : EReal := Ideal.ofBits .f32 0xFF333332#32

/-! ## One block step of the recurrence -/

/-- The scaled scores of a block of queries against a block of keys: row r against key c. -/
def blockScore (q k : SB.Idx → EReal) (r c : Fin 1024) : EReal :=
  (∑ d : Fin 1024, q (ix2 r d) * k (ix2 c d)) * scale

/-- The running maximum after the block: the old one against the block's row maximum (a fold of max from -∞). -/
def mNew (q k : SB.Idx → EReal) (mOld : SC.Idx → EReal) (r : Fin 1024) : EReal :=
  max (mOld (ix2 r 0)) ((Finset.univ : Finset (Fin 1024)).fold max ⊥ (fun c => blockScore q k r c))

/-- The factor that rebases the old sums on the new maximum. -/
def alpha (q k : SB.Idx → EReal) (mOld : SC.Idx → EReal) (r : Fin 1024) : EReal :=
  Ideal.exp (mOld (ix2 r 0) - mNew q k mOld r)

/-- The unnormalised weight of key c for row r. -/
def prob (q k : SB.Idx → EReal) (mOld : SC.Idx → EReal) (r c : Fin 1024) : EReal :=
  Ideal.exp (blockScore q k r c - mNew q k mOld r)

/-- The running denominator after the block. -/
def lNew (q k : SB.Idx → EReal) (mOld lOld : SC.Idx → EReal) (r : Fin 1024) : EReal :=
  alpha q k mOld r * lOld (ix2 r 0) + ∑ c : Fin 1024, prob q k mOld r c

/-- The running numerator after the block, at column e. -/
def oNew (q k v : SB.Idx → EReal) (mOld : SC.Idx → EReal) (oOld : SB.Idx → EReal) (r e : Fin 1024) : EReal :=
  alpha q k mOld r * oOld (ix2 r e) + ∑ c : Fin 1024, prob q k mOld r c * v (ix2 c e)

/-- The three running arrays of one block of queries. -/
structure St where
  m : SC.Idx → EReal
  l : SC.Idx → EReal
  o : SB.Idx → EReal

/-- Before any block: the maximum at its finite starting value, both sums zero. -/
def st0 : St := ⟨fun _ => negBig, fun _ => 0, fun _ => 0⟩

/-- One block of keys and values folded in. -/
def step (q k v : SB.Idx → EReal) (s : St) : St :=
  ⟨fun i => mNew q k s.m (i 0), fun i => lNew q k s.m s.l (i 0), fun i => oNew q k v s.m s.o (i 0) (i 1)⟩

/-! ## The arrays -/

/-- Row block b (rows b·1024 … b·1024+1023) of an 8192 x 1024 array. -/
def blockOf (A : SX.Idx → EReal) (b : Fin 8) : SB.Idx → EReal :=
  fun i => A (ix2 ⟨b.val * 1024 + (i 0).val, by have := idx2_lt0 i; have := b.isLt; omega⟩ (i 1))

/-- A projection x·w read at an entry. -/
def proj (x : SX.Idx → EReal) (w : SB.Idx → EReal) : SX.Idx → EReal :=
  fun i => ∑ k : Fin 1024, x (ix2 (i 0) k) * w (ix2 k (i 1))

/-- The state of query block qi after the first n key blocks (n ≤ 8). -/
def run (Q K V : SX.Idx → EReal) (qi : Fin 8) : ℕ → St
  | 0 => st0
  | n + 1 => if h : n < 8 then step (blockOf Q qi) (blockOf K ⟨n, h⟩) (blockOf V ⟨n, h⟩) (run Q K V qi n) else run Q K V qi n

/-- The blocked arrangement's result: numerator over denominator after all eight blocks. -/
def blocked (x : SX.Idx → EReal) (rot ent : SB.Idx → EReal) : SX.Idx → EReal := fun i =>
  let qi : Fin 8 := ⟨(i 0).val / 1024, by have := idx2_lt0 i; omega⟩
  let r : Fin 1024 := ⟨(i 0).val % 1024, Nat.mod_lt _ (by decide)⟩
  Ideal.div ((run (proj x rot) (proj x ent) x qi 8).o (ix2 r (i 1))) ((run (proj x rot) (proj x ent) x qi 8).l (ix2 r 0))

/-! ## The row-wise softmax arrangement -/

/-- The scaled score of position s against position t. -/
def score (x : SX.Idx → EReal) (rot ent : SB.Idx → EReal) (s t : Fin 8192) : EReal :=
  (∑ d : Fin 1024, proj x rot (ix2 s d) * proj x ent (ix2 t d)) * scale

/-- The row maximum: -∞ against the fold of max from -∞ over the row. -/
def rowMax (x : SX.Idx → EReal) (rot ent : SB.Idx → EReal) (s : Fin 8192) : EReal :=
  max ⊥ ((Finset.univ : Finset (Fin 8192)).fold max ⊥ (fun t => score x rot ent s t))

/-- The unnormalised weight. -/
def expo (x : SX.Idx → EReal) (rot ent : SB.Idx → EReal) (s t : Fin 8192) : EReal :=
  Ideal.exp (score x rot ent s t - rowMax x rot ent s)

/-- The softmax arrangement's result: the weights divided by their row sum, applied to the values. -/
def softmaxed (x : SX.Idx → EReal) (rot ent : SB.Idx → EReal) : SX.Idx → EReal := fun i =>
  ∑ t : Fin 8192, Ideal.div (expo x rot ent (i 0) t) (0 + ∑ t' : Fin 8192, expo x rot ent (i 0) t') * x (ix2 t (i 1))

/-- Every entry of an array is a real number. -/
def AllReal {s : Shape} (A : s.Idx → EReal) : Prop := ∀ i, ∃ r : ℝ, A i = (r : EReal)

end Cert.Attn

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.LibTransposedMatmul.lean ====
/-
  A matrix product `[a, n] × [b, n]ᵀ` (both operands contracted on their columns, no batch axis) into the zero
  accumulator, read at an entry on the extended reals: entry `(r, j)` is the sum over `k` of the left operand at
  `(r, k)` times the right operand at `(j, k)`. General over the three extents, the two operand formats and the
  precision.
-/
import Idealize.ShloMosaic.Lib.ValueIdx
import Idealize.ShloMosaic.PureOps.Ideal.Laws

noncomputable section

open scoped BigOperators

namespace Cert.LibTransposedMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.transposedRhs a n b).contr.Idx) :
    ((DotDims.transposedRhs a n b).lhsIdx i q 0).val = (i 0).val := rfl

/-- … and the contraction coordinate as its column. -/
theorem lhs_col (i : (⟨2, ![a, b]⟩ : Shape).Idx) (q : (DotDims.transposedRhs a n b).contr.Idx) :
    ((DotDims.transposedRhs a n b).lhsIdx i q 1).val
      = (q (⟨0, Nat.one_pos⟩ : Fin (DotDims.transposedRhs a n b).contr.rank)).val :=
  (DotDims.transposedRhs a n b).lhsIdx_val_of_single rfl i q

/-- The right operand's index: row `i 1` … -/
theorem rhs_row (i : (⟨2, ![a, b]⟩ : Shape).Idx) (q : (DotDims.transposedRhs a n b).contr.Idx) :
    ((DotDims.transposedRhs a n b).rhsIdx i q 0).val = (i 1).val := rfl

/-- … and the contraction coordinate as its column. -/
theorem rhs_col (i : (⟨2, ![a, b]⟩ : Shape).Idx) (q : (DotDims.transposedRhs a n b).contr.Idx) :
    ((DotDims.transposedRhs a n b).rhsIdx i q 1).val
      = (q (⟨0, Nat.one_pos⟩ : Fin (DotDims.transposedRhs a n b).contr.rank)).val :=
  (DotDims.transposedRhs a n b).rhsIdx_val_of_single rfl i q

/-- A product with the transposed right operand into the zero accumulator, at entry `(r, j)`, is
    `Σₖ A (r, k) · B (j, k)`. -/
theorem matmul_zero_apply {φ₁ φ₂ : FTy} (prec : Option ContractPrecision) (A : FVec Ideal ⟨2, ![a, n]⟩ φ₁)
    (B : FVec Ideal ⟨2, ![b, n]⟩ φ₂) (r : Fin a) (j : Fin b) :
    FloatOps.matmul (DotDims.transposedRhs a n b) prec A B (constant ⟨2, ![a, b]⟩ .f32 0x00000000#32) (ix2 r j)
      = ∑ k : Fin n, A (ix2 r k) * B (ix2 j k) := by
  rw [Ideal.matmul_constant_zero_apply, ← Equiv.sum_comp (contrEquiv1 (DotDims.transposedRhs a n b) n rfl rfl).symm]
  refine Finset.sum_congr rfl fun k _ => ?_
  have hk := contrEquiv1_symm_val (DotDims.transposedRhs a n b) n rfl rfl k
  have el : (DotDims.transposedRhs a n b).lhsIdx (ix2 r j) ((contrEquiv1 (DotDims.transposedRhs a n b) n rfl rfl).symm k)
      = ix2 r k :=
    funext fun c => Fin.ext (by
      match c with
      | ⟨0, _⟩ => exact lhs_row _ _
      | ⟨1, _⟩ => exact (lhs_col _ _).trans hk)
  have er : (DotDims.transposedRhs a n b).rhsIdx (ix2 r j) ((contrEquiv1 (DotDims.transposedRhs a n b) n rfl rfl).symm k)
      = ix2 j k :=
    funext fun c => Fin.ext (by
      match c with
      | ⟨0, _⟩ => exact rhs_row _ _
      | ⟨1, _⟩ => exact (rhs_col _ _).trans hk)
  rw [el, er]

end Cert.LibTransposedMatmul

end
-- ==== Proof.PayScore.lean ====
/-
  The flash kernel's score block and running maximum read at an index: the scaled product of a query row with a key
  row, and the old maximum against the fold of max over the block's row.
-/
import proofs.«107257_j65481071400351_2_alg».proof.Proof.Gen.KernelIdeal.Skeleton
import proofs.«107257_j65481071400351_2_alg».proof.Proof.Spec
import proofs.«107257_j65481071400351_2_alg».proof.Proof.LibKeepdims
import proofs.«107257_j65481071400351_2_alg».proof.Proof.LibRowMax
import proofs.«107257_j65481071400351_2_alg».proof.Proof.LibTransposedMatmul

noncomputable section

open scoped BigOperators

namespace Cert.KernelIdeal.Pay

open Cert.KernelIdeal Cert.KernelIdeal.Gen Cert.Attn Idealize.ShloMosaic Idealize.ShloMosaic.ValueIdx

/-- The record of the product with the transposed right operand is the library's. -/
theorem dotT_eq : dot_S1024x1024_S1024x1024_S1024x1024_1_1_0_0_n_n = DotDims.transposedRhs 1024 1024 1024 := rfl

/-- The scaled score block at (r, c): row r of the queries against row c of the keys, times the scale. -/
theorem pay7_at (q k : Vec Ideal S1024x1024 .bf16) (r c : Fin 1024) :
    k1_pay7 (F := Ideal) q k (ix2 r c) = blockScore q k r c := by
  unfold k1_pay7 blockScore scale
  rw [mulf_apply, broadcast_apply, shapeCast_self, shapeCast_self, dotT_eq]
  refine congrArg (· * _) ?_
  exact Cert.LibTransposedMatmul.matmul_zero_apply none q k r c

/-- The accumulator word of the lane maximum is -∞. -/
theorem negInf_word : Ideal.ofBits .f32 0xFF800000#32 = ⊥ := by simp [Ideal.ofBits, Ideal.ieee]

/-- The running maximum after the block at row r. -/
theorem pay8_at (q k : Vec Ideal S1024x1024 .bf16) (m : Vec Ideal S1024x1 .f32) (r : Fin 1024) :
    k1_pay8 (F := Ideal) q k m (ix2 r 0) = mNew q k m r := by
  unfold k1_pay8 mNew
  rw [maximumf_apply]
  refine congrArg (max (m (ix2 r 0))) ?_
  refine (Cert.LibKeepdims.shapeCast_a_a1_apply _ _ r 0).trans ?_
  refine (Cert.LibRowMax.multiReduction_maximumf_rows (k1_pay7 (F := Ideal) q k) 0xFF800000#32 _ _ _ r).trans ?_
  rw [negInf_word]
  exact congrArg (fun f => (Finset.univ : Finset (Fin 1024)).fold max ⊥ f) (funext fun c => pay7_at q k r c)

end Cert.KernelIdeal.Pay

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.PayFlash.lean ====
/-
  The flash kernel's block step read at an index: the rebasing factor, the unnormalised weights, the running
  denominator and the running numerator after one block of keys and values.
-/
import proofs.«107257_j65481071400351_2_alg».proof.Proof.PayScore
import proofs.«107257_j65481071400351_2_alg».proof.Proof.LibPlainMatmul

noncomputable section

open scoped BigOperators

namespace Cert.KernelIdeal.Pay

open Cert.KernelIdeal Cert.KernelIdeal.Gen Cert.Attn Idealize.ShloMosaic Idealize.ShloMosaic.ValueIdx

/-- The record of the plain product is the library's. -/
theorem dotP_eq : dot_S1024x1024_S1024x1024_S1024x1024_1_0_0_1_n_n = DotDims.plain 1024 1024 1024 := rfl

/-- The rebasing factor at row r: exp of the (re-read) old maximum minus the new one. -/
theorem pay9_at (q k : Vec Ideal S1024x1024 .bf16) (m m' : Vec Ideal S1024x1 .f32) (r : Fin 1024) :
    k1_pay9 (F := Ideal) q k m m' (ix2 r 0) = Ideal.exp (m' (ix2 r 0) - mNew q k m r) := by
  unfold k1_pay9
  show Ideal.exp (subf m' (k1_pay8 (F := Ideal) q k m) (ix2 r 0)) = _
  rw [subf_apply, pay8_at]

/-- The unnormalised weight of key c for row r. -/
theorem pay10_at (q k : Vec Ideal S1024x1024 .bf16) (m : Vec Ideal S1024x1 .f32) (r c : Fin 1024) :
    k1_pay10 (F := Ideal) q k m (ix2 r c) = prob q k m r c := by
  unfold k1_pay10 prob
  show Ideal.exp (subf (k1_pay7 (F := Ideal) q k) (broadcastTo S1024x1024 (k1_pay8 (F := Ideal) q k m) _) (ix2 r c)) = _
  rw [subf_apply, pay7_at]
  refine congrArg (fun t => Ideal.exp (blockScore q k r c - t)) ?_
  exact (Cert.LibKeepdims.broadcastTo_a1_ab_apply _ _ r c).trans (pay8_at q k m r)

/-- The running denominator after the block at row r. -/
theorem pay11_at (q k : Vec Ideal S1024x1024 .bf16) (m m' l : Vec Ideal S1024x1 .f32) (r : Fin 1024) :
    k1_pay11 (F := Ideal) q k m m' l (ix2 r 0)
      = Ideal.exp (m' (ix2 r 0) - mNew q k m r) * l (ix2 r 0) + ∑ c : Fin 1024, prob q k m r c := by
  unfold k1_pay11
  rw [shapeCast_self, addf_apply, mulf_apply, pay9_at]
  congr 1
  refine (Cert.LibKeepdims.shapeCast_a_a1_apply _ _ r 0).trans ?_
  refine (Cert.LibKeepdims.multiReduction_add_rows (k1_pay10 (F := Ideal) q k m) 0x00000000#32 _ _ _ r).trans ?_
  exact Finset.sum_congr rfl fun c _ => pay10_at q k m r c

/-- The rebased old numerator at (r, e). -/
theorem pay12_at (q k : Vec Ideal S1024x1024 .bf16) (m m' : Vec Ideal S1024x1 .f32) (o : Vec Ideal S1024x1024 .f32)
    (r e : Fin 1024) :
    k1_pay12 (F := Ideal) q k m m' o (ix2 r e) = Ideal.exp (m' (ix2 r 0) - mNew q k m r) * o (ix2 r e) := by
  unfold k1_pay12
  rw [mulf_apply, shapeCast_self]
  refine congrArg (· * _) ?_
  exact (Cert.LibKeepdims.broadcastTo_a1_ab_apply _ _ r e).trans (pay9_at q k m m' r)

/-- The weights handed to the product with the values: the same numbers. -/
theorem pay13_at (q k : Vec Ideal S1024x1024 .bf16) (m : Vec Ideal S1024x1 .f32) (r c : Fin 1024) :
    k1_pay13 (F := Ideal) q k m (ix2 r c) = prob q k m r c := by
  unfold k1_pay13
  rw [truncf_apply, pay10_at]

/-- The numerator's update over any operands: the first plus the plain product of the other two. -/
theorem pay1_gen (a : FVec Ideal S1024x1024 .f32) (p : FVec Ideal S1024x1024 .bf16) (v : Vec Ideal S1024x1024 .bf16)
    (r e : Fin 1024) :
    k1_pay1 (F := Ideal) a p v (ix2 r e) = a (ix2 r e) + ∑ c : Fin 1024, p (ix2 r c) * v (ix2 c e) := by
  unfold k1_pay1
  rw [addf_apply, shapeCast_self, dotP_eq]
  congr 1
  exact Cert.LibPlainMatmul.matmul_zero_apply none p v r e

/-- The running numerator after the block at (r, e). -/
theorem pay1_at (q k v : Vec Ideal S1024x1024 .bf16) (m m' : Vec Ideal S1024x1 .f32) (o : Vec Ideal S1024x1024 .f32)
    (r e : Fin 1024) :
    k1_pay1 (F := Ideal) (k1_pay12 q k m m' o) (k1_pay13 q k m) v (ix2 r e)
      = Ideal.exp (m' (ix2 r 0) - mNew q k m r) * o (ix2 r e) + ∑ c : Fin 1024, prob q k m r c * v (ix2 c e) := by
  rw [pay1_gen, pay12_at]
  congr 1
  exact Finset.sum_congr rfl fun c _ => congrArg (· * _) (pay13_at q k m r c)

end Cert.KernelIdeal.Pay

end
-- ==== Proof.PayRest.lean ====
/-
  The remaining bodies read at an index: the stored maximum, the final division, the three starting values, and the
  projection kernel's copy and two products.
-/
import proofs.«107257_j65481071400351_2_alg».proof.Proof.Gen.KernelIdeal.Skeleton
import proofs.«107257_j65481071400351_2_alg».proof.Proof.Spec
import proofs.«107257_j65481071400351_2_alg».proof.Proof.LibKeepdims
import proofs.«107257_j65481071400351_2_alg».proof.Proof.LibPlainMatmul

noncomputable section

open scoped BigOperators

namespace Cert.KernelIdeal.Pay

open Cert.KernelIdeal Cert.KernelIdeal.Gen Cert.Attn Idealize.ShloMosaic Idealize.ShloMosaic.ValueIdx

/-- The record of the plain product is the library's. -/
theorem dotP_eq' : dot_S1024x1024_S1024x1024_S1024x1024_1_0_0_1_n_n = DotDims.plain 1024 1024 1024 := rfl

/-- The maximum is stored as it is. -/
theorem pay2_eq (m : Vec Ideal S1024x1 .f32) : k1_pay2 (F := Ideal) m = m := by
  unfold k1_pay2
  rw [shapeCast_self]

/-- The last step's division at (r, e): the numerator over the row's denominator. -/
theorem pay3_at (o : Vec Ideal S1024x1024 .f32) (l : Vec Ideal S1024x1 .f32) (r e : Fin 1024) :
    k1_pay3 (F := Ideal) o l (ix2 r e) = Ideal.div (o (ix2 r e)) (l (ix2 r 0)) := by
  unfold k1_pay3
  rw [divf_apply, shapeCast_self]
  exact congrArg (Ideal.div (o (ix2 r e))) (Cert.LibKeepdims.broadcastTo_a1_ab_apply _ _ r e)

/-- The starting maximum is the finite constant everywhere. -/
theorem pay4_eq : k1_pay4 (F := Ideal) = fun _ => negBig := by
  unfold k1_pay4 negBig
  dsimp only
  rw [shapeCast_self]
  rfl

/-- The starting denominator is zero everywhere. -/
theorem pay5_eq : k1_pay5 (F := Ideal) = fun _ => 0 := by
  unfold k1_pay5
  dsimp only
  rw [shapeCast_self]
  exact funext fun _ => Ideal.ofBits_zero_f32

/-- The starting numerator is zero everywhere. -/
theorem pay6_eq : k1_pay6 (F := Ideal) = fun _ => 0 := by
  unfold k1_pay6
  exact funext fun _ => Ideal.ofBits_zero_f32

/-- The projection kernel's copy of its input block: the same numbers. -/
theorem k0pay1_eq (x : Vec Ideal S1024x1024 .f32) : k0_pay1 (F := Ideal) x = x := rfl

/-- The first projection at (r, j). -/
theorem k0pay2_at (x : Vec Ideal S1024x1024 .f32) (w : Vec Ideal S1024x1024 .bf16) (r j : Fin 1024) :
    k0_pay2 (F := Ideal) x w (ix2 r j) = ∑ k : Fin 1024, x (ix2 r k) * w (ix2 k j) := by
  unfold k0_pay2
  rw [truncf_apply, shapeCast_self, dotP_eq', k0pay1_eq]
  exact Cert.LibPlainMatmul.matmul_zero_apply none x w r j

/-- The second projection at (r, j). -/
theorem k0pay3_at (x : Vec Ideal S1024x1024 .f32) (w : Vec Ideal S1024x1024 .bf16) (r j : Fin 1024) :
    k0_pay3 (F := Ideal) x w (ix2 r j) = ∑ k : Fin 1024, x (ix2 r k) * w (ix2 k j) := by
  unfold k0_pay3
  rw [truncf_apply, shapeCast_self, dotP_eq', k0pay1_eq]
  exact Cert.LibPlainMatmul.matmul_zero_apply none x w r j

end Cert.KernelIdeal.Pay

end
-- ==== Proof.Payloads.lean ====
/-
  The kernel bodies' arithmetic read at an index, gathered: the score block and running maximum, the block step of
  the recurrence, and the remaining stores and the projection kernel.
-/
import proofs.«107257_j65481071400351_2_alg».proof.Proof.PayScore
import proofs.«107257_j65481071400351_2_alg».proof.Proof.PayFlash
import proofs.«107257_j65481071400351_2_alg».proof.Proof.PayRest
-- ==== Proof.KIValue0.lean ====
import proofs.«107257_j65481071400351_2_alg».proof.Proof.KIFrame0
import proofs.«107257_j65481071400351_2_alg».proof.Proof.Payloads
import proofs.«107257_j65481071400351_2_alg».proof.Proof.Spec
import Idealize.ShloMosaic.Lib.Pipeline.Value

/-
  The projection kernel's three output arrays after its grid of eight row blocks, on the extended reals, as whole-array
  functions of the arrays the region is entered with: the two projections of the positions and the positions
  themselves. Each point writes back its block of rows of that function, and the eight blocks of 1024 rows cover
  the 8192 rows.
-/

noncomputable section

namespace Cert.KernelIdeal.Val0

open Cert.KernelIdeal Cert.KernelIdeal.Gen Cert.KernelIdeal.Hand Cert.KernelIdeal.Pay Cert.Attn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the row windows sit at block (t, 0), the two matrices at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The first product of a block at an entry is the projection of the array at the entry's place, when the
    block's row is the array's row there and the matrix block's column is the matrix's column. -/
theorem pay2_point (A : SX.Idx → EReal) (Wm : SB.Idx → EReal)
    (xb : Vec Ideal S1024x1024 .f32) (wb : Vec Ideal S1024x1024 .bf16) (j : S1024x1024.Idx) (i : S8192x1024.Idx)
    (hx : ∀ k : Fin 1024, xb (ix2 (j 0) k) = A (ix2 (i 0) k))
    (hw : ∀ k : Fin 1024, wb (ix2 k (j 1)) = Wm (ix2 k (i 1))) :
    k0_pay2 (F := Ideal) xb wb j = proj A Wm i := by
  obtain ⟨r, q, rfl⟩ : ∃ (r q : Fin 1024), j = ix2 r q := ⟨j 0, j 1, eq_ix2 j⟩
  rw [k0pay2_at]
  show ∑ k : Fin 1024, xb (ix2 r k) * wb (ix2 k q) = ∑ k : Fin 1024, A (ix2 (i 0) k) * Wm (ix2 k (i 1))
  exact Finset.sum_congr rfl fun k _ => congrArg₂ (· * ·) (hx k) (hw k)

/-- The same for the second product. -/
theorem pay3_point (A : SX.Idx → EReal) (Wm : SB.Idx → EReal)
    (xb : Vec Ideal S1024x1024 .f32) (wb : Vec Ideal S1024x1024 .bf16) (j : S1024x1024.Idx) (i : S8192x1024.Idx)
    (hx : ∀ k : Fin 1024, xb (ix2 (j 0) k) = A (ix2 (i 0) k))
    (hw : ∀ k : Fin 1024, wb (ix2 k (j 1)) = Wm (ix2 k (i 1))) :
    k0_pay3 (F := Ideal) xb wb j = proj A Wm i := by
  obtain ⟨r, q, rfl⟩ : ∃ (r q : Fin 1024), j = ix2 r q := ⟨j 0, j 1, eq_ix2 j⟩
  rw [k0pay3_at]
  show ∑ k : Fin 1024, xb (ix2 r k) * wb (ix2 k q) = ∑ k : Fin 1024, A (ix2 (i 0) k) * Wm (ix2 k (i 1))
  exact Finset.sum_congr rfl fun k _ => congrArg₂ (· * ·) (hx k) (hw k)

/-- Row r of the positions' block at point t is row t·1024 + r of the positions, column by column. -/
theorem xblock_row (c : Dev nD) (t : Fin cfg0.N) (j : S1024x1024.Idx) (i : S8192x1024.Idx)
    (hi : (i 0).val = t.val * 1024 + (j 0).val) (k : Fin 1024) :
    iblk0 V c 0 t (ix2 (j 0) k) = (V c main_arg0 : S8192x1024.Idx → EReal) (ix2 (i 0) k) := by
  obtain ⟨e00, e01, -⟩ := idx_facts t
  show V c main_arg0 (((cfg0.win 0).blk t).view.emb (ix2 (j 0) k)) = V c main_arg0 (ix2 (i 0) k)
  refine congrArg (V c main_arg0) (funext fun a => Fin.ext ?_)
  match a with
  | ⟨0, _⟩ => show win0_0.index t (0 : Fin 2) * 1024 + 1 * (j 0).val = (i 0).val; omega
  | ⟨1, _⟩ => show win0_0.index t (1 : Fin 2) * 1024 + 1 * k.val = k.val; omega

/-- Column q of the first matrix's block is column q of the matrix. -/
theorem w1block_col (c : Dev nD) (t : Fin cfg0.N) (q : Fin 1024) (k : Fin 1024) :
    iblk0 V c 1 t (ix2 k q) = (V c main_v0 : S1024x1024.Idx → EReal) (ix2 k q) := by
  obtain ⟨-, -, e10, e11, -⟩ := idx_facts t
  show V c main_v0 (((cfg0.win 1).blk t).view.emb (ix2 k q)) = V c main_v0 (ix2 k q)
  refine congrArg (V c main_v0) (funext fun a => Fin.ext ?_)
  match a with
  | ⟨0, _⟩ => show win0_1.index t (0 : Fin 2) * 1024 + 1 * k.val = k.val; omega
  | ⟨1, _⟩ => show win0_1.index t (1 : Fin 2) * 1024 + 1 * q.val = q.val; omega

/-- Column q of the second matrix's block is column q of the matrix. -/
theorem w2block_col (c : Dev nD) (t : Fin cfg0.N) (q : Fin 1024) (k : Fin 1024) :
    iblk0 V c 2 t (ix2 k q) = (V c main_v1 : S1024x1024.Idx → EReal) (ix2 k q) := by
  obtain ⟨-, -, -, -, e20, e21, -⟩ := idx_facts t
  show V c main_v1 (((cfg0.win 2).blk t).view.emb (ix2 k q)) = V c main_v1 (ix2 k q)
  refine congrArg (V c main_v1) (funext fun a => Fin.ext ?_)
  match a with
  | ⟨0, _⟩ => show win0_2.index t (0 : Fin 2) * 1024 + 1 * k.val = k.val; omega
  | ⟨1, _⟩ => show win0_2.index t (1 : Fin 2) * 1024 + 1 * q.val = q.val; omega

/-- What point t writes back to output 3 is its block of rows of the projection. -/
theorem flushed3_eq (c : Dev nD) (t : Fin cfg0.N) :
    (dat0 (F := Ideal) V c).flushed 3 t
      = ((cfg0.win 3).blk t).view.read (Elt Ideal) (proj (V c main_arg0) (V c main_v0)) := by
  show (cfg0.win 3).cut (grid0.coords t) ((dat0 V c).after 3 t) = _
  rw [after0_3]
  unfold out0_3
  rw [View.canon_unit_zero hz]
  simp only [View.ld_unit_zero (S := S1024x1024) hz]
  obtain ⟨-, -, -, -, -, -, ew0, ew1, -⟩ := idx_facts t
  funext j
  show k0_pay2 (F := Ideal) (iblk0 V c 0 t) (iblk0 V c 1 t) j
    = proj (V c main_arg0) (V c main_v0) (((cfg0.win 3).blk t).view.emb j)
  refine pay2_point _ _ _ _ j _ (fun k => ?_) (fun k => ?_)
  · refine xblock_row V c t j _ ?_ k
    show win0_3.index t (0 : Fin 2) * 1024 + 1 * (j 0).val = t.val * 1024 + (j 0).val
    omega
  · refine (w1block_col V c t (j 1) k).trans ?_
    refine congrArg (V c main_v0) (funext fun a => Fin.ext ?_)
    match a with
    | ⟨0, _⟩ => rfl
    | ⟨1, _⟩ => show (j 1).val = win0_3.index t (1 : Fin 2) * 1024 + 1 * (j 1).val; omega

/-- What point t writes back to output 4 is its block of rows of the projection. -/
theorem flushed4_eq (c : Dev nD) (t : Fin cfg0.N) :
    (dat0 (F := Ideal) V c).flushed 4 t
      = ((cfg0.win 4).blk t).view.read (Elt Ideal) (proj (V c main_arg0) (V c main_v1)) := by
  show (cfg0.win 4).cut (grid0.coords t) ((dat0 V c).after 4 t) = _
  rw [after0_4]
  unfold out0_4
  rw [View.canon_unit_zero hz]
  simp only [View.ld_unit_zero (S := S1024x1024) hz]
  obtain ⟨-, -, -, -, -, -, -, -, ew0, ew1, -⟩ := idx_facts t
  funext j
  show k0_pay3 (F := Ideal) (iblk0 V c 0 t) (iblk0 V c 2 t) j
    = proj (V c main_arg0) (V c main_v1) (((cfg0.win 4).blk t).view.emb j)
  refine pay3_point _ _ _ _ j _ (fun k => ?_) (fun k => ?_)
  · refine xblock_row V c t j _ ?_ k
    show win0_4.index t (0 : Fin 2) * 1024 + 1 * (j 0).val = t.val * 1024 + (j 0).val
    omega
  · refine (w2block_col V c t (j 1) k).trans ?_
    refine congrArg (V c main_v1) (funext fun a => Fin.ext ?_)
    match a with
    | ⟨0, _⟩ => rfl
    | ⟨1, _⟩ => show (j 1).val = win0_4.index t (1 : Fin 2) * 1024 + 1 * (j 1).val; omega

/-- What point t writes back to output 5 is its block of rows of the positions. -/
theorem flushed5_eq (c : Dev nD) (t : Fin cfg0.N) :
    (dat0 (F := Ideal) V c).flushed 5 t
      = ((cfg0.win 5).blk t).view.read (Elt Ideal) (fun i : S8192x1024.Idx => (V c main_arg0 i : EReal)) := by
  show (cfg0.win 5).cut (grid0.coords t) ((dat0 V c).after 5 t) = _
  rw [after0_5]
  unfold out0_5
  rw [View.canon_unit_zero hz]
  simp only [View.ld_unit_zero (S := S1024x1024) hz]
  rw [k0pay1_eq]
  obtain ⟨-, -, -, -, -, -, -, -, -, -, ew0, ew1⟩ := idx_facts t
  obtain ⟨e00, e01, -⟩ := idx_facts t
  funext j
  show V c main_arg0 (((cfg0.win 0).blk t).view.emb j) = V c main_arg0 (((cfg0.win 5).blk t).view.emb j)
  refine congrArg (V c main_arg0) (funext fun a => Fin.ext ?_)
  match a with
  | ⟨0, _⟩ => show win0_0.index t (0 : Fin 2) * 1024 + 1 * (j 0).val = win0_5.index t (0 : Fin 2) * 1024 + 1 * (j 0).val; omega
  | ⟨1, _⟩ => show win0_0.index t (1 : Fin 2) * 1024 + 1 * (j 1).val = win0_5.index t (1 : Fin 2) * 1024 + 1 * (j 1).val; omega

/-- An entry is in point t's block of output 3 iff each coordinate is in the block's range. -/
theorem mem_blk3 (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2_0).slice (win0_3.rect t)).set ↔ _
  rw [View.set_slice_whole, Rect.mem_set_unit]
  exact Iff.rfl

/-- Row r of output 3 is in the block of point r / 1024. -/
theorem cover3 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  have ht : (i 0).val / 1024 < cfg0.N := by rw [hN]; omega
  obtain ⟨-, -, -, -, -, -, ew0, ew1, -⟩ := idx_facts ⟨(i 0).val / 1024, ht⟩
  refine ⟨⟨(i 0).val / 1024, ht⟩, flush0_3 _, ?_⟩
  rw [mem_blk3]
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    have e : win0_3.index ⟨(i 0).val / 1024, ht⟩ (0 : Fin 2) = (i 0).val / 1024 := ew0
    omega
  | ⟨1, _⟩ =>
    show win0_3.index ⟨(i 0).val / 1024, ht⟩ (1 : Fin 2) * 1024 ≤ (i 1).val ∧ (i 1).val < win0_3.index ⟨(i 0).val / 1024, ht⟩ (1 : Fin 2) * 1024 + 1024
    omega

/-- An entry is in point t's block of output 4 iff each coordinate is in the block's range. -/
theorem mem_blk4 (t : Fin cfg0.N) (i : S8192x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v2_1).slice (win0_4.rect t)).set ↔ _
  rw [View.set_slice_whole, Rect.mem_set_unit]
  exact Iff.rfl

/-- Row r of output 4 is in the block of point r / 1024. -/
theorem cover4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 8 := N_0
  have ht : (i 0).val / 1024 < cfg0.N := by rw [hN]; omega
  obtain ⟨-, -, -, -, -, -, -, -, ew0, ew1, -⟩ := idx_facts ⟨(i 0).val / 1024, ht⟩
  refine ⟨⟨(i 0).val / 1024, ht⟩, flush0_4 _, ?_⟩
  rw [mem_blk4]
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    have e : win0_4.index ⟨(i 0).val / 1024, ht⟩ (0 : Fin 2) = (i 0).val / 1024 := ew0
    omega
  | ⟨1, _⟩ =>
    show win0_4.index ⟨(i 0).val / 1024, ht⟩ (1 : Fin 2) * 1024 ≤ (i 1).val ∧ (i 1).val < win0_4.index ⟨(i 0).val / 1024, ht⟩ (1 : Fin 2) * 1024 + 1024
    omega

/-- An entry is in point t's block of output 5 iff each coordinate is in the block's range. -/
theorem mem_blk5 (t : Fin cfg0.N) (i : S8192x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v2_2).slice (win0_5.rect t)).set ↔ _
  rw [View.set_slice_whole, Rect.mem_set_unit]
  exact Iff.rfl

/-- Row r of output 5 is in the block of point r / 1024. -/
theorem cover5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 8 := N_0
  have ht : (i 0).val / 1024 < cfg0.N := by rw [hN]; omega
  obtain ⟨-, -, -, -, -, -, -, -, -, -, ew0, ew1⟩ := idx_facts ⟨(i 0).val / 1024, ht⟩
  refine ⟨⟨(i 0).val / 1024, ht⟩, flush0_5 _, ?_⟩
  rw [mem_blk5]
  intro a
  match a with
  | ⟨0, _⟩ =>
    show win0_5.index ⟨(i 0).val / 1024, ht⟩ (0 : Fin 2) * 1024 ≤ (i 0).val ∧ (i 0).val < win0_5.index ⟨(i 0).val / 1024, ht⟩ (0 : Fin 2) * 1024 + 1024
    have e : win0_5.index ⟨(i 0).val / 1024, ht⟩ (0 : Fin 2) = (i 0).val / 1024 := ew0
    omega
  | ⟨1, _⟩ =>
    show win0_5.index ⟨(i 0).val / 1024, ht⟩ (1 : Fin 2) * 1024 ≤ (i 1).val ∧ (i 1).val < win0_5.index ⟨(i 0).val / 1024, ht⟩ (1 : Fin 2) * 1024 + 1024
    omega

/-- The first output array after the grid is the projection of the positions by the first matrix. -/
theorem final0_3 (c : Dev nD) :
    (dat0 (F := Ideal) V c).arrAt 3 cfg0.N = proj (V c main_arg0) (V c main_v0) :=
  (dat0 (F := Ideal) V c).arrAt_eq_of_cover 3 _ (fun t _ => flushed3_eq V c t) cover3

/-- The second output array after the grid is the projection by the second matrix. -/
theorem final0_4 (c : Dev nD) :
    (dat0 (F := Ideal) V c).arrAt 4 cfg0.N = proj (V c main_arg0) (V c main_v1) :=
  (dat0 (F := Ideal) V c).arrAt_eq_of_cover 4 _ (fun t _ => flushed4_eq V c t) cover4

/-- The third output array after the grid is the positions. -/
theorem final0_5 (c : Dev nD) :
    (dat0 (F := Ideal) V c).arrAt 5 cfg0.N = (fun i : S8192x1024.Idx => (V c main_arg0 i : EReal)) :=
  (dat0 (F := Ideal) V c).arrAt_eq_of_cover 5 _ (fun t _ => flushed5_eq V c t) cover5

end Cert.KernelIdeal.Val0

end
-- ==== Proof.KIValue1.lean ====
import proofs.«107257_j65481071400351_2_alg».proof.Proof.KIFrame1
import proofs.«107257_j65481071400351_2_alg».proof.Proof.Spec
import Idealize.ShloMosaic.Lib.Pipeline.Value

/-
  The attention kernel's grid of 8 x 8 points on the extended reals: the blocks its three input windows read at a
  point are row blocks of the arrays the region is entered with (the queries' at the point's query block, the
  keys' and the values' at its key block), and its output array after the grid is any whole-array function whose
  row blocks are what the last key block's points leave in the output buffer: those eight points write back the
  eight blocks of 1024 rows, which cover the 8192 rows.
-/

noncomputable section

namespace Cert.KernelIdeal.Val1

open Cert.KernelIdeal Cert.KernelIdeal.Gen Cert.KernelIdeal.Hand Cert.Attn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The grid has 64 points. -/
theorem lt64 (t : Fin cfg1.N) : t.val < 64 := lt_of_lt_of_eq t.isLt (show cfg1.N = 64 from N_1)

/-- The block index maps over the grid: the queries and the output sit at block (t / 8, 0), the keys and the values
    at block (t % 8, 0). -/
theorem idx_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

/-! ## The input blocks -/

/-- The queries' block at point t is row block t / 8 of the queries. -/
theorem iblk1_0_eq (c : Dev nD) (t : Fin cfg1.N) (b : Fin 8) (hb : b.val = t.val / 8) :
    (iblk1 (F := Ideal) V c 0 t : S1024x1024.Idx → EReal) = blockOf (V c main_v2_0) b := by
  obtain ⟨e0, e1, -⟩ := idx_facts t
  funext j
  show V c main_v2_0 (((cfg1.win 0).blk t).view.emb j) = V c main_v2_0 (ix2 ⟨b.val * 1024 + (j 0).val, _⟩ (j 1))
  refine congrArg (V c main_v2_0) (funext fun a => Fin.ext ?_)
  match a with
  | ⟨0, _⟩ => show win1_0.index t (0 : Fin 2) * 1024 + 1 * (j 0).val = b.val * 1024 + (j 0).val; omega
  | ⟨1, _⟩ => show win1_0.index t (1 : Fin 2) * 1024 + 1 * (j 1).val = (j 1).val; omega

/-- The keys' block at point t is row block t % 8 of the keys. -/
theorem iblk1_1_eq (c : Dev nD) (t : Fin cfg1.N) (b : Fin 8) (hb : b.val = t.val % 8) :
    (iblk1 (F := Ideal) V c 1 t : S1024x1024.Idx → EReal) = blockOf (V c main_v2_1) b := by
  obtain ⟨-, -, e0, e1, -⟩ := idx_facts t
  funext j
  show V c main_v2_1 (((cfg1.win 1).blk t).view.emb j) = V c main_v2_1 (ix2 ⟨b.val * 1024 + (j 0).val, _⟩ (j 1))
  refine congrArg (V c main_v2_1) (funext fun a => Fin.ext ?_)
  match a with
  | ⟨0, _⟩ => show win1_1.index t (0 : Fin 2) * 1024 + 1 * (j 0).val = b.val * 1024 + (j 0).val; omega
  | ⟨1, _⟩ => show win1_1.index t (1 : Fin 2) * 1024 + 1 * (j 1).val = (j 1).val; omega

/-- The values' block at point t is row block t % 8 of the values. -/
theorem iblk1_2_eq (c : Dev nD) (t : Fin cfg1.N) (b : Fin 8) (hb : b.val = t.val % 8) :
    (iblk1 (F := Ideal) V c 2 t : S1024x1024.Idx → EReal) = blockOf (V c main_v2_2) b := by
  obtain ⟨-, -, -, -, e0, e1, -⟩ := idx_facts t
  funext j
  show V c main_v2_2 (((cfg1.win 2).blk t).view.emb j) = V c main_v2_2 (ix2 ⟨b.val * 1024 + (j 0).val, _⟩ (j 1))
  refine congrArg (V c main_v2_2) (funext fun a => Fin.ext ?_)
  match a with
  | ⟨0, _⟩ => show win1_2.index t (0 : Fin 2) * 1024 + 1 * (j 0).val = b.val * 1024 + (j 0).val; omega
  | ⟨1, _⟩ => show win1_2.index t (1 : Fin 2) * 1024 + 1 * (j 1).val = (j 1).val; omega

/-! ## The output array -/

section Output

variable {c : Dev nD} (dat : Dat τ (Elt Ideal) Unit ℕ (UR sig nD τ) ℕ cfg1 c)

/-- A point that writes the output back writes its block of rows of G, when what the last key block's points leave
    in the output buffer is G's row block of their query block. -/
theorem flushed3_eq (G : S8192x1024.Idx → EReal)
    (hlast : ∀ t : Fin cfg1.N, t.val % 8 = 7 → ∀ (r e : Fin 1024),
      dat.after 3 t (ix2 r e) = G (ix2 ⟨(t.val / 8) * 1024 + r.val, by have := lt64 t; have := r.isLt; omega⟩ e))
    (t : Fin cfg1.N) (hf : (cfg1.win 3).flush t = true) :
    dat.flushed 3 t = ((cfg1.win 3).blk t).view.read (Elt Ideal) G := by
  have h7 : t.val % 8 = 7 := (flush1_3 t).mp hf
  obtain ⟨-, -, -, -, -, -, e0, e1⟩ := idx_facts t
  show (cfg1.win 3).cut (grid1.coords t) (dat.after 3 t) = _
  funext j
  show dat.after 3 t j = G (((cfg1.win 3).blk t).view.emb j)
  refine (congrArg (dat.after 3 t) (eq_ix2 j)).trans ((hlast t h7 (j 0) (j 1)).trans (congrArg G (funext fun a => Fin.ext ?_)))
  match a with
  | ⟨0, _⟩ => show t.val / 8 * 1024 + (j 0).val = win1_3.index t (0 : Fin 2) * 1024 + 1 * (j 0).val; omega
  | ⟨1, _⟩ => show (j 1).val = win1_3.index t (1 : Fin 2) * 1024 + 1 * (j 1).val; omega

/-- An entry is in point t's block of the output iff each coordinate is in the block's range. -/
theorem mem_blk3 (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v3).slice (win1_3.rect t)).set ↔ _
  rw [View.set_slice_whole, Rect.mem_set_unit]
  exact Iff.rfl

/-- Row s of the output is in the block of the point (s / 1024) · 8 + 7, which writes back. -/
theorem cover3 (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 64 := N_1
  have ht : (i 0).val / 1024 * 8 + 7 < cfg1.N := by rw [hN]; omega
  obtain ⟨-, -, -, -, -, -, e0, e1⟩ := idx_facts ⟨(i 0).val / 1024 * 8 + 7, ht⟩
  refine ⟨⟨(i 0).val / 1024 * 8 + 7, ht⟩, (flush1_3 _).mpr (by show ((i 0).val / 1024 * 8 + 7) % 8 = 7; omega), ?_⟩
  rw [mem_blk3]
  intro a
  match a with
  | ⟨0, _⟩ =>
    show win1_3.index ⟨(i 0).val / 1024 * 8 + 7, ht⟩ (0 : Fin 2) * 1024 ≤ (i 0).val ∧ (i 0).val < win1_3.index ⟨(i 0).val / 1024 * 8 + 7, ht⟩ (0 : Fin 2) * 1024 + 1024
    have e : win1_3.index ⟨(i 0).val / 1024 * 8 + 7, ht⟩ (0 : Fin 2) = ((i 0).val / 1024 * 8 + 7) / 8 := e0
    omega
  | ⟨1, _⟩ =>
    show win1_3.index ⟨(i 0).val / 1024 * 8 + 7, ht⟩ (1 : Fin 2) * 1024 ≤ (i 1).val ∧ (i 1).val < win1_3.index ⟨(i 0).val / 1024 * 8 + 7, ht⟩ (1 : Fin 2) * 1024 + 1024
    omega

/-- The output array after the grid is G. -/
theorem final1_of_dat (G : S8192x1024.Idx → EReal)
    (hlast : ∀ t : Fin cfg1.N, t.val % 8 = 7 → ∀ (r e : Fin 1024),
      dat.after 3 t (ix2 r e) = G (ix2 ⟨(t.val / 8) * 1024 + r.val, by have := lt64 t; have := r.isLt; omega⟩ e)) :
    dat.arrAt 3 cfg1.N = G :=
  dat.arrAt_eq_of_cover 3 G (fun t hf => flushed3_eq dat G hlast t hf) cover3

end Output

/-- The attention kernel's output array after its grid is G, when what each last-key-block point leaves in the
    output buffer is G's row block of the point's query block. -/
theorem final1_of (c : Dev nD) (G : S8192x1024.Idx → EReal)
    (hlast : ∀ t : Fin cfg1.N, t.val % 8 = 7 → ∀ (r e : Fin 1024),
      (dat1 (F := Ideal) V c).after 3 t (ix2 r e) = G (ix2 ⟨(t.val / 8) * 1024 + r.val, by have := lt64 t; have := r.isLt; omega⟩ e)) :
    (dat1 (F := Ideal) V c).arrAt 3 cfg1.N = G :=
  final1_of_dat (dat1 (F := Ideal) V c) G hlast

end Cert.KernelIdeal.Val1

end
-- ==== Proof.KIPieces.lean ====
/-
  What the attention kernel's body leaves in the output block and the two scratch columns, in each of its three
  control cases, as the arithmetic of the values it read: the pieces its stores wrote, read back.
-/
import proofs.«107257_j65481071400351_2_alg».proof.Proof.KIFrame1C
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offset of a whole-block access. -/
theorem hz2 : (![0, 0] : Fin 2 → Nat) = fun _ => 0 := funext fun a => by fin_cases a <;> rfl

/-- First key block: the output block holds the numerator's update from the starting values. -/
theorem piecesA_o (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (hc0 : cond1_0 i) (hc1 : ¬cond1_1 i)
    (x0 x1 x2 : Vec F S1024x1024 .bf16) :
    VO1_3.read (Elt F) (VO1_3.writes (Elt F) VO1_3.junk (kernelRun1_A c i arg2 harg2 arg3 harg3 arg4 harg4 arg5 harg5 arg6 harg6 arg7 harg7 hc0 hc1 x0 x1 x2).1)
      = k1_pay1 (k1_pay12 x0 x1 k1_pay4 k1_pay4 k1_pay6) (k1_pay13 x0 x1 k1_pay4) x2 := by
  rw [View.read_writes_eq_canon _ _ _ (fun y => View.cover_of_tiledL (kernelRun1_A c i arg2 harg2 arg3 harg3 arg4 harg4 arg5 harg5 arg6 harg6 arg7 harg7 hc0 hc1 x0 x1 x2).1 S1024x1024.size (by sl_kernel_rfl) y)]
  unfold kernelRun1_A
  dsimp only
  rw [View.canon_cons_unit_zero (S := S1024x1024) hz2]
  sl_unfold_words
  simp only [View.readAt_eq_ld, harg2.read_unread, harg3.read_unread, harg4.read_unread, harg5.read_unread, harg6.read_unread, harg7.read_unread,
    View.ld_unit_zero (S := S1024x1024) hz2, View.ld_unit_zero (S := S1024x1) hz2,
    View.readCov_unit_zero (S := S1024x1) _ hz2, View.readCov_unit_zero (S := S1024x1024) _ hz2]

/-- First key block: the first scratch column holds the new maximum from the starting value. -/
theorem piecesA_m (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (hc0 : cond1_0 i) (hc1 : ¬cond1_1 i)
    (x0 x1 x2 : Vec F S1024x1024 .bf16) :
    VS1_0.read (Elt F) (VS1_0.writes (Elt F) VS1_0.junk (kernelRun1_A c i arg2 harg2 arg3 harg3 arg4 harg4 arg5 harg5 arg6 harg6 arg7 harg7 hc0 hc1 x0 x1 x2).2.1)
      = k1_pay2 (k1_pay8 x0 x1 k1_pay4) := by
  rw [View.read_writes_eq_canon _ _ _ (fun y => View.cover_of_tiledL (kernelRun1_A c i arg2 harg2 arg3 harg3 arg4 harg4 arg5 harg5 arg6 harg6 arg7 harg7 hc0 hc1 x0 x1 x2).2.1 S1024x1.size (by sl_kernel_rfl) y)]
  unfold kernelRun1_A
  dsimp only
  rw [View.canon_cons_unit_zero (S := S1024x1) hz2]
  sl_unfold_words
  simp only [View.readAt_eq_ld, harg2.read_unread, harg3.read_unread, harg4.read_unread, harg5.read_unread, harg6.read_unread, harg7.read_unread,
    View.ld_unit_zero (S := S1024x1024) hz2, View.ld_unit_zero (S := S1024x1) hz2,
    View.readCov_unit_zero (S := S1024x1) _ hz2, View.readCov_unit_zero (S := S1024x1024) _ hz2]

/-- First key block: the second scratch column holds the denominator's update from the starting values. -/
theorem piecesA_l (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (hc0 : cond1_0 i) (hc1 : ¬cond1_1 i)
    (x0 x1 x2 : Vec F S1024x1024 .bf16) :
    VS1_1.read (Elt F) (VS1_1.writes (Elt F) VS1_1.junk (kernelRun1_A c i arg2 harg2 arg3 harg3 arg4 harg4 arg5 harg5 arg6 harg6 arg7 harg7 hc0 hc1 x0 x1 x2).2.2.1)
      = k1_pay11 x0 x1 k1_pay4 k1_pay4 k1_pay5 := by
  rw [View.read_writes_eq_canon _ _ _ (fun y => View.cover_of_tiledL (kernelRun1_A c i arg2 harg2 arg3 harg3 arg4 harg4 arg5 harg5 arg6 harg6 arg7 harg7 hc0 hc1 x0 x1 x2).2.2.1 S1024x1.size (by sl_kernel_rfl) y)]
  unfold kernelRun1_A
  dsimp only
  rw [View.canon_cons_unit_zero (S := S1024x1) hz2]
  sl_unfold_words
  simp only [View.readAt_eq_ld, harg2.read_unread, harg3.read_unread, harg4.read_unread, harg5.read_unread, harg6.read_unread, harg7.read_unread,
    View.ld_unit_zero (S := S1024x1024) hz2, View.ld_unit_zero (S := S1024x1) hz2,
    View.readCov_unit_zero (S := S1024x1) _ hz2, View.readCov_unit_zero (S := S1024x1024) _ hz2]

/-- A middle key block: the output block holds the numerator's update from the running arrays. -/
theorem piecesB_o (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : ¬cond1_1 i)
    (x0 x1 x2 : Vec F S1024x1024 .bf16) (xo5 : Vec F S1024x1024 .f32) (xs6 xs7 : Vec F S1024x1 .f32) :
    VO1_3.read (Elt F) (VO1_3.writes (Elt F) VO1_3.junk (kernelRun1_B c i arg2 harg2 arg3 harg3 arg4 harg4 arg5 harg5 arg6 harg6 arg7 harg7 hc0 hc1 x0 x1 x2 xo5 xs6 xs7).1)
      = k1_pay1 (k1_pay12 x0 x1 xs6 xs6 xo5) (k1_pay13 x0 x1 xs6) x2 := by
  rw [View.read_writes_eq_canon _ _ _ (fun y => View.cover_of_tiledL (kernelRun1_B c i arg2 harg2 arg3 harg3 arg4 harg4 arg5 harg5 arg6 harg6 arg7 harg7 hc0 hc1 x0 x1 x2 xo5 xs6 xs7).1 S1024x1024.size (by sl_kernel_rfl) y)]
  unfold kernelRun1_B
  dsimp only
  rw [View.canon_cons_unit_zero (S := S1024x1024) hz2]
  sl_unfold_words
  simp only [View.readAt_eq_ld, harg2.read_unread, harg3.read_unread, harg4.read_unread, harg5.read_unread, harg6.read_unread, harg7.read_unread,
    View.ld_unit_zero (S := S1024x1024) hz2, View.ld_unit_zero (S := S1024x1) hz2,
    View.readCov_unit_zero (S := S1024x1) _ hz2, View.readCov_unit_zero (S := S1024x1024) _ hz2]

/-- A middle key block: the first scratch column holds the new maximum. -/
theorem piecesB_m (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : ¬cond1_1 i)
    (x0 x1 x2 : Vec F S1024x1024 .bf16) (xo5 : Vec F S1024x1024 .f32) (xs6 xs7 : Vec F S1024x1 .f32) :
    VS1_0.read (Elt F) (VS1_0.writes (Elt F) VS1_0.junk (kernelRun1_B c i arg2 harg2 arg3 harg3 arg4 harg4 arg5 harg5 arg6 harg6 arg7 harg7 hc0 hc1 x0 x1 x2 xo5 xs6 xs7).2.1)
      = k1_pay2 (k1_pay8 x0 x1 xs6) := by
  rw [View.read_writes_eq_canon _ _ _ (fun y => View.cover_of_tiledL (kernelRun1_B c i arg2 harg2 arg3 harg3 arg4 harg4 arg5 harg5 arg6 harg6 arg7 harg7 hc0 hc1 x0 x1 x2 xo5 xs6 xs7).2.1 S1024x1.size (by sl_kernel_rfl) y)]
  unfold kernelRun1_B
  dsimp only
  rw [View.canon_cons_unit_zero (S := S1024x1) hz2]
  sl_unfold_words
  simp only [View.readAt_eq_ld, harg2.read_unread, harg3.read_unread, harg4.read_unread, harg5.read_unread, harg6.read_unread, harg7.read_unread,
    View.ld_unit_zero (S := S1024x1024) hz2, View.ld_unit_zero (S := S1024x1) hz2,
    View.readCov_unit_zero (S := S1024x1) _ hz2, View.readCov_unit_zero (S := S1024x1024) _ hz2]

/-- A middle key block: the second scratch column holds the denominator's update. -/
theorem piecesB_l (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : ¬cond1_1 i)
    (x0 x1 x2 : Vec F S1024x1024 .bf16) (xo5 : Vec F S1024x1024 .f32) (xs6 xs7 : Vec F S1024x1 .f32) :
    VS1_1.read (Elt F) (VS1_1.writes (Elt F) VS1_1.junk (kernelRun1_B c i arg2 harg2 arg3 harg3 arg4 harg4 arg5 harg5 arg6 harg6 arg7 harg7 hc0 hc1 x0 x1 x2 xo5 xs6 xs7).2.2.1)
      = k1_pay11 x0 x1 xs6 xs6 xs7 := by
  rw [View.read_writes_eq_canon _ _ _ (fun y => View.cover_of_tiledL (kernelRun1_B c i arg2 harg2 arg3 harg3 arg4 harg4 arg5 harg5 arg6 harg6 arg7 harg7 hc0 hc1 x0 x1 x2 xo5 xs6 xs7).2.2.1 S1024x1.size (by sl_kernel_rfl) y)]
  unfold kernelRun1_B
  dsimp only
  rw [View.canon_cons_unit_zero (S := S1024x1) hz2]
  sl_unfold_words
  simp only [View.readAt_eq_ld, harg2.read_unread, harg3.read_unread, harg4.read_unread, harg5.read_unread, harg6.read_unread, harg7.read_unread,
    View.ld_unit_zero (S := S1024x1024) hz2, View.ld_unit_zero (S := S1024x1) hz2,
    View.readCov_unit_zero (S := S1024x1) _ hz2, View.readCov_unit_zero (S := S1024x1024) _ hz2]

/-- Last key block: the output block holds the updated numerator divided by the updated denominator. -/
theorem piecesC_o (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 x1 x2 : Vec F S1024x1024 .bf16) (xo5 : Vec F S1024x1024 .f32) (xs6 xs7 : Vec F S1024x1 .f32) :
    VO1_3.read (Elt F) (VO1_3.writes (Elt F) VO1_3.junk (kernelRun1_C c i arg2 harg2 arg3 harg3 arg4 harg4 arg5 harg5 arg6 harg6 arg7 harg7 hc0 hc1 x0 x1 x2 xo5 xs6 xs7).1)
      = k1_pay3 (k1_pay1 (k1_pay12 x0 x1 xs6 xs6 xo5) (k1_pay13 x0 x1 xs6) x2) (k1_pay11 x0 x1 xs6 xs6 xs7) := by
  rw [View.read_writes_eq_canon _ _ _ (fun y => View.cover_of_tiledL (kernelRun1_C c i arg2 harg2 arg3 harg3 arg4 harg4 arg5 harg5 arg6 harg6 arg7 harg7 hc0 hc1 x0 x1 x2 xo5 xs6 xs7).1 S1024x1024.size (by sl_kernel_rfl) y)]
  unfold kernelRun1_C
  dsimp only
  rw [View.canon_cons_unit_zero (S := S1024x1024) hz2]
  sl_unfold_words
  simp only [View.readAt_eq_ld, harg2.read_unread, harg3.read_unread, harg4.read_unread, harg5.read_unread, harg6.read_unread, harg7.read_unread,
    View.ld_unit_zero (S := S1024x1024) hz2, View.ld_unit_zero (S := S1024x1) hz2,
    View.readCov_unit_zero (S := S1024x1) _ hz2, View.readCov_unit_zero (S := S1024x1024) _ hz2]

/-- Last key block: the first scratch column holds the new maximum. -/
theorem piecesC_m (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 x1 x2 : Vec F S1024x1024 .bf16) (xo5 : Vec F S1024x1024 .f32) (xs6 xs7 : Vec F S1024x1 .f32) :
    VS1_0.read (Elt F) (VS1_0.writes (Elt F) VS1_0.junk (kernelRun1_C c i arg2 harg2 arg3 harg3 arg4 harg4 arg5 harg5 arg6 harg6 arg7 harg7 hc0 hc1 x0 x1 x2 xo5 xs6 xs7).2.1)
      = k1_pay2 (k1_pay8 x0 x1 xs6) := by
  rw [View.read_writes_eq_canon _ _ _ (fun y => View.cover_of_tiledL (kernelRun1_C c i arg2 harg2 arg3 harg3 arg4 harg4 arg5 harg5 arg6 harg6 arg7 harg7 hc0 hc1 x0 x1 x2 xo5 xs6 xs7).2.1 S1024x1.size (by sl_kernel_rfl) y)]
  unfold kernelRun1_C
  dsimp only
  rw [View.canon_cons_unit_zero (S := S1024x1) hz2]
  sl_unfold_words
  simp only [View.readAt_eq_ld, harg2.read_unread, harg3.read_unread, harg4.read_unread, harg5.read_unread, harg6.read_unread, harg7.read_unread,
    View.ld_unit_zero (S := S1024x1024) hz2, View.ld_unit_zero (S := S1024x1) hz2,
    View.readCov_unit_zero (S := S1024x1) _ hz2, View.readCov_unit_zero (S := S1024x1024) _ hz2]

/-- Last key block: the second scratch column holds the denominator's update. -/
theorem piecesC_l (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 x1 x2 : Vec F S1024x1024 .bf16) (xo5 : Vec F S1024x1024 .f32) (xs6 xs7 : Vec F S1024x1 .f32) :
    VS1_1.read (Elt F) (VS1_1.writes (Elt F) VS1_1.junk (kernelRun1_C c i arg2 harg2 arg3 harg3 arg4 harg4 arg5 harg5 arg6 harg6 arg7 harg7 hc0 hc1 x0 x1 x2 xo5 xs6 xs7).2.2.1)
      = k1_pay11 x0 x1 xs6 xs6 xs7 := by
  rw [View.read_writes_eq_canon _ _ _ (fun y => View.cover_of_tiledL (kernelRun1_C c i arg2 harg2 arg3 harg3 arg4 harg4 arg5 harg5 arg6 harg6 arg7 harg7 hc0 hc1 x0 x1 x2 xo5 xs6 xs7).2.2.1 S1024x1.size (by sl_kernel_rfl) y)]
  unfold kernelRun1_C
  dsimp only
  sl_unfold_words
  rw [View.canon_cons_unit_zero (S := S1024x1) hz2]
  simp only [View.readAt_eq_ld, harg2.read_unread, harg3.read_unread, harg4.read_unread, harg5.read_unread, harg6.read_unread, harg7.read_unread,
    View.ld_unit_zero (S := S1024x1024) hz2, View.ld_unit_zero (S := S1024x1) hz2,
    View.readCov_unit_zero (S := S1024x1) _ hz2, View.readCov_unit_zero (S := S1024x1024) _ hz2]

end Cert.KernelIdeal.Hand

end
-- ==== Proof.KIRecurDefs.lean ====
/-
  One step of the attention kernel's recurrence on its three running arrays (numerator block, maximum column,
  denominator column), written with the kernel's own arithmetic at any float instance: the step of a middle key
  block, the starting values, and the last key block's step with its final division.
-/
import proofs.«107257_j65481071400351_2_alg».proof.Proof.Gen.KernelIdeal.Skeleton

noncomputable section

namespace Cert.KernelIdeal.Recur

open Cert.KernelIdeal Cert.KernelIdeal.Gen Idealize.ShloMosaic

variable {F : FTy → Type} [FloatOps F]

/-- The three running arrays: the numerator block, the maximum column, the denominator column. -/
abbrev Trip3 (F : FTy → Type) : Type := Vec F S1024x1024 .f32 × Vec F S1024x1 .f32 × Vec F S1024x1 .f32

/-- The starting values: zero numerator, the finite starting maximum, zero denominator. -/
def startTrip : Trip3 F := (k1_pay6, k1_pay4, k1_pay5)

/-- One block of keys x1 and values x2 folded into the running arrays p of the query block x0. -/
def stepTrip (x0 x1 x2 : Vec F S1024x1024 .bf16) (p : Trip3 F) : Trip3 F :=
  (k1_pay1 (k1_pay12 x0 x1 p.2.1 p.2.1 p.1) (k1_pay13 x0 x1 p.2.1) x2, k1_pay2 (k1_pay8 x0 x1 p.2.1),
    k1_pay11 x0 x1 p.2.1 p.2.1 p.2.2)

/-- The last block's step: the same, and the numerator divided by the denominator. -/
def lastTrip (x0 x1 x2 : Vec F S1024x1024 .bf16) (p : Trip3 F) : Trip3 F :=
  (k1_pay3 (stepTrip x0 x1 x2 p).1 (stepTrip x0 x1 x2 p).2.2, (stepTrip x0 x1 x2 p).2.1, (stepTrip x0 x1 x2 p).2.2)

end Cert.KernelIdeal.Recur

end
-- ==== Proof.KIRecurCases.lean ====
/-
  After each grid point of the attention kernel the three running arrays hold the kernel's step applied to what
  the point before left: from the starting values at a query block's first key block, with the final division at
  its last. At any float instance.
-/
import proofs.«107257_j65481071400351_2_alg».proof.Proof.KIFrame1
import proofs.«107257_j65481071400351_2_alg».proof.Proof.KIPieces
import proofs.«107257_j65481071400351_2_alg».proof.Proof.KIRecurDefs

set_option maxRecDepth 16384

noncomputable section

namespace Cert.KernelIdeal.Recur

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Three arrays are equal when each is. -/
theorem trip_ext {α β γ : Type} {a a' : α} {b b' : β} {d d' : γ} (ha : a = a') (hb : b = b') (hd : d = d') :
    (a, b, d) = (a', b', d') := by subst ha hb hd; rfl

/-- A query block's first key block: the step from the starting values. -/
theorem outs_A (c : Dev nD) (t : Fin cfg1.N) (h0 : t.val % 8 = 0) :
    outsAt1 V c t.val t.isLt = stepTrip (F := F) (iblk1 V c 0 t) (iblk1 V c 1 t) (iblk1 V c 2 t) startTrip := by
  refine (outsAt1_A V c t h0).trans ?_
  unfold tripleOf stepTrip startTrip
  exact trip_ext
    (piecesA_o c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => by have := (hcond1_1 t).mp h; omega) (iblk1 V c 0 t) (iblk1 V c 1 t) (iblk1 V c 2 t))
    (piecesA_m c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => by have := (hcond1_1 t).mp h; omega) (iblk1 V c 0 t) (iblk1 V c 1 t) (iblk1 V c 2 t))
    (piecesA_l c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => by have := (hcond1_1 t).mp h; omega) (iblk1 V c 0 t) (iblk1 V c 1 t) (iblk1 V c 2 t))

/-- A middle key block: the step from what the point before left. -/
theorem outs_B (c : Dev nD) (t : Fin cfg1.N) (h0 : ¬t.val % 8 = 0) (h1 : ¬t.val % 8 = 7) :
    outsAt1 V c t.val t.isLt = stepTrip (F := F) (iblk1 V c 0 t) (iblk1 V c 1 t) (iblk1 V c 2 t) (prevAt1 V c t) := by
  refine (outsAt1_B V c t h0 h1).trans ?_
  unfold tripleOf stepTrip
  exact trip_ext
    (piecesB_o c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (prevAt1 V c t).1 (prevAt1 V c t).2.1 (prevAt1 V c t).2.2)
    (piecesB_m c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (prevAt1 V c t).1 (prevAt1 V c t).2.1 (prevAt1 V c t).2.2)
    (piecesB_l c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (prevAt1 V c t).1 (prevAt1 V c t).2.1 (prevAt1 V c t).2.2)

/-- The last key block: the step from what the point before left, then the division. -/
theorem outs_C (c : Dev nD) (t : Fin cfg1.N) (h0 : ¬t.val % 8 = 0) (h1 : t.val % 8 = 7) :
    outsAt1 V c t.val t.isLt = lastTrip (F := F) (iblk1 V c 0 t) (iblk1 V c 1 t) (iblk1 V c 2 t) (prevAt1 V c t) := by
  refine (outsAt1_C V c t h0 h1).trans ?_
  unfold tripleOf lastTrip stepTrip
  exact trip_ext
    (piecesC_o c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (prevAt1 V c t).1 (prevAt1 V c t).2.1 (prevAt1 V c t).2.2)
    (piecesC_m c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (prevAt1 V c t).1 (prevAt1 V c t).2.1 (prevAt1 V c t).2.2)
    (piecesC_l c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (prevAt1 V c t).1 (prevAt1 V c t).2.1 (prevAt1 V c t).2.2)

end Cert.KernelIdeal.Recur

end
-- ==== Proof.KIRecurStep.lean ====
/-
  On the extended reals the kernel's step on its three running arrays is the specification's block step: the new
  maximum, the rebased denominator and numerator; the starting values are the specification's; the last step divides.
-/
import proofs.«107257_j65481071400351_2_alg».proof.Proof.KIRecurDefs
import proofs.«107257_j65481071400351_2_alg».proof.Proof.Payloads
import proofs.«107257_j65481071400351_2_alg».proof.Proof.Spec

noncomputable section

open scoped BigOperators

namespace Cert.KernelIdeal.Recur

open Cert.KernelIdeal Cert.KernelIdeal.Gen Cert.KernelIdeal.Pay Cert.Attn Idealize.ShloMosaic Idealize.ShloMosaic.ValueIdx

/-- A state of the recurrence as the three running arrays. -/
def tripOf (s : St) : Trip3 Ideal := (s.o, s.m, s.l)

/-- A state after the final division: the numerator over the row's denominator. -/
def lastOf (s : St) : Trip3 Ideal := (fun j => Ideal.div (s.o j) (s.l (ix2 (j 0) 0)), s.m, s.l)

/-- The kernel's starting values are the specification's. -/
theorem startTrip_eq : startTrip (F := Ideal) = tripOf st0 := by
  unfold startTrip tripOf st0
  rw [pay4_eq, pay5_eq, pay6_eq]

/-- The new maximum column. -/
theorem step_m (q k v : Vec Ideal S1024x1024 .bf16) (s : St) :
    k1_pay2 (F := Ideal) (k1_pay8 q k s.m) = (step q k v s).m := by
  rw [pay2_eq]
  funext i
  obtain ⟨r, u, rfl⟩ : ∃ (r : Fin 1024) (u : Fin 1), i = ix2 r u := ⟨i 0, i 1, eq_ix2 i⟩
  obtain rfl : u = 0 := Subsingleton.elim _ _
  exact pay8_at q k s.m r

/-- The new denominator column. -/
theorem step_l (q k v : Vec Ideal S1024x1024 .bf16) (s : St) :
    k1_pay11 (F := Ideal) q k s.m s.m s.l = (step q k v s).l := by
  funext i
  obtain ⟨r, u, rfl⟩ : ∃ (r : Fin 1024) (u : Fin 1), i = ix2 r u := ⟨i 0, i 1, eq_ix2 i⟩
  obtain rfl : u = 0 := Subsingleton.elim _ _
  exact (pay11_at q k s.m s.m s.l r).trans rfl

/-- The new numerator block. -/
theorem step_o (q k v : Vec Ideal S1024x1024 .bf16) (s : St) :
    k1_pay1 (F := Ideal) (k1_pay12 q k s.m s.m s.o) (k1_pay13 q k s.m) v = (step q k v s).o := by
  funext j
  obtain ⟨r, e, rfl⟩ : ∃ (r e : Fin 1024), j = ix2 r e := ⟨j 0, j 1, eq_ix2 j⟩
  exact (pay1_at q k v s.m s.m s.o r e).trans rfl

/-- The kernel's step on a state's arrays is the specification's step. -/
theorem stepTrip_tripOf (q k v : Vec Ideal S1024x1024 .bf16) (s : St) :
    stepTrip q k v (tripOf s) = tripOf (step q k v s) := by
  unfold stepTrip tripOf
  exact Prod.ext (step_o q k v s) (Prod.ext (step_m q k v s) (step_l q k v s))

/-- The last step: the specification's step, then the division. -/
theorem lastTrip_tripOf (q k v : Vec Ideal S1024x1024 .bf16) (s : St) :
    lastTrip q k v (tripOf s) = lastOf (step q k v s) := by
  unfold lastTrip
  rw [stepTrip_tripOf]
  unfold tripOf lastOf
  refine Prod.ext ?_ rfl
  funext j
  obtain ⟨r, e, rfl⟩ : ∃ (r e : Fin 1024), j = ix2 r e := ⟨j 0, j 1, eq_ix2 j⟩
  exact pay3_at (step q k v s).o (step q k v s).l r e

end Cert.KernelIdeal.Recur

end
-- ==== Proof.KIRecur.lean ====
/-
  The recurrence of the attention kernel on the extended reals: after grid point t (query block t / 8, key block
  t mod 8) the three running arrays hold the specification's state after t mod 8 + 1 key blocks, and after a query
  block's last key block the output block holds the numerator over the denominator.
-/
import proofs.«107257_j65481071400351_2_alg».proof.Proof.KIRecurCases
import proofs.«107257_j65481071400351_2_alg».proof.Proof.KIRecurStep

set_option maxRecDepth 16384

noncomputable section

namespace Cert.KernelIdeal.Recur

open Cert.KernelIdeal Cert.KernelIdeal.Gen Cert.KernelIdeal.Hand Cert.Attn Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The query block and the key block of a grid point. -/
abbrev qOf (t : Fin cfg1.N) : Fin 8 := ⟨t.val / 8, by have := lt_of_lt_of_eq t.isLt (show cfg1.N = 64 from N_1); omega⟩
abbrev kOf (t : Fin cfg1.N) : Fin 8 := ⟨t.val % 8, Nat.mod_lt _ (by decide)⟩

/-- One more key block folded in. -/
theorem run_succ (Q K Vv : SX.Idx → EReal) (qi : Fin 8) (j : ℕ) (hj : j < 8) :
    run Q K Vv qi (j + 1) = step (blockOf Q qi) (blockOf K ⟨j, hj⟩) (blockOf Vv ⟨j, hj⟩) (run Q K Vv qi j) := by
  rw [run]; exact dif_pos hj

variable (V : (c : Dev nD) → (b : Ref sig .tc) → Buf (Elt Ideal) ((c : Thread nD τ).loc b)) (c : Dev nD)
variable (Q K Vv : SX.Idx → EReal)

/-- The point before. -/
abbrev prevT (t : Fin cfg1.N) : Fin cfg1.N := ⟨t.val - 1, Nat.lt_of_le_of_lt (Nat.sub_le _ _) t.isLt⟩

/-- What the running arrays hold after point t, in the specification's terms. -/
def Inv (t : Fin cfg1.N) : Prop :=
  outsAt1 (F := Ideal) V c t.val t.isLt
    = if t.val % 8 = 7 then lastOf (run Q K Vv (qOf t) (t.val % 8 + 1)) else tripOf (run Q K Vv (qOf t) (t.val % 8 + 1))

variable (hq : ∀ t : Fin cfg1.N, (iblk1 (F := Ideal) V c 0 t : Vec Ideal S1024x1024 .bf16) = blockOf Q (qOf t))
variable (hk : ∀ t : Fin cfg1.N, (iblk1 (F := Ideal) V c 1 t : Vec Ideal S1024x1024 .bf16) = blockOf K (kOf t))
variable (hv : ∀ t : Fin cfg1.N, (iblk1 (F := Ideal) V c 2 t : Vec Ideal S1024x1024 .bf16) = blockOf Vv (kOf t))

include hq hk hv

/-- At a query block's first key block. -/
theorem inv_A (t : Fin cfg1.N) (h0 : t.val % 8 = 0) : Inv V c Q K Vv t := by
  unfold Inv
  rw [if_neg (by omega), outs_A V c t h0, hq t, hk t, hv t, startTrip_eq, run_succ Q K Vv (qOf t) (t.val % 8) (kOf t).isLt]
  have e : run Q K Vv (qOf t) (t.val % 8) = st0 := by rw [h0]; rfl
  rw [e]
  exact stepTrip_tripOf _ _ _ st0

/-- At a middle key block, from the state the point before left. -/
theorem inv_B (t : Fin cfg1.N) (h0 : ¬t.val % 8 = 0) (h1 : ¬t.val % 8 = 7)
    (ih : prevAt1 V c t = tripOf (run Q K Vv (qOf t) (t.val % 8))) : Inv V c Q K Vv t := by
  unfold Inv
  rw [if_neg h1, outs_B V c t h0 h1, hq t, hk t, hv t, ih, run_succ Q K Vv (qOf t) (t.val % 8) (kOf t).isLt]
  exact stepTrip_tripOf _ _ _ _

/-- At the last key block, from the state the point before left. -/
theorem inv_C (t : Fin cfg1.N) (h0 : ¬t.val % 8 = 0) (h1 : t.val % 8 = 7)
    (ih : prevAt1 V c t = tripOf (run Q K Vv (qOf t) (t.val % 8))) : Inv V c Q K Vv t := by
  unfold Inv
  rw [if_pos h1, outs_C V c t h0 h1, hq t, hk t, hv t, ih, run_succ Q K Vv (qOf t) (t.val % 8) (kOf t).isLt]
  exact lastTrip_tripOf _ _ _ _

omit hq hk hv in
/-- The point before a point that is not a first key block is in the same query block, one key block earlier, and
    not a last key block. -/
theorem prev_of_inv (t : Fin cfg1.N) (h0 : ¬t.val % 8 = 0) (ihp : Inv V c Q K Vv (prevT t)) :
    prevAt1 V c t = tripOf (run Q K Vv (qOf t) (t.val % 8)) := by
  have h64 : t.val < 64 := lt_of_lt_of_eq t.isLt (show cfg1.N = 64 from N_1)
  have hne : ¬(prevT t).val % 8 = 7 := by show ¬(t.val - 1) % 8 = 7; omega
  have hm : (prevT t).val % 8 + 1 = t.val % 8 := by show (t.val - 1) % 8 + 1 = t.val % 8; omega
  have hqe : qOf (prevT t) = qOf t := Fin.ext (by show (t.val - 1) / 8 = t.val / 8; omega)
  have e : run Q K Vv (qOf (prevT t)) ((prevT t).val % 8 + 1) = run Q K Vv (qOf t) (t.val % 8) := by rw [hqe, hm]
  exact (ihp.trans (if_neg hne)).trans (congrArg tripOf e)

/-- The invariant at every point. -/
theorem inv_all : ∀ (n : ℕ) (hn : n < cfg1.N), Inv V c Q K Vv ⟨n, hn⟩ := by
  intro n
  induction n using Nat.strong_induction_on with
  | _ n ih =>
    intro hn
    by_cases h0 : n % 8 = 0
    · exact inv_A V c Q K Vv hq hk hv ⟨n, hn⟩ h0
    · have hp : n - 1 < cfg1.N := Nat.lt_of_le_of_lt (Nat.sub_le _ _) hn
      have ihp : Inv V c Q K Vv (prevT ⟨n, hn⟩) := ih (n - 1) (by omega) hp
      have hprev := prev_of_inv V c Q K Vv ⟨n, hn⟩ h0 ihp
      by_cases h1 : n % 8 = 7
      · exact inv_C V c Q K Vv hq hk hv ⟨n, hn⟩ h0 h1 hprev
      · exact inv_B V c Q K Vv hq hk hv ⟨n, hn⟩ h0 h1 hprev

/-- After every point that is not a last key block: the specification's state. -/
theorem outsAt1_mid (t : Fin cfg1.N) (h1 : ¬t.val % 8 = 7) :
    outsAt1 (F := Ideal) V c t.val t.isLt = tripOf (run Q K Vv (qOf t) (t.val % 8 + 1)) :=
  (inv_all V c Q K Vv hq hk hv t.val t.isLt).trans (if_neg h1)

/-- After a query block's last key block: the specification's state after all eight, divided. -/
theorem outsAt1_last (t : Fin cfg1.N) (h1 : t.val % 8 = 7) :
    outsAt1 (F := Ideal) V c t.val t.isLt = lastOf (run Q K Vv (qOf t) 8) := by
  have e := (inv_all V c Q K Vv hq hk hv t.val t.isLt).trans (if_pos h1)
  rw [h1] at e
  exact e

/-- The output block after a query block's last key block, at an entry: the numerator over the row's denominator. -/
theorem outsAt1_last_at (t : Fin cfg1.N) (h1 : t.val % 8 = 7) (r e : Fin 1024) :
    (outsAt1 (F := Ideal) V c t.val t.isLt).1 (ix2 r e)
      = Ideal.div ((run Q K Vv (qOf t) 8).o (ix2 r e)) ((run Q K Vv (qOf t) 8).l (ix2 r 0)) := by
  rw [outsAt1_last V c Q K Vv hq hk hv t h1]
  rfl

/-- The three running arrays after every point. -/
theorem outsAt1_eq (t : Fin cfg1.N) :
    (outsAt1 (F := Ideal) V c t.val t.isLt).2.1 = (run Q K Vv (qOf t) (t.val % 8 + 1)).m
      ∧ (outsAt1 (F := Ideal) V c t.val t.isLt).2.2 = (run Q K Vv (qOf t) (t.val % 8 + 1)).l
      ∧ (outsAt1 (F := Ideal) V c t.val t.isLt).1
          = (if t.val % 8 = 7 then (fun j => Ideal.div ((run Q K Vv (qOf t) (t.val % 8 + 1)).o j)
                ((run Q K Vv (qOf t) (t.val % 8 + 1)).l (ix2 (j 0) 0)))
              else (run Q K Vv (qOf t) (t.val % 8 + 1)).o) := by
  have e := inv_all V c Q K Vv hq hk hv t.val t.isLt
  unfold Inv at e
  by_cases h1 : t.val % 8 = 7
  · rw [if_pos h1] at e
    rw [if_pos h1, e]
    exact ⟨rfl, rfl, rfl⟩
  · rw [if_neg h1] at e
    rw [if_neg h1, e]
    exact ⟨rfl, rfl, rfl⟩

end Cert.KernelIdeal.Recur

end
-- ==== Proof.LibRealLaw.lean ====
/- The real-number law behind a linear cross-attention, stated over the extended reals.

   At the ideal reading a float is an extended real.  Two programs compute, from real inputs
   `l e`, `g m e`, `v m`,

     reference:  ∑ m, ((∑ e, l e * g m e) / 1024) * v m
     kernel:     ∑ e, l e * ((∑ m, g m e * v m) * (1/1024))

   Over the reals these agree: distribute the constant and exchange the two finite sums.  Over the
   extended reals multiplication does not distribute over addition in general (`⊤ + ⊥`, `0 * ⊤`),
   so the law is stated for extended reals that are known to be (coercions of) real numbers, and
   proved by pulling the coercion `ℝ → EReal` outside every product and finite sum. -/
import Idealize.ShloMosaic.PureOps.Ideal

noncomputable section

open Idealize.ShloMosaic

namespace Cert.Attn.RealLaw

/-! ### Extended reals that are real numbers -/

/-- An extended real is *real* when it is the image of some real number, that is, it is neither
    `⊤` nor `⊥`. -/
def IsReal (x : EReal) : Prop := ∃ r : ℝ, x = (r : EReal)

/-- The image of a real number is real. -/
theorem isReal_coe (r : ℝ) : IsReal (r : EReal) := ⟨r, rfl⟩

/-- The product of two real extended reals is real: `↑a * ↑b = ↑(a * b)`. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The sum of two real extended reals is real: `↑a + ↑b = ↑(a + b)`. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The coercion `ℝ → EReal` commutes with a finite sum: the image of `∑ k ∈ s, f k` is the sum of
    the images. -/
theorem coe_sum {K : Type*} (s : Finset K) (f : K → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {E M K : Type*} [Fintype E] [Fintype M] [Fintype K]

/-- A finite sum of real extended reals is real. -/
theorem isReal_sum {f : K → EReal} (hf : ∀ k, IsReal (f k)) : IsReal (∑ k, f k) := by
  choose f' hf' using hf
  refine ⟨∑ k, f' k, ?_⟩
  rw [coe_sum]
  exact Finset.sum_congr rfl fun k _ => hf' k

/-- A finite sum of products of real extended reals is real. -/
theorem isReal_sum_mul {a b : K → EReal} (ha : ∀ k, IsReal (a k)) (hb : ∀ k, IsReal (b k)) :
    IsReal (∑ k, a k * b k) :=
  isReal_sum fun k => isReal_mul (ha k) (hb k)

/-- The hyperbolic tangent of a real extended real is real: on the image of `r` it is the image of
    `Real.tanh r`. -/
theorem isReal_tanh {x : EReal} (hx : IsReal x) : IsReal (Ideal.tanh x) := by
  obtain ⟨r, rfl⟩ := hx
  exact ⟨Real.tanh r, Ideal.tanh_coe r⟩

/-! ### The two literals -/

/-- The single-precision pattern `0x3A800000` (sign `0`, exponent field `117`, significand field `0`)
    denotes `2 ^ (117 - 127) = 2 ^ (-10) = 1 / 1024`. -/
theorem inv_1024 : Ideal.ofBits .f32 0x3A800000#32 = (((1 / 1024 : ℝ)) : EReal) := by
  simp [Ideal.ofBits, Ideal.ieee, -EReal.coe_mul]; norm_num

/-- The single-precision pattern `0x44800000` (sign `0`, exponent field `137`, significand field `0`)
    denotes `2 ^ (137 - 127) = 2 ^ 10 = 1024`. -/
theorem lit_1024 : Ideal.ofBits .f32 0x44800000#32 = ((1024 : ℝ) : EReal) := by
  simp [Ideal.ofBits, Ideal.ieee, -EReal.coe_mul]; norm_num

/-! ### The law -/

/-- The reassociation law over the reals: for real numbers `l e`, `g m e`, `v m` over finite index
    types, `∑ m, ((∑ e, l e * g m e) * c) * v m = ∑ e, l e * ((∑ m, g m e * v m) * c)`.  Distribute
    the products over the inner sums, exchange the two sums, and compare term by term. -/
theorem reassoc_real (l : E → ℝ) (g : M → E → ℝ) (v : M → ℝ) (c : ℝ) :
    (∑ m, (∑ e, l e * g m e) * c * v m) = ∑ e, l e * ((∑ m, g m e * v m) * c) := by
  simp only [Finset.sum_mul, Finset.mul_sum]
  rw [Finset.sum_comm]
  refine Finset.sum_congr rfl fun e _ => Finset.sum_congr rfl fun m _ => ?_
  ring

/-- The reassociation law over the extended reals, for real entries: if every `l e`, `g m e` and
    `v m` is real then
    `∑ m, ((∑ e, l e * g m e) / 1024) * v m = ∑ e, l e * ((∑ m, g m e * v m) * (1/1024))`,
    where `/` is the ideal division.  Division by the nonzero real `1024` is multiplication by its
    reciprocal; then both sides are images of real numbers, equal by the law over the reals. -/
theorem reassoc (l : E → EReal) (g : M → E → EReal) (v : M → EReal)
    (hl : ∀ e, IsReal (l e)) (hg : ∀ m e, IsReal (g m e)) (hv : ∀ m, IsReal (v m)) :
    (∑ m, Ideal.div (∑ e, l e * g m e) ((1024 : ℝ) : EReal) * v m)
      = ∑ e, l e * ((∑ m, g m e * v m) * (((1 / 1024 : ℝ)) : EReal)) := by
  choose l' hl' using hl
  choose g' hg' using hg
  choose v' hv' using hv
  have h1024 : (1024 : ℝ) ≠ 0 := by norm_num
  simp only [hl', hg', hv', Ideal.div_coe h1024, ← EReal.coe_mul, ← coe_sum]
  exact congrArg _ (reassoc_real l' g' v' (1 / 1024))

/-- The same law with a common additive tail `x` (any extended real) on both sides. -/
theorem reassoc_add (l : E → EReal) (g : M → E → EReal) (v : M → EReal)
    (hl : ∀ e, IsReal (l e)) (hg : ∀ m e, IsReal (g m e)) (hv : ∀ m, IsReal (v m)) (x : EReal) :
    (∑ m, Ideal.div (∑ e, l e * g m e) ((1024 : ℝ) : EReal) * v m) + x
      = (∑ e, l e * ((∑ m, g m e * v m) * (((1 / 1024 : ℝ)) : EReal))) + x :=
  congrArg (· + x) (reassoc l g v hl hg hv)

end Cert.Attn.RealLaw

end
-- ==== Proof.LibOnlineSoftmax.lean ====
/-
  The online softmax recurrence on the extended reals, and the closed forms of its running state.

  One row of attention scores arrives in blocks `s 0, s 1, …` over a finite index type `J`, with one column of
  values `v 0, v 1, …` beside them. The recurrence keeps three numbers: the running maximum `m`, the running
  denominator `l` and the running numerator `a`; at block `n` it replaces them by

      m' = max m (sup_j s n j),   l' = e^(m - m') · l + Σ_j e^(s n j - m'),   a' = e^(m - m') · a + Σ_j e^(s n j - m') · v n j,

  starting from `(-∞, 0, 0)`. When every score and value is a real number, after `n` blocks

      m = the maximum of the scores seen,  l = Σ_{k<n} Σ_j e^(s k j - m),  a = Σ_{k<n} Σ_j e^(s k j - m) · v k j,

  because `e^(μ - μ') · e^(x - μ) = e^(x - μ')` for real `μ, μ', x` and a real factor distributes over a finite real sum
  (at the first block the factor `e^(-∞ - m')` multiplies `0`). Consequently `a / l` after the last block is the softmax
  of the whole row applied to the values: `Σ_n (e^(S n - M) / Σ_n' e^(S n' - M)) · X n`, the denominator being a positive real.
-/
import proofs.«107257_j65481071400351_2_alg».proof.Proof.LibRealLaw

noncomputable section

open scoped BigOperators

namespace Cert.Attn.Online

open Idealize.ShloMosaic Cert.Attn.RealLaw

/-- A fold of `max` from `-∞` is the supremum. -/
theorem fold_max_bot {ι : Type*} (t : Finset ι) (f : ι → EReal) : t.fold max ⊥ f = t.sup f := by
  classical
  induction t using Finset.induction_on with
  | empty => simp
  | insert a t ha ih => rw [Finset.fold_insert ha, Finset.sup_insert, ih]

variable {J : Type*} [Fintype J]

/-- The running maximum after `n` blocks. -/
def runM (s : ℕ → J → EReal) : ℕ → EReal
  | 0 => ⊥
  | n + 1 => max (runM s n) (Finset.univ.sup (s n))

/-- The running denominator after `n` blocks. -/
def runL (s : ℕ → J → EReal) : ℕ → EReal
  | 0 => 0
  | n + 1 => Ideal.exp (runM s n - runM s (n + 1)) * runL s n + ∑ j, Ideal.exp (s n j - runM s (n + 1))

/-- The running numerator after `n` blocks, for one column `v` of values. -/
def runA (s v : ℕ → J → EReal) : ℕ → EReal
  | 0 => 0
  | n + 1 => Ideal.exp (runM s n - runM s (n + 1)) * runA s v n + ∑ j, Ideal.exp (s n j - runM s (n + 1)) * v n j

/-- The running maximum is the supremum of the scores seen. -/
theorem runM_eq_sup (s : ℕ → J → EReal) (n : ℕ) :
    runM s n = (Finset.range n).sup fun k => Finset.univ.sup (s k) := by
  induction n with
  | zero => simp [runM]
  | succ n ih => rw [runM, ih, Finset.range_add_one, Finset.sup_insert, max_comm]

/-- Over real scores and a nonempty block the running maximum is a real number from the first block on. -/
theorem runM_real [Nonempty J] (s' : ℕ → J → ℝ) (n : ℕ) :
    ∃ μ : ℝ, runM (fun k j => ((s' k j : ℝ) : EReal)) (n + 1) = (μ : EReal) := by
  induction n with
  | zero =>
    obtain ⟨j, -, hj⟩ := Finset.exists_mem_eq_sup Finset.univ Finset.univ_nonempty (fun j : J => ((s' 0 j : ℝ) : EReal))
    exact ⟨s' 0 j, by rw [runM, runM, hj]; exact max_eq_right bot_le⟩
  | succ n ih =>
    obtain ⟨μ, hμ⟩ := ih
    obtain ⟨j, -, hj⟩ := Finset.exists_mem_eq_sup Finset.univ Finset.univ_nonempty (fun j : J => ((s' (n + 1) j : ℝ) : EReal))
    exact ⟨max μ (s' (n + 1) j), by rw [runM, hμ, hj]; exact (EReal.coe_strictMono.monotone.map_max).symm⟩

/-- The real rescaling law: `e^(μ - μ') · Σ e^(x - μ) · g = Σ e^(x - μ') · g`. -/
theorem rescale (R : Finset ℕ) (s' g : ℕ → J → ℝ) (μ μ' : ℝ) :
    Real.exp (μ - μ') * ∑ k ∈ R, ∑ j, Real.exp (s' k j - μ) * g k j = ∑ k ∈ R, ∑ j, Real.exp (s' k j - μ') * g k j := by
  rw [Finset.mul_sum]
  refine Finset.sum_congr rfl fun k _ => ?_
  rw [Finset.mul_sum]
  refine Finset.sum_congr rfl fun j _ => ?_
  rw [← mul_assoc, ← Real.exp_add]
  congr 2
  ring

/-- The running numerator in closed form. -/
theorem runA_closed [Nonempty J] (s' v' : ℕ → J → ℝ) (n : ℕ) :
    runA (fun k j => ((s' k j : ℝ) : EReal)) (fun k j => ((v' k j : ℝ) : EReal)) n
      = ∑ k ∈ Finset.range n, ∑ j, Ideal.exp (((s' k j : ℝ) : EReal) - runM (fun k j => ((s' k j : ℝ) : EReal)) n) * ((v' k j : ℝ) : EReal) := by
  induction n with
  | zero => simp [runA]
  | succ n ih =>
    rw [runA, ih, Finset.sum_range_succ]
    refine congrArg (· + _) ?_
    cases n with
    | zero => simp
    | succ n =>
      obtain ⟨μ, hμ⟩ := runM_real s' n
      obtain ⟨μ', hμ'⟩ := runM_real s' (n + 1)
      simp only [hμ, hμ', ← EReal.coe_sub, Ideal.exp_coe, ← EReal.coe_mul, ← coe_sum]
      exact congrArg _ (rescale _ s' v' μ μ')

/-- The running denominator in closed form. -/
theorem runL_closed [Nonempty J] (s' : ℕ → J → ℝ) (n : ℕ) :
    runL (fun k j => ((s' k j : ℝ) : EReal)) n
      = ∑ k ∈ Finset.range n, ∑ j, Ideal.exp (((s' k j : ℝ) : EReal) - runM (fun k j => ((s' k j : ℝ) : EReal)) n) := by
  induction n with
  | zero => simp [runL]
  | succ n ih =>
    rw [runL, ih, Finset.sum_range_succ]
    refine congrArg (· + _) ?_
    cases n with
    | zero => simp
    | succ n =>
      obtain ⟨μ, hμ⟩ := runM_real s' n
      obtain ⟨μ', hμ'⟩ := runM_real s' (n + 1)
      simp only [hμ, hμ', ← EReal.coe_sub, Ideal.exp_coe, ← EReal.coe_mul, ← coe_sum]
      refine congrArg _ ?_
      simpa using rescale (Finset.range (n + 1)) s' (fun _ _ => (1 : ℝ)) μ μ'

end Cert.Attn.Online

end
-- ==== Proof.LawStep.lean ====
/-
  One block of the blocked softmax recurrence on a single row, over the extended reals, when every quantity is a real
  number; and the identity between the quotient of the two running sums and the row-wise softmax.

  With running maximum `μ`, denominator `Σ e^(s - μ)` and numerator `Σ e^(s - μ) · g` over the blocks seen, the step to a
  new maximum `μ'` multiplies both sums by `e^(μ - μ')` and adds the new block's terms: since
  `e^(μ - μ') · e^(s - μ) = e^(s - μ')` on the reals, the sums keep their shape with `μ'` in place of `μ`. Nothing here uses
  that `μ'` is the maximum: only that it is a real number. For the same reason the quotient
  `(Σ e^(s - M) · g) / (Σ e^(s - M))` does not depend on the real number `M`, and equals `Σ (e^(s - R) / Σ e^(s - R)) · g`.
-/
import proofs.«107257_j65481071400351_2_alg».proof.Proof.LibOnlineSoftmax

noncomputable section

open scoped BigOperators

namespace Cert.Attn.Law

open Idealize.ShloMosaic Cert.Attn.RealLaw Cert.Attn.Online

/-- The maximum of a real number and a fold of `max` from `-∞` over real numbers is a real number. -/
theorem max_fold_real {ι : Type*} (a : ℝ) (t : Finset ι) (f : ι → ℝ) :
    ∃ μ : ℝ, max (a : EReal) (t.fold max ⊥ fun c => (f c : EReal)) = (μ : EReal) := by
  classical
  induction t using Finset.induction_on generalizing a with
  | empty => exact ⟨a, by simp⟩
  | insert c t hc ih =>
    obtain ⟨μ, hμ⟩ := ih (max a (f c))
    refine ⟨μ, ?_⟩
    rw [Finset.fold_insert hc, ← max_assoc, ← hμ]
    exact congrArg (max · _) (EReal.coe_strictMono.monotone.map_max).symm

/-- A fold of `max` from `-∞` over real numbers indexed by a nonempty finite set is a real number. -/
theorem fold_real {ι : Type*} (t : Finset ι) (ht : t.Nonempty) (f : ι → ℝ) :
    ∃ μ : ℝ, (t.fold max ⊥ fun c => (f c : EReal)) = (μ : EReal) := by
  classical
  obtain ⟨c, hc⟩ := ht
  rw [← Finset.insert_erase hc, Finset.fold_insert (Finset.notMem_erase c t)]
  exact max_fold_real (f c) _ f

variable {J : Type*} [Fintype J]

/-- One block folded into the weighted running sum: the old sum over the first `n` blocks, based at `μ`, rescaled to
    `μ'`, plus the block `n` terms, is the sum over the first `n + 1` blocks based at `μ'`. -/
theorem step_weighted (s g : ℕ → J → ℝ) (n : ℕ) (μ μ' : ℝ) :
    Ideal.exp ((μ : EReal) - (μ' : EReal)) * ((∑ k ∈ Finset.range n, ∑ c, Real.exp (s k c - μ) * g k c : ℝ) : EReal)
        + ∑ c, Ideal.exp ((s n c : EReal) - (μ' : EReal)) * (g n c : EReal)
      = ((∑ k ∈ Finset.range (n + 1), ∑ c, Real.exp (s k c - μ') * g k c : ℝ) : EReal) := by
  simp only [← EReal.coe_sub, Ideal.exp_coe, ← EReal.coe_mul, ← coe_sum, ← EReal.coe_add]
  refine congrArg _ ?_
  rw [rescale, Finset.sum_range_succ]

/-- The same for the unweighted running sum (the denominator). -/
theorem step_plain (s : ℕ → J → ℝ) (n : ℕ) (μ μ' : ℝ) :
    Ideal.exp ((μ : EReal) - (μ' : EReal)) * ((∑ k ∈ Finset.range n, ∑ c, Real.exp (s k c - μ) : ℝ) : EReal)
        + ∑ c, Ideal.exp ((s n c : EReal) - (μ' : EReal))
      = ((∑ k ∈ Finset.range (n + 1), ∑ c, Real.exp (s k c - μ') : ℝ) : EReal) := by
  have h := step_weighted s (fun _ _ => (1 : ℝ)) n μ μ'
  simpa using h

variable {T : Type*} [Fintype T]

/-- Over the reals: the quotient of the two sums based at `M` is the softmax based at `R` applied to `g`. -/
theorem quotient_real [Nonempty T] (σ g : T → ℝ) (M R : ℝ) :
    (∑ t, Real.exp (σ t - M) * g t) * (1 / ∑ t, Real.exp (σ t - M))
      = ∑ t, Real.exp (σ t - R) * (1 / ∑ t', Real.exp (σ t' - R)) * g t := by
  have hM : ∀ t, Real.exp (σ t - M) = Real.exp (R - M) * Real.exp (σ t - R) := fun t => by
    rw [← Real.exp_add]; congr 1; ring
  have hD : 0 < ∑ t, Real.exp (σ t - R) := Finset.sum_pos (fun t _ => Real.exp_pos _) Finset.univ_nonempty
  have hE : 0 < Real.exp (R - M) := Real.exp_pos _
  simp only [hM, mul_assoc]
  rw [← Finset.mul_sum, ← Finset.mul_sum]
  have : ∀ t, Real.exp (σ t - R) * ((1 / ∑ t', Real.exp (σ t' - R)) * g t)
      = (Real.exp (σ t - R) * g t) * (1 / ∑ t', Real.exp (σ t' - R)) := fun t => by ring
  simp only [this]
  rw [← Finset.sum_mul]
  field_simp

/-- Over the extended reals, for real entries: numerator over denominator (the ideal division), both based at `M`, is
    the sum of the softmax weights based at `R`, each the ideal quotient of `e^(σ t - R)` by `0 + Σ e^(σ t' - R)`,
    times `g`. Both denominators are positive reals, so each division is the product with the reciprocal. -/
theorem quotient_eq [Nonempty T] (σ g : T → ℝ) (M R : ℝ) :
    Ideal.div ((∑ t, Real.exp (σ t - M) * g t : ℝ) : EReal) ((∑ t, Real.exp (σ t - M) : ℝ) : EReal)
      = ∑ t, Ideal.div (Ideal.exp ((σ t : EReal) - (R : EReal))) (0 + ∑ t', Ideal.exp ((σ t' : EReal) - (R : EReal)))
          * (g t : EReal) := by
  have hDM : (∑ t, Real.exp (σ t - M)) ≠ 0 :=
    (Finset.sum_pos (fun t _ => Real.exp_pos _) Finset.univ_nonempty).ne'
  have hDR : (∑ t, Real.exp (σ t - R)) ≠ 0 :=
    (Finset.sum_pos (fun t _ => Real.exp_pos _) Finset.univ_nonempty).ne'
  simp only [zero_add, ← EReal.coe_sub, Ideal.exp_coe, ← coe_sum, Ideal.div_coe hDM, Ideal.div_coe hDR, ← EReal.coe_mul]
  exact congrArg _ (quotient_real σ g M R)

end Cert.Attn.Law

end
-- ==== Proof.LawBlocks.lean ====
/-
  A sum over 8192 positions is the sum over eight blocks of 1024: position `t = k · 1024 + c`.
-/
import Mathlib.Algebra.BigOperators.Fin
import Mathlib.Logic.Equiv.Fin.Basic

open scoped BigOperators

namespace Cert.Attn.Law

/-- Split a sum over `Fin 8192` into blocks: block `k < 8`, position `c` inside the block, at `k * 1024 + c`. The block
    summand is given on all of `ℕ` and is only read at `k < 8`. -/
theorem sum_blocks {M : Type*} [AddCommMonoid M] (F : Fin 8192 → M) (G : ℕ → Fin 1024 → M)
    (hG : ∀ (k : ℕ) (hk : k < 8) (c : Fin 1024), G k c = F ⟨k * 1024 + c.val, by have := c.isLt; omega⟩) :
    ∑ t, F t = ∑ k ∈ Finset.range 8, ∑ c, G k c := by
  rw [Finset.sum_range]
  have e : ∑ t : Fin 8192, F t = ∑ p : Fin 8 × Fin 1024, F (finProdFinEquiv p) :=
    (Equiv.sum_comp (finProdFinEquiv (m := 8) (n := 1024)) F).symm
  rw [e, Fintype.sum_prod_type]
  refine Finset.sum_congr rfl fun b _ => Finset.sum_congr rfl fun c _ => ?_
  rw [hG b.val b.isLt c]
  refine congrArg F (Fin.ext ?_)
  show c.val + 1024 * b.val = b.val * 1024 + c.val
  omega

end Cert.Attn.Law
-- ==== Proof.OnlineLaw.lean ====
/-
  The blocked recurrence of the specification equals the row-wise softmax, for real inputs.

  Fix a query row. Every score of the row is a real number, so the running maximum, started at a finite value, stays a
  real number `μ`; after `n` key blocks the running denominator is `Σ e^(s - μ)` and the running numerator at column `e`
  is `Σ e^(s - μ) · v`, the sums over the keys of the first `n` blocks (induction on `n`). After the eighth block the sums
  run over all 8192 keys, position `k · 1024 + c` being key `c` of block `k`, and numerator over denominator is the
  softmax of the row applied to the values, whatever real number the sums are based at.
-/
import proofs.«107257_j65481071400351_2_alg».proof.Proof.Spec
import proofs.«107257_j65481071400351_2_alg».proof.Proof.LawStep
import proofs.«107257_j65481071400351_2_alg».proof.Proof.LawBlocks

noncomputable section

open scoped BigOperators

namespace Cert.Attn

open Idealize.ShloMosaic Idealize.ShloMosaic.ValueIdx Cert.Attn.RealLaw Cert.Attn.Law

/-! ## The two literals are real numbers -/

/-- The starting value of the running maximum is a real number (exponent field 254, not the all-ones one). -/
theorem negBig_real : ∃ r : ℝ, negBig = (r : EReal) := by
  unfold negBig Ideal.ofBits Ideal.ieee
  simp only []
  rw [if_neg (by decide), if_neg (by decide)]
  exact ⟨_, rfl⟩

/-- The score scale is a real number (exponent field 122). -/
theorem scale_real : ∃ r : ℝ, scale = (r : EReal) := by
  unfold scale Ideal.ofBits Ideal.ieee
  simp only []
  rw [if_neg (by decide), if_neg (by decide)]
  exact ⟨_, rfl⟩

/-! ## Real arrays: projections and blocks -/

/-- The projection over the reals. -/
def projR (xr : SX.Idx → ℝ) (wr : SB.Idx → ℝ) : SX.Idx → ℝ :=
  fun i => ∑ k : Fin 1024, xr (ix2 (i 0) k) * wr (ix2 k (i 1))

/-- The projection of real arrays is the image of the real projection. -/
theorem proj_coe (xr : SX.Idx → ℝ) (wr : SB.Idx → ℝ) :
    proj (fun i => (xr i : EReal)) (fun i => (wr i : EReal)) = fun i => (projR xr wr i : EReal) := by
  funext i
  unfold proj projR
  simp only [← EReal.coe_mul, ← coe_sum]

/-- Row block `b` of a real array. -/
def blockOfR (A : SX.Idx → ℝ) (b : Fin 8) : SB.Idx → ℝ :=
  fun i => A (ix2 ⟨b.val * 1024 + (i 0).val, by have := idx2_lt0 i; have := b.isLt; omega⟩ (i 1))

/-- A block of a real array is the image of the real block. -/
theorem blockOf_coe (A : SX.Idx → ℝ) (b : Fin 8) :
    blockOf (fun i => (A i : EReal)) b = fun i => (blockOfR A b i : EReal) := rfl

/-- Block `n` for every natural number `n`: the array's block when `n < 8`, and zero beyond (never read). -/
def blk (A : SX.Idx → EReal) (n : ℕ) : SB.Idx → EReal := if h : n < 8 then blockOf A ⟨n, h⟩ else fun _ => 0

/-- The same over the reals. -/
def blkR (A : SX.Idx → ℝ) (n : ℕ) : SB.Idx → ℝ := if h : n < 8 then blockOfR A ⟨n, h⟩ else fun _ => 0

theorem blk_coe (A : SX.Idx → ℝ) : blk (fun i => (A i : EReal)) = fun n i => (blkR A n i : EReal) := by
  funext n i
  unfold blk blkR
  split_ifs with h
  · rfl
  · exact EReal.coe_zero.symm

/-! ## The recurrence over a sequence of blocks -/

/-- The recurrence with the key and value blocks given for every natural number. -/
def runSeq (q : SB.Idx → EReal) (kk vv : ℕ → SB.Idx → EReal) : ℕ → St
  | 0 => st0
  | n + 1 => step q (kk n) (vv n) (runSeq q kk vv n)

/-- Up to the eighth block the specification's recurrence is the one over the sequence of blocks. -/
theorem run_eq_runSeq (Q K V : SX.Idx → EReal) (qi : Fin 8) (n : ℕ) (hn : n ≤ 8) :
    run Q K V qi n = runSeq (blockOf Q qi) (blk K) (blk V) n := by
  induction n with
  | zero => rfl
  | succ n ih =>
    have h : n < 8 := hn
    rw [run, dif_pos h, ih (le_of_lt h), runSeq]
    unfold blk
    rw [dif_pos h, dif_pos h]

/-- The real score of row `r` of a query block against key `c` of key block `k`. -/
def sR (qr : SB.Idx → ℝ) (kr : ℕ → SB.Idx → ℝ) (σs : ℝ) (r : Fin 1024) (k : ℕ) (c : Fin 1024) : ℝ :=
  (∑ d : Fin 1024, qr (ix2 r d) * kr k (ix2 c d)) * σs

/-- A block score of real blocks is the image of the real score. -/
theorem blockScore_coe (qr : SB.Idx → ℝ) (kr : ℕ → SB.Idx → ℝ) (σs : ℝ) (hσ : scale = (σs : EReal))
    (r : Fin 1024) (k : ℕ) (c : Fin 1024) :
    blockScore (fun i => (qr i : EReal)) (fun i => (kr k i : EReal)) r c = (sR qr kr σs r k c : EReal) := by
  unfold blockScore sR
  rw [hσ]
  simp only [← EReal.coe_mul, ← coe_sum]

/-- The state of a row after `n` blocks: a real maximum `μ`, the denominator `Σ e^(s - μ)` and, at every column `e`, the
    numerator `Σ e^(s - μ) · v`, the sums over the keys of the first `n` blocks. -/
theorem runSeq_row (qr : SB.Idx → ℝ) (kr vr : ℕ → SB.Idx → ℝ) (σs : ℝ) (hσ : scale = (σs : EReal)) (r : Fin 1024)
    (n : ℕ) :
    ∃ μ : ℝ,
      (runSeq (fun i => (qr i : EReal)) (fun k i => (kr k i : EReal)) (fun k i => (vr k i : EReal)) n).m (ix2 r 0)
          = (μ : EReal) ∧
      (runSeq (fun i => (qr i : EReal)) (fun k i => (kr k i : EReal)) (fun k i => (vr k i : EReal)) n).l (ix2 r 0)
          = ((∑ k ∈ Finset.range n, ∑ c, Real.exp (sR qr kr σs r k c - μ) : ℝ) : EReal) ∧
      ∀ e : Fin 1024,
        (runSeq (fun i => (qr i : EReal)) (fun k i => (kr k i : EReal)) (fun k i => (vr k i : EReal)) n).o (ix2 r e)
          = ((∑ k ∈ Finset.range n, ∑ c, Real.exp (sR qr kr σs r k c - μ) * vr k (ix2 c e) : ℝ) : EReal) := by
  induction n with
  | zero =>
    obtain ⟨μ0, h0⟩ := negBig_real
    refine ⟨μ0, h0, ?_, fun e => ?_⟩
    · show (0 : EReal) = _
      simp
    · show (0 : EReal) = _
      simp
  | succ n ih =>
    obtain ⟨μ, hm, hl, ho⟩ := ih
    obtain ⟨μ', hμ'⟩ := max_fold_real μ Finset.univ (fun c => sR qr kr σs r n c)
    have hmNew : mNew (fun i => (qr i : EReal)) (fun i => (kr n i : EReal))
        (runSeq (fun i => (qr i : EReal)) (fun k i => (kr k i : EReal)) (fun k i => (vr k i : EReal)) n).m r
          = (μ' : EReal) := by
      unfold mNew
      rw [hm]
      simp only [blockScore_coe qr kr σs hσ]
      exact hμ'
    refine ⟨μ', hmNew, ?_, fun e => ?_⟩
    · show lNew (fun i => (qr i : EReal)) (fun i => (kr n i : EReal)) _ _ r = _
      unfold lNew alpha prob
      rw [hmNew, hm, hl]
      simp only [blockScore_coe qr kr σs hσ]
      exact step_plain (sR qr kr σs r) n μ μ'
    · show oNew (fun i => (qr i : EReal)) (fun i => (kr n i : EReal)) (fun i => (vr n i : EReal)) _ _ r e = _
      unfold oNew alpha prob
      rw [hmNew, hm, ho e]
      simp only [blockScore_coe qr kr σs hσ]
      exact step_weighted (sR qr kr σs r) (fun k c => vr k (ix2 c e)) n μ μ'

/-! ## All eight blocks: sums over the 8192 keys -/

/-- The real score of position `s` against position `t`. -/
def scoreR (Qr Kr : SX.Idx → ℝ) (σs : ℝ) (s t : Fin 8192) : ℝ :=
  (∑ d : Fin 1024, Qr (ix2 s d) * Kr (ix2 t d)) * σs

/-- After the eighth block, row `r` of query block `qi` (position `a = qi · 1024 + r`) holds, for some real `M`, the
    denominator `Σ_t e^(score a t - M)` and the numerators `Σ_t e^(score a t - M) · V t e` over all 8192 keys. -/
theorem run_sums (Qr Kr Vr : SX.Idx → ℝ) (σs : ℝ) (hσ : scale = (σs : EReal)) (qi : Fin 8) (r : Fin 1024)
    (a : Fin 8192) (ha : a.val = qi.val * 1024 + r.val) :
    ∃ M : ℝ,
      (run (fun i => (Qr i : EReal)) (fun i => (Kr i : EReal)) (fun i => (Vr i : EReal)) qi 8).l (ix2 r 0)
          = ((∑ t, Real.exp (scoreR Qr Kr σs a t - M) : ℝ) : EReal) ∧
      ∀ e : Fin 1024,
        (run (fun i => (Qr i : EReal)) (fun i => (Kr i : EReal)) (fun i => (Vr i : EReal)) qi 8).o (ix2 r e)
          = ((∑ t, Real.exp (scoreR Qr Kr σs a t - M) * Vr (ix2 t e) : ℝ) : EReal) := by
  rw [run_eq_runSeq _ _ _ _ 8 le_rfl, blockOf_coe, blk_coe, blk_coe]
  obtain ⟨M, -, hl, ho⟩ := runSeq_row (blockOfR Qr qi) (blkR Kr) (blkR Vr) σs hσ r 8
  have hs : ∀ (k : ℕ) (hk : k < 8) (c : Fin 1024),
      sR (blockOfR Qr qi) (blkR Kr) σs r k c
        = scoreR Qr Kr σs a ⟨k * 1024 + c.val, by have := c.isLt; omega⟩ := by
    intro k hk c
    have hrow : (⟨qi.val * 1024 + r.val, by have := r.isLt; have := qi.isLt; omega⟩ : Fin 8192) = a :=
      Fin.ext ha.symm
    unfold sR scoreR blkR
    rw [dif_pos hk, ← hrow]
    rfl
  refine ⟨M, ?_, fun e => ?_⟩
  · rw [hl]
    refine congrArg _ (sum_blocks _ _ fun k hk c => ?_).symm
    rw [hs k hk c]
  · rw [ho e]
    refine congrArg _ (sum_blocks _ _ fun k hk c => ?_).symm
    rw [hs k hk c]
    unfold blkR
    rw [dif_pos hk]
    rfl

/-! ## The two arrangements at an entry -/

theorem blocked_apply (x : SX.Idx → EReal) (rot ent : SB.Idx → EReal) (a : Fin 8192) (e : Fin 1024) :
    blocked x rot ent (ix2 a e)
      = Ideal.div
          ((run (proj x rot) (proj x ent) x ⟨a.val / 1024, by have := a.isLt; omega⟩ 8).o
            (ix2 ⟨a.val % 1024, Nat.mod_lt _ (by decide)⟩ e))
          ((run (proj x rot) (proj x ent) x ⟨a.val / 1024, by have := a.isLt; omega⟩ 8).l
            (ix2 ⟨a.val % 1024, Nat.mod_lt _ (by decide)⟩ 0)) := rfl

theorem softmaxed_apply (x : SX.Idx → EReal) (rot ent : SB.Idx → EReal) (a : Fin 8192) (e : Fin 1024) :
    softmaxed x rot ent (ix2 a e)
      = ∑ t : Fin 8192, Ideal.div (expo x rot ent a t) (0 + ∑ t' : Fin 8192, expo x rot ent a t') * x (ix2 t e) := rfl

/-- The two arrangements agree on real arrays, stated for the real witnesses. -/
theorem blocked_eq_softmaxed_coe (xr : SX.Idx → ℝ) (rr er : SB.Idx → ℝ) :
    blocked (fun i => (xr i : EReal)) (fun i => (rr i : EReal)) (fun i => (er i : EReal))
      = softmaxed (fun i => (xr i : EReal)) (fun i => (rr i : EReal)) (fun i => (er i : EReal)) := by
  obtain ⟨σs, hσ⟩ := scale_real
  funext i
  obtain ⟨a, e, rfl⟩ : ∃ (a : Fin 8192) (e : Fin 1024), i = ix2 a e := ⟨i 0, i 1, eq_ix2 i⟩
  have hscore : ∀ t, score (fun i => (xr i : EReal)) (fun i => (rr i : EReal)) (fun i => (er i : EReal)) a t
      = (scoreR (projR xr rr) (projR xr er) σs a t : EReal) := by
    intro t
    unfold score scoreR
    rw [proj_coe, proj_coe, hσ]
    simp only [← EReal.coe_mul, ← coe_sum]
  obtain ⟨R, hR⟩ : ∃ R : ℝ,
      rowMax (fun i => (xr i : EReal)) (fun i => (rr i : EReal)) (fun i => (er i : EReal)) a = (R : EReal) := by
    unfold rowMax
    simp only [hscore]
    obtain ⟨R, hR⟩ := fold_real Finset.univ Finset.univ_nonempty
      (fun t => scoreR (projR xr rr) (projR xr er) σs a t)
    exact ⟨R, by rw [hR]; exact max_eq_right bot_le⟩
  obtain ⟨M, hl, ho⟩ := run_sums (projR xr rr) (projR xr er) xr σs hσ
    ⟨a.val / 1024, by have := a.isLt; omega⟩ ⟨a.val % 1024, Nat.mod_lt _ (by decide)⟩ a
    (Nat.div_add_mod' a.val 1024).symm
  rw [blocked_apply, softmaxed_apply]
  simp only [expo, hscore, hR]
  rw [proj_coe, proj_coe, hl, ho e]
  exact quotient_eq (fun t => scoreR (projR xr rr) (projR xr er) σs a t) (fun t => xr (ix2 t e)) M R

/-- For real inputs the blocked recurrence computes the row-wise softmax attention. -/
theorem blocked_eq_softmaxed (x : SX.Idx → EReal) (rot ent : SB.Idx → EReal)
    (hx : AllReal x) (hr : AllReal rot) (he : AllReal ent) :
    blocked x rot ent = softmaxed x rot ent := by
  choose xr hxr using hx
  choose rr hrr using hr
  choose er her using he
  obtain rfl : x = fun i => (xr i : EReal) := funext hxr
  obtain rfl : rot = fun i => (rr i : EReal) := funext hrr
  obtain rfl : ent = fun i => (er i : EReal) := funext her
  exact blocked_eq_softmaxed_coe xr rr er

end Cert.Attn

end
-- ==== Proof.KIGlue.lean ====
/-
  The kernel program's result array, on the extended reals, is the blocked arrangement of the specification applied
  to the three argument arrays.

  The two conversions of the weight matrices on the host change nothing on the extended reals, so the projection kernel
  is entered with the positions and the two weight matrices as launched; its three output arrays are the two
  projections of the positions and the positions themselves. The attention kernel is entered with those three arrays
  as queries, keys and values: its input blocks at grid point t are their row blocks (the queries' at t / 8, the keys'
  and the values' at t mod 8), so after the last key block of query block t / 8 the output block holds, at row r and
  column e, the numerator over the denominator of the specification's state after all eight key blocks; that is the
  blocked arrangement at row (t / 8) · 1024 + r, and those blocks of rows are the whole result array.
-/
import proofs.«107257_j65481071400351_2_alg».proof.Proof.KIRun
import proofs.«107257_j65481071400351_2_alg».proof.Proof.KIValue0
import proofs.«107257_j65481071400351_2_alg».proof.Proof.KIValue1
import proofs.«107257_j65481071400351_2_alg».proof.Proof.KIRecur
import proofs.«107257_j65481071400351_2_alg».proof.Proof.OnlineLaw
import proofs.«107257_j65481071400351_2_alg».proof.Proof.Spec

set_option maxRecDepth 16384

noncomputable section

namespace Cert.KernelIdeal.Glue

open Cert.KernelIdeal Cert.KernelIdeal.Gen Cert.KernelIdeal.Hand Cert.Attn
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The projection kernel's entry: the host conversions are the identity on the extended reals -/

/-- The first weight matrix after its conversion is the matrix as launched. -/
theorem conv1 :
    (Ve1 (F := Ideal) m ρ c main_v0 : S1024x1024.Idx → EReal) = m ((c.tc : Thread nD τ).loc main_arg1) := by
  dsimp only [Ve1, W1, W0, hostOps0]
  after_results
  rfl

/-- The second weight matrix after its conversion is the matrix as launched. -/
theorem conv2 :
    (Ve1 (F := Ideal) m ρ c main_v1 : S1024x1024.Idx → EReal) = m ((c.tc : Thread nD τ).loc main_arg2) := by
  dsimp only [Ve1, W1, W0, hostOps0]
  after_results
  rfl

/-- The positions are untouched by the conversions. -/
theorem entry0 :
    (Ve1 (F := Ideal) m ρ c main_arg0 : S8192x1024.Idx → EReal) = m ((c.tc : Thread nD τ).loc main_arg0) :=
  W1_of_arg m ρ c main_arg0 (by decide)

/-! ## The attention kernel's entry: the projection kernel's three output arrays -/

/-- The queries: the positions projected by the first weight matrix. -/
theorem queries :
    (Ve2 (F := Ideal) m ρ c main_v2_0 : S8192x1024.Idx → EReal)
      = proj (m ((c.tc : Thread nD τ).loc main_arg0)) (m ((c.tc : Thread nD τ).loc main_arg1)) :=
  (W2_arr m ρ c 3).trans ((Val0.final0_3 (Ve1 m ρ) c).trans (congrArg₂ proj (entry0 m ρ c) (conv1 m ρ c)))

/-- The keys: the positions projected by the second weight matrix. -/
theorem keys :
    (Ve2 (F := Ideal) m ρ c main_v2_1 : S8192x1024.Idx → EReal)
      = proj (m ((c.tc : Thread nD τ).loc main_arg0)) (m ((c.tc : Thread nD τ).loc main_arg2)) :=
  (W2_arr m ρ c 4).trans ((Val0.final0_4 (Ve1 m ρ) c).trans (congrArg₂ proj (entry0 m ρ c) (conv2 m ρ c)))

/-- The values: the positions. -/
theorem values :
    (Ve2 (F := Ideal) m ρ c main_v2_2 : S8192x1024.Idx → EReal) = m ((c.tc : Thread nD τ).loc main_arg0) :=
  (W2_arr m ρ c 5).trans ((Val0.final0_5 (Ve1 m ρ) c).trans (entry0 m ρ c))

/-! ## The result array -/

/-- The blocked arrangement at row `qi · 1024 + r`: numerator over denominator of query block `qi`'s state after
    all eight key blocks, at row `r` of the block. -/
theorem blocked_at (x : SX.Idx → EReal) (rot ent : SB.Idx → EReal) (qi : Fin 8) (r e : Fin 1024) (a : Fin 8192)
    (ha : a.val = qi.val * 1024 + r.val) :
    blocked x rot ent (ix2 a e)
      = Ideal.div ((run (proj x rot) (proj x ent) x qi 8).o (ix2 r e))
          ((run (proj x rot) (proj x ent) x qi 8).l (ix2 r 0)) := by
  have hr := r.isLt
  have hq : (⟨a.val / 1024, by have := a.isLt; omega⟩ : Fin 8) = qi := Fin.ext (by show a.val / 1024 = qi.val; omega)
  have hr' : (⟨a.val % 1024, Nat.mod_lt _ (by decide)⟩ : Fin 1024) = r :=
    Fin.ext (by show a.val % 1024 = r.val; omega)
  rw [blocked_apply, hq, hr']

/-- The kernel program's result array is the blocked arrangement of the three argument arrays. -/
theorem kernel_value :
    (dat1 (F := Ideal) (Ve2 m ρ) c).arrAt 3 cfg1.N
      = blocked (m ((c.tc : Thread nD τ).loc main_arg0)) (m ((c.tc : Thread nD τ).loc main_arg1))
          (m ((c.tc : Thread nD τ).loc main_arg2)) := by
  have hq : ∀ t : Fin cfg1.N, (iblk1 (F := Ideal) (Ve2 m ρ) c 0 t : Vec Ideal S1024x1024 .bf16)
      = blockOf (proj (m ((c.tc : Thread nD τ).loc main_arg0)) (m ((c.tc : Thread nD τ).loc main_arg1))) (Recur.qOf t) :=
    fun t => (Val1.iblk1_0_eq (Ve2 m ρ) c t (Recur.qOf t) rfl).trans
      (congrArg (fun A : SX.Idx → EReal => blockOf A (Recur.qOf t)) (queries m ρ c))
  have hk : ∀ t : Fin cfg1.N, (iblk1 (F := Ideal) (Ve2 m ρ) c 1 t : Vec Ideal S1024x1024 .bf16)
      = blockOf (proj (m ((c.tc : Thread nD τ).loc main_arg0)) (m ((c.tc : Thread nD τ).loc main_arg2))) (Recur.kOf t) :=
    fun t => (Val1.iblk1_1_eq (Ve2 m ρ) c t (Recur.kOf t) rfl).trans
      (congrArg (fun A : SX.Idx → EReal => blockOf A (Recur.kOf t)) (keys m ρ c))
  have hv : ∀ t : Fin cfg1.N, (iblk1 (F := Ideal) (Ve2 m ρ) c 2 t : Vec Ideal S1024x1024 .bf16)
      = blockOf (m ((c.tc : Thread nD τ).loc main_arg0)) (Recur.kOf t) :=
    fun t => (Val1.iblk1_2_eq (Ve2 m ρ) c t (Recur.kOf t) rfl).trans
      (congrArg (fun A : SX.Idx → EReal => blockOf A (Recur.kOf t)) (values m ρ c))
  refine Val1.final1_of (Ve2 m ρ) c _ fun t h7 r e => ?_
  rw [after1_3, Recur.outsAt1_last_at (Ve2 m ρ) c _ _ _ hq hk hv t h7 r e]
  exact (blocked_at _ _ _ (Recur.qOf t) r e _ rfl).symm

end Cert.KernelIdeal.Glue

end
-- ==== Proof.KIFinite.lean ====
/-
  From the stated precondition to real entries.

  The precondition says, of each of the three argument arrays, that every entry's absolute value is below +∞ (the
  conjunction of the three "all" reductions is 1). On the extended reals `|x| = max x (-x)`, and `max x (-x) < ⊤` excludes
  both `x = ⊤` and `x = ⊥` (there `-x = ⊤`): so every entry is a real number.
-/
import proofs.«107257_j65481071400351_2_alg».proof.Defs
import proofs.«107257_j65481071400351_2_alg».proof.Proof.Gen.Pre_finite_inputs
import proofs.«107257_j65481071400351_2_alg».proof.Proof.Spec
import Idealize.ShloMosaic.Lib.ReduceAll

noncomputable section

namespace Cert.KernelIdeal.Finite

open Idealize.ShloMosaic Idealize.SL.Sem

/-- The single-precision word `0x7F800000` (exponent field all ones, significand zero, sign 0) is +∞. -/
theorem inf_word : Ideal.ofBits .f32 0x7F800000#32 = (⊤ : EReal) := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- The result shape of a reduction over every axis has one index. -/
instance : Subsingleton Cert.Pre_finite_inputs.S_.Idx := ⟨fun a b => funext fun d => d.elim0⟩

/-- Under the precondition every entry of the three argument arrays is a real number. -/
theorem allReal_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.Attn.AllReal (s := Cert.Attn.SX)
        (m ((c.tc : Thread Cert.KernelIdeal.nD Cert.KernelIdeal.τ).loc Cert.KernelIdeal.main_arg0))
      ∧ Cert.Attn.AllReal (s := Cert.Attn.SB)
        (m ((c.tc : Thread Cert.KernelIdeal.nD Cert.KernelIdeal.τ).loc Cert.KernelIdeal.main_arg1))
      ∧ Cert.Attn.AllReal (s := Cert.Attn.SB)
        (m ((c.tc : Thread Cert.KernelIdeal.nD Cert.KernelIdeal.τ).loc Cert.KernelIdeal.main_arg2)) := by
  have h0 := congrFun (h c) ValueIdx.ix0
  dsimp only [Cert.Pre_finite_inputs.fn, andi] at h0
  obtain ⟨h01, h2⟩ := IntOp.andi_eq_one.1 h0
  obtain ⟨h0', h1⟩ := IntOp.andi_eq_one.1 h01
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

end Cert.KernelIdeal.Finite

end
-- ==== Proof.RefScale.lean ====
/-
  The score scale of the reference: one divided by the square root of 1024, on the extended reals, is the
  value of the f32 word of 1/32; and the two other words the reference spells, minus infinity and zero.
-/
import proofs.«107257_j65481071400351_2_alg».proof.Proof.Spec

noncomputable section

namespace Cert.ReferenceIdeal.RefValue

open Idealize.ShloMosaic

/-- The word of 1024.0 denotes 1024. -/
theorem ofBits_1024 : Ideal.ofBits .f32 0x44800000#32 = ((1024 : ℝ) : EReal) := by
  simp [Ideal.ofBits, Ideal.ieee, -EReal.coe_mul]; norm_num

/-- The word of 1.0 denotes 1. -/
theorem ofBits_one : Ideal.ofBits .f32 0x3F800000#32 = ((1 : ℝ) : EReal) := by
  simp [Ideal.ofBits, Ideal.ieee, -EReal.coe_mul]; norm_num

/-- The word of 0.03125 denotes 1/32. -/
theorem ofBits_inv32 : Ideal.ofBits .f32 0x3D000000#32 = ((1 / 32 : ℝ) : EReal) := by
  simp [Ideal.ofBits, Ideal.ieee, -EReal.coe_mul]; norm_num

/-- The word 0xFF800000 denotes minus infinity. -/
theorem ofBits_negInf : Ideal.ofBits .f32 0xFF800000#32 = (⊥ : EReal) := by
  simp [Ideal.ofBits, Ideal.ieee]

/-- The square root of 1024 is 32. -/
theorem sqrt_1024 : Real.sqrt 1024 = 32 := by
  rw [show (1024 : ℝ) = 32 ^ 2 by norm_num]
  exact Real.sqrt_sq (by norm_num)

/-- One over the square root of 1024 is the scale 1/32. -/
theorem scale_eq :
    Ideal.div (Ideal.ofBits .f32 0x3F800000#32) (Ideal.sqrt (Ideal.ofBits .f32 0x44800000#32)) = Cert.Attn.scale := by
  unfold Cert.Attn.scale
  rw [ofBits_1024, ofBits_one, ofBits_inv32, Ideal.sqrt_coe, if_neg (by norm_num), sqrt_1024,
    Ideal.div_coe (by norm_num), ← EReal.coe_mul, one_mul]

end Cert.ReferenceIdeal.RefValue

end
-- ==== Proof.RefSide.lean ====
import proofs.«107257_j65481071400351_2_alg».proof.Proof.Gen.ReferenceIdeal.Read
import proofs.«107257_j65481071400351_2_alg».proof.Proof.Spec
import proofs.«107257_j65481071400351_2_alg».proof.Proof.RefScale
import proofs.«107257_j65481071400351_2_alg».proof.Proof.LibRowMax

/-
  The reference program's result, read one operation at a time at an index, is the row-wise softmax arrangement
  of the specification: the two projections, the scaled scores, the row maximum, the exponentials, their row
  sums, the quotients, and the product with the values.
-/

noncomputable section

namespace Cert.ReferenceIdeal.RefValue

open Cert.ReferenceIdeal Cert.ReferenceIdeal.Gen Cert.ReferenceIdeal.Read Idealize.ShloMosaic Idealize.ShloMosaic.ValueIdx Cert.Attn

variable (x0 : (⟨S8192x1024, .f32⟩ : BufTy).Contents (Elt Ideal)) (x1 x2 : (⟨S1024x1024, .f32⟩ : BufTy).Contents (Elt Ideal))

/-- The first product is the projection of the positions by the first matrix. -/
theorem v0_eq : val_main_v0 (F := Ideal) x0 x1 = proj x0 x1 := by
  funext i
  rw [val_main_v0_apply]
  unfold proj
  refine Finset.sum_congr rfl fun k _ => ?_
  have el : lidx_main_v0 i k = ix2 (i 0) k := funext fun a => Fin.ext (by match a with | ⟨0, _⟩ => rfl | ⟨1, _⟩ => rfl)
  have er : ridx_main_v0 i k = ix2 k (i 1) := funext fun a => Fin.ext (by match a with | ⟨0, _⟩ => rfl | ⟨1, _⟩ => rfl)
  rw [el, er]
  rfl

/-- The second product is the projection by the second matrix. -/
theorem v1_eq : val_main_v1 (F := Ideal) x0 x2 = proj x0 x2 := by
  funext i
  rw [val_main_v1_apply]
  unfold proj
  refine Finset.sum_congr rfl fun k _ => ?_
  have el : lidx_main_v1 i k = ix2 (i 0) k := funext fun a => Fin.ext (by match a with | ⟨0, _⟩ => rfl | ⟨1, _⟩ => rfl)
  have er : ridx_main_v1 i k = ix2 k (i 1) := funext fun a => Fin.ext (by match a with | ⟨0, _⟩ => rfl | ⟨1, _⟩ => rfl)
  rw [el, er]
  rfl

/-- The broadcast factor is the scale 1/32 at every entry. -/
theorem v5_at (i : S8192x8192.Idx) : val_main_v5 (F := Ideal) i = scale := by
  rw [val_main_v5_apply, val_main_v3_apply, val_main_cst_0_apply, val_main_v2_apply, val_main_cst_apply]
  exact scale_eq

/-- The scaled score of position s against position t. -/
theorem v6_at (s t : Fin 8192) : val_main_v6 (F := Ideal) x0 x1 x2 (ix2 s t) = score x0 x1 x2 s t := by
  rw [val_main_v6_apply, val_main_v4_apply, v5_at, v0_eq, v1_eq, Ideal.mulf_def]
  unfold score
  refine congrArg (· * scale) (Finset.sum_congr rfl fun k _ => ?_)
  have el : lidx_main_v4 (ix2 s t) k = ix2 s k := funext fun a => Fin.ext (by match a with | ⟨0, _⟩ => rfl | ⟨1, _⟩ => rfl)
  have er : ridx_main_v4 (ix2 s t) k = ix2 t k := funext fun a => Fin.ext (by match a with | ⟨0, _⟩ => rfl | ⟨1, _⟩ => rfl)
  rw [el, er]

/-- Row s of the score matrix with column k put back is the entry (s, k). -/
theorem lift_row (h : S8192x8192.Reduces [1] S8192) (s : Fin 8192) (k : Fin (S8192x8192.size 1)) :
    h.lift (ix1 s) k = ix2 s (⟨k.val, k.isLt⟩ : Fin 8192) := by
  funext c; apply Fin.ext
  fin_cases c <;> rfl

/-- The reduction by maximum over a row is the fold of max from minus infinity over the row's scores. -/
theorem v7_at (s : Fin 8192) :
    val_main_v7 (F := Ideal) x0 x1 x2 (ix1 s)
      = (Finset.univ : Finset (Fin 8192)).fold max ⊥ (fun t => score x0 x1 x2 s t) := by
  have hR : S8192x8192.Reduces [1] S8192 := by decide
  unfold val_main_v7
  rw [Cert.LibRowMax.hostReduce_maximumf_single _ _ reducesTo_S8192x8192_S8192_d1 hR h_S_ (ix1 s),
    val_main_cst_1_apply, Ideal.ofBits_def, ofBits_negInf]
  refine congrArg (fun f => (Finset.univ : Finset (Fin 8192)).fold max ⊥ f) (funext fun k => ?_)
  rw [lift_row hR s k]
  exact v6_at x0 x1 x2 s _

/-- The row maximum. -/
theorem v9_at (s : Fin 8192) : val_main_v9 (F := Ideal) x0 x1 x2 (ix1 s) = rowMax x0 x1 x2 s := by
  rw [val_main_v9_apply, val_main_v8_apply, val_main_cst_2_apply, v7_at, Ideal.maximumf_def, Ideal.ofBits_def, ofBits_negInf]
  rfl

/-- The unnormalised weight of position t for position s. -/
theorem v13_at (s t : Fin 8192) : val_main_v13 (F := Ideal) x0 x1 x2 (ix2 s t) = expo x0 x1 x2 s t := by
  have e : idx_main_v10 (idx_main_v11 (ix2 s t)) = ix1 s := funext fun a => Fin.ext (by match a with | ⟨0, _⟩ => rfl)
  rw [val_main_v13_apply, val_main_v12_apply, val_main_v11_apply, val_main_v10_apply, e, v9_at, v6_at,
    Ideal.hostUnary_exp_def, Ideal.subf_def]
  rfl

/-- The row sum of the weights, from the initial value zero. -/
theorem v14_at (s : Fin 8192) :
    val_main_v14 (F := Ideal) x0 x1 x2 (ix1 s) = 0 + ∑ t : Fin 8192, expo x0 x1 x2 s t := by
  rw [val_main_v14_apply, val_main_cst_3_apply, Ideal.ofBits_def, Ideal.ofBits_zero_f32]
  refine congrArg (0 + ·) (Finset.sum_congr rfl fun k _ => ?_)
  have e : idx_main_v14 (ix1 s) k = ix2 s k := funext fun a => Fin.ext (by match a with | ⟨0, _⟩ => rfl | ⟨1, _⟩ => rfl)
  rw [e, v13_at]

/-- The normalised weight. -/
theorem v17_at (s t : Fin 8192) :
    val_main_v17 (F := Ideal) x0 x1 x2 (ix2 s t)
      = Ideal.div (expo x0 x1 x2 s t) (0 + ∑ t' : Fin 8192, expo x0 x1 x2 s t') := by
  have e : idx_main_v15 (idx_main_v16 (ix2 s t)) = ix1 s := funext fun a => Fin.ext (by match a with | ⟨0, _⟩ => rfl)
  rw [val_main_v17_apply, val_main_v16_apply, val_main_v15_apply, e, v14_at, v13_at, Ideal.hostDivf_def]

/-- The reference's result is the softmax arrangement. -/
theorem ref_eq : val_main_v18 (F := Ideal) x0 x1 x2 = softmaxed x0 x1 x2 := by
  funext i
  obtain ⟨s, e, rfl⟩ : ∃ (s : Fin 8192) (e : Fin 1024), i = ix2 s e := ⟨i 0, i 1, eq_ix2 i⟩
  rw [val_main_v18_apply]
  unfold softmaxed
  refine Finset.sum_congr rfl fun t _ => ?_
  have el : lidx_main_v18 (ix2 s e) t = ix2 s t := funext fun a => Fin.ext (by match a with | ⟨0, _⟩ => rfl | ⟨1, _⟩ => rfl)
  have er : ridx_main_v18 (ix2 s e) t = ix2 t e := funext fun a => Fin.ext (by match a with | ⟨0, _⟩ => rfl | ⟨1, _⟩ => rfl)
  rw [el, er, v17_at]

end Cert.ReferenceIdeal.RefValue

end
-- ==== Proof.lean ====
/-
  Single-head attention over 8192 positions of width 1024. The kernel program converts the two weight matrices,
  computes queries, keys and values in one pallas_call over eight row blocks, and attends in a second pallas_call
  over an 8 x 8 grid (query block, key block) with an online softmax: a running maximum that starts at a finite
  value, a running denominator and a running numerator kept in the output block, divided once after the last key
  block. The reference forms the whole score matrix, subtracts each row's maximum, exponentiates, divides by the row
  sum and multiplies by the inputs.

  On the extended reals, with every input a real number, both are the same array: every score is real, so shifting
  a row's exponents by any real (the true row maximum, or the larger of it and the finite starting value) cancels
  between numerator and denominator, the denominators are positive reals, and the blocked recurrence telescopes to
  the full sums (the law is Cert.Attn.blocked_eq_softmaxed). The kernel's scale 1/32 is the word 0.03125; the
  reference's 1/sqrt(1024) is the same real since 1024 = 32².

  The three frames: each kernel program's run is built from its two pallas_calls' runs (the projection kernel in one
  case; the attention kernel in three cases by key-block coordinate, its two scratch columns carried from point to
  point by the region invariant); the reference's run is its host operations in order. The idealization rewrote
  nothing, so the preservation claim is trivial.
-/
import proofs.«107257_j65481071400351_2_alg».proof.Defs
import proofs.«107257_j65481071400351_2_alg».proof.Proof.Gen.Kernel
import proofs.«107257_j65481071400351_2_alg».proof.Proof.Gen.KernelIdeal
import proofs.«107257_j65481071400351_2_alg».proof.Proof.Gen.ReferenceIdeal
import proofs.«107257_j65481071400351_2_alg».proof.Proof.Gen.ReferenceIdeal.Run
import proofs.«107257_j65481071400351_2_alg».proof.Proof.Gen.ReferenceIdeal.Read
import proofs.«107257_j65481071400351_2_alg».proof.Proof.Gen.Pre_finite_inputs
import proofs.«107257_j65481071400351_2_alg».proof.Proof.KRun
import proofs.«107257_j65481071400351_2_alg».proof.Proof.KIRun
import proofs.«107257_j65481071400351_2_alg».proof.Proof.KIGlue
import proofs.«107257_j65481071400351_2_alg».proof.Proof.KIFinite
import proofs.«107257_j65481071400351_2_alg».proof.Proof.RefSide
import proofs.«107257_j65481071400351_2_alg».proof.Proof.OnlineLaw
import Idealize.ShloMosaic.Adequacy
import Idealize.ShloMosaic.Init

noncomputable section

namespace Cert.Proof

open Idealize.ShloMosaic Idealize.SL.Sem

/-- The word-level kernel program runs to the end and leaves its three argument arrays as launched. -/
theorem frame_k : Cert.frame_Kernel (hKernel := Cert.Kernel.Gen.facts) (hPre_finite_inputs := Cert.Pre_finite_inputs.Gen.facts) :=
  fun m ρ _ => Cert.Kernel.Hand.frame m ρ

/-- The same program read on the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the three inputs, all real: the kernel program's result array is the blocked
    recurrence's array, the reference's is the softmax arrangement's, and the two arrangements agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Attn.blocked (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run Cert.KernelIdeal.defs _ _).mono (fun _ h c => ⟨(h c).1.trans (Cert.KernelIdeal.Glue.kernel_value m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨hx, hr, he⟩ := Cert.KernelIdeal.Finite.allReal_of_pre m hpre c
    rw [(hagree c).1, (hagree c).2.1, (hagree c).2.2]
    exact ((Cert.ReferenceIdeal.Read.val_main_v18_eq _ _ _).trans (Cert.ReferenceIdeal.RefValue.ref_eq _ _ _)).trans
      (Cert.Attn.blocked_eq_softmaxed _ _ _ hx hr he).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
